-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096 : Shape := ⟨1, ![4096]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2 .f32) (main_arg1 : FVec F S4096 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4096x2 : Shape := ⟨2, ![4096, 2]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x1 : Shape := ⟨2, ![256, 1]⟩
abbrev S256x4096 : Shape := ⟨2, ![256, 4096]⟩
abbrev S_ : Shape := ⟨0, ![]⟩
abbrev S16777216 : Shape := ⟨1, ![16777216]⟩
abbrev S16384 : Shape := ⟨1, ![16384]⟩
abbrev S16777216x1 : Shape := ⟨2, ![16777216, 1]⟩
abbrev S16384x1 : Shape := ⟨2, ![16384, 1]⟩
abbrev S16384x2 : Shape := ⟨2, ![16384, 2]⟩

abbrev nBuf : Space → Nat
  | .hbm => 257
  | .vmem => 11
  | .smem => 0
  | _ => 0

abbrev hbmTy0_0 (i : Nat) : BufTy := match i % 128 with
  | 0 => ⟨S4096x2, .f32⟩
  | 1 => ⟨S4096, .f32⟩
  | 2 => ⟨S4096x1, .f32⟩
  | 3 => ⟨S4096x1, .f32⟩
  | 4 => ⟨S4096x1, .f32⟩
  | 5 => ⟨S4096x1, .f32⟩
  | 6 => ⟨S4096, .f32⟩
  | 7 => ⟨S1x4096, .f32⟩
  | 8 => ⟨S4096x1, .f32⟩
  | 9 => ⟨S4096, .f32⟩
  | 10 => ⟨S1x4096, .f32⟩
  | 11 => ⟨S1x4096, .f32⟩
  | 12 => ⟨S4096x4096, .i32⟩
  | 13 => ⟨S_, .i32⟩
  | 14 => ⟨S4096x4096, .i32⟩
  | 15 => ⟨S4096x4096, .i1⟩
  | 16 => ⟨S4096x4096, .i1⟩
  | 17 => ⟨S16777216, .i1⟩
  | 18 => ⟨S16777216, .i32⟩
  | 19 => ⟨S_, .i32⟩
  | 20 => ⟨S_, .i32⟩
  | 21 => ⟨S16777216, .i32⟩
  | 22 => ⟨S_, .i32⟩
  | 23 => ⟨S16777216, .i32⟩
  | 24 => ⟨S16777216, .i32⟩
  | 25 => ⟨S_, .i32⟩
  | 26 => ⟨S16777216, .i32⟩
  | 27 => ⟨S16777216, .i1⟩
  | 28 => ⟨S16777216, .i1⟩
  | 29 => ⟨S_, .i32⟩
  | 30 => ⟨S_, .i32⟩
  | 31 => ⟨S16777216, .i32⟩
  | 32 => ⟨S16777216, .i32⟩
  | 33 => ⟨S4096, .i32⟩
  | 34 => ⟨S4096x4096, .i32⟩
  | 35 => ⟨S16777216, .i32⟩
  | 36 => ⟨S4096, .i32⟩
  | 37 => ⟨S1x4096, .i32⟩
  | 38 => ⟨S4096x4096, .i32⟩
  | 39 => ⟨S16777216, .i32⟩
  | 40 => ⟨S_, .i32⟩
  | 41 => ⟨S16384, .i32⟩
  | 42 => ⟨S_, .i32⟩
  | 43 => ⟨S16777216, .i32⟩
  | 44 => ⟨S16777216, .i1⟩
  | 45 => ⟨S_, .i32⟩
  | 46 => ⟨S16777216, .i32⟩
  | 47 => ⟨S16777216, .i32⟩
  | 48 => ⟨S16777216, .i32⟩
  | 49 => ⟨S16777216x1, .i32⟩
  | 50 => ⟨S16384, .i32⟩
  | 51 => ⟨S_, .i32⟩
  | 52 => ⟨S16384, .i32⟩
  | 53 => ⟨S_, .i32⟩
  | 54 => ⟨S16777216, .i32⟩
  | 55 => ⟨S16777216, .i1⟩
  | 56 => ⟨S_, .i32⟩
  | 57 => ⟨S16777216, .i32⟩
  | 58 => ⟨S16777216, .i32⟩
  | 59 => ⟨S16777216, .i32⟩
  | 60 => ⟨S16777216x1, .i32⟩
  | 61 => ⟨S16384, .i32⟩
  | 62 => ⟨S_, .i32⟩
  | 63 => ⟨S_, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S_, .i32⟩
  | 71 => ⟨S_, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x2, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x2, .f32⟩
  | 96 => ⟨S16384x2, .f32⟩
  | 97 => ⟨S16384x2, .f32⟩
  | 98 => ⟨S_, .f32⟩
  | 99 => ⟨S16384, .f32⟩
  | 100 => ⟨S_, .f32⟩
  | 101 => ⟨S16384, .f32⟩
  | 102 => ⟨S16384, .f32⟩
  | 103 => ⟨S16384, .f32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S16384, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384, .f32⟩
  | 122 => ⟨S16384, .f32⟩
  | 123 => ⟨S16384, .f32⟩
  | 124 => ⟨S_, .i32⟩
  | 125 => ⟨S16384, .i32⟩
  | 126 => ⟨S16384, .i1⟩
  | 127 => ⟨S_, .f32⟩
  | _ => ⟨S4096x2, .f32⟩

abbrev hbmTy0_1 (i : Nat) : BufTy := match i % 128 with
  | 0 => ⟨S16384, .f32⟩
  | 1 => ⟨S16384, .i1⟩
  | 2 => ⟨S16384, .i1⟩
  | 3 => ⟨S16384, .i32⟩
  | 4 => ⟨S_, .i32⟩
  | 5 => ⟨S_, .i32⟩
  | 6 => ⟨S16384, .i32⟩
  | 7 => ⟨S_, .i32⟩
  | 8 => ⟨S16384, .i32⟩
  | 9 => ⟨S16384, .i32⟩
  | 10 => ⟨S_, .i32⟩
  | 11 => ⟨S16384, .i32⟩
  | 12 => ⟨S16384, .i1⟩
  | 13 => ⟨S16384, .i1⟩
  | 14 => ⟨S_, .i32⟩
  | 15 => ⟨S_, .i32⟩
  | 16 => ⟨S16384, .i32⟩
  | 17 => ⟨S16384, .i32⟩
  | 18 => ⟨S16384, .f32⟩
  | 19 => ⟨S16384x1, .f32⟩
  | 20 => ⟨S16384x2, .f32⟩
  | 21 => ⟨S16384x2, .f32⟩
  | 22 => ⟨S_, .i32⟩
  | 23 => ⟨S4096, .i32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S4096, .i32⟩
  | 33 => ⟨S_, .i32⟩
  | 34 => ⟨S4096, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S4096, .i32⟩
  | 44 => ⟨S_, .f32⟩
  | 45 => ⟨S4096x2, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S4096x2, .f32⟩
  | 55 => ⟨S_, .i32⟩
  | 56 => ⟨S4096, .i32⟩
  | 57 => ⟨S4096, .i1⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S_, .i32⟩
  | 67 => ⟨S4096, .i32⟩
  | 68 => ⟨S4096, .i32⟩
  | 69 => ⟨S_, .i32⟩
  | 70 => ⟨S_, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x2, .f32⟩
  | 86 => ⟨S_, .f32⟩
  | 87 => ⟨S4096x2, .f32⟩
  | 88 => ⟨S4096x2, .f32⟩
  | 89 => ⟨S4096x2, .f32⟩
  | 90 => ⟨S_, .i32⟩
  | 91 => ⟨S_, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S4096x2, .f32⟩
  | 107 => ⟨S_, .f32⟩
  | 108 => ⟨S4096x2, .f32⟩
  | 109 => ⟨S4096x2, .f32⟩
  | 110 => ⟨S4096x2, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x2, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x2, .f32⟩

abbrev hbmTy0_2 (i : Nat) : BufTy := match i % 128 with
  | 0 => ⟨S4096x2, .f32⟩
  | _ => ⟨S4096x2, .f32⟩

abbrev hbmTy (i : Nat) : BufTy := match i / 128 with
  | 0 => hbmTy0_0 i
  | 1 => hbmTy0_1 i
  | 2 => hbmTy0_2 i
  | _ => ⟨S4096x2, .f32⟩

abbrev bufTy : (tb : Table) → Fin (tcTables nBuf tb) → BufTy
  | .hbm, ⟨i, _⟩ => hbmTy i
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .i32⟩
  | .local _ .vmem, ⟨10, _⟩ => ⟨S256x4096, .i32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_call0_c : Ref sig .tc := ⟨.hbm, 19, rfl⟩
abbrev main_call0_call0_v0 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_c_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v46 : Ref sig .tc := ⟨.hbm, 69, rfl⟩
abbrev main_c_11 : Ref sig .tc := ⟨.hbm, 70, rfl⟩
abbrev main_c_12 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_15 : Ref sig .tc := ⟨.hbm, 87, rfl⟩
abbrev main_v55 : Ref sig .tc := ⟨.hbm, 88, rfl⟩
abbrev main_v56 : Ref sig .tc := ⟨.hbm, 89, rfl⟩
abbrev main_c_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_18 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_20 : Ref sig .tc := ⟨.hbm, 113, rfl⟩
abbrev main_v75 : Ref sig .tc := ⟨.hbm, 114, rfl⟩
abbrev main_v76 : Ref sig .tc := ⟨.hbm, 115, rfl⟩
abbrev main_c_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_22 : Ref sig .tc := ⟨.hbm, 124, rfl⟩
abbrev main_v84 : Ref sig .tc := ⟨.hbm, 125, rfl⟩
abbrev main_v85 : Ref sig .tc := ⟨.hbm, 126, rfl⟩
abbrev main_cst_23 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call4_call0_c : Ref sig .tc := ⟨.hbm, 132, rfl⟩
abbrev main_call4_call0_v0 : Ref sig .tc := ⟨.hbm, 133, rfl⟩
abbrev main_v90 : Ref sig .tc := ⟨.hbm, 134, rfl⟩
abbrev main_c_24 : Ref sig .tc := ⟨.hbm, 135, rfl⟩
abbrev main_v91 : Ref sig .tc := ⟨.hbm, 136, rfl⟩
abbrev main_v92 : Ref sig .tc := ⟨.hbm, 137, rfl⟩
abbrev main_c_25 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_26 : Ref sig .tc := ⟨.hbm, 142, rfl⟩
abbrev main_call5_v0 : Ref sig .tc := ⟨.hbm, 143, rfl⟩
abbrev main_call5_v1 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_27 : Ref sig .tc := ⟨.hbm, 150, rfl⟩
abbrev main_v101 : Ref sig .tc := ⟨.hbm, 151, rfl⟩
abbrev main_c_28 : Ref sig .tc := ⟨.hbm, 152, rfl⟩
abbrev main_v102 : Ref sig .tc := ⟨.hbm, 153, rfl⟩
abbrev main_v103 : Ref sig .tc := ⟨.hbm, 154, rfl⟩
abbrev main_c_29 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_30 : Ref sig .tc := ⟨.hbm, 161, rfl⟩
abbrev main_v109 : Ref sig .tc := ⟨.hbm, 162, rfl⟩
abbrev main_c_31 : Ref sig .tc := ⟨.hbm, 163, rfl⟩
abbrev main_v110 : Ref sig .tc := ⟨.hbm, 164, rfl⟩
abbrev main_v111 : Ref sig .tc := ⟨.hbm, 165, rfl⟩
abbrev main_c_32 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_33 : Ref sig .tc := ⟨.hbm, 172, rfl⟩
abbrev main_v117 : Ref sig .tc := ⟨.hbm, 173, rfl⟩
abbrev main_c_34 : Ref sig .tc := ⟨.hbm, 174, rfl⟩
abbrev main_v118 : Ref sig .tc := ⟨.hbm, 175, rfl⟩
abbrev main_v119 : Ref sig .tc := ⟨.hbm, 176, rfl⟩
abbrev main_c_35 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_c_36 : Ref sig .tc := ⟨.hbm, 183, rfl⟩
abbrev main_v125 : Ref sig .tc := ⟨.hbm, 184, rfl⟩
abbrev main_v126 : Ref sig .tc := ⟨.hbm, 185, rfl⟩
abbrev main_c_37 : Ref sig .tc := ⟨.hbm, 186, rfl⟩
abbrev main_call6_v0 : Ref sig .tc := ⟨.hbm, 187, rfl⟩
abbrev main_call6_v1 : Ref sig .tc := ⟨.hbm, 188, rfl⟩
abbrev main_v127 : Ref sig .tc := ⟨.hbm, 189, rfl⟩
abbrev main_c_38 : Ref sig .tc := ⟨.hbm, 190, rfl⟩
abbrev main_v128 : Ref sig .tc := ⟨.hbm, 191, rfl⟩
abbrev main_v129 : Ref sig .tc := ⟨.hbm, 192, rfl⟩
abbrev main_c_39 : Ref sig .tc := ⟨.hbm, 193, rfl⟩
abbrev main_call7_v0 : Ref sig .tc := ⟨.hbm, 194, rfl⟩
abbrev main_call7_v1 : Ref sig .tc := ⟨.hbm, 195, rfl⟩
abbrev main_v130 : Ref sig .tc := ⟨.hbm, 196, rfl⟩
abbrev main_c_40 : Ref sig .tc := ⟨.hbm, 197, rfl⟩
abbrev main_c_41 : Ref sig .tc := ⟨.hbm, 198, rfl⟩
abbrev main_call8_v0 : Ref sig .tc := ⟨.hbm, 199, rfl⟩
abbrev main_call8_v1 : Ref sig .tc := ⟨.hbm, 200, rfl⟩
abbrev main_call8_v2 : Ref sig .tc := ⟨.hbm, 201, rfl⟩
abbrev main_call8_v3 : Ref sig .tc := ⟨.hbm, 202, rfl⟩
abbrev main_call8_v4 : Ref sig .tc := ⟨.hbm, 203, rfl⟩
abbrev main_v131 : Ref sig .tc := ⟨.hbm, 204, rfl⟩
abbrev main_c_42 : Ref sig .tc := ⟨.hbm, 205, rfl⟩
abbrev main_v132 : Ref sig .tc := ⟨.hbm, 206, rfl⟩
abbrev main_v133 : Ref sig .tc := ⟨.hbm, 207, rfl⟩
abbrev main_c_43 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_44 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_c_45 : Ref sig .tc := ⟨.hbm, 218, rfl⟩
abbrev main_c_46 : Ref sig .tc := ⟨.hbm, 219, rfl⟩
abbrev main_call9_v0 : Ref sig .tc := ⟨.hbm, 220, rfl⟩
abbrev main_call9_v1 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_v142 : Ref sig .tc := ⟨.hbm, 225, rfl⟩
abbrev main_c_47 : Ref sig .tc := ⟨.hbm, 226, rfl⟩
abbrev main_v143 : Ref sig .tc := ⟨.hbm, 227, rfl⟩
abbrev main_v144 : Ref sig .tc := ⟨.hbm, 228, rfl⟩
abbrev main_c_48 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_49 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_c_50 : Ref sig .tc := ⟨.hbm, 239, rfl⟩
abbrev main_v153 : Ref sig .tc := ⟨.hbm, 240, rfl⟩
abbrev main_v154 : Ref sig .tc := ⟨.hbm, 241, rfl⟩
abbrev main_c_51 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_c_52 : Ref sig .tc := ⟨.hbm, 248, rfl⟩
abbrev main_v160 : Ref sig .tc := ⟨.hbm, 249, rfl⟩
abbrev main_v161 : Ref sig .tc := ⟨.hbm, 250, rfl⟩
abbrev main_c_53 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4096x2_S4096x1_0_0 : S4096x2.Slices ![0, 0] S4096x1
  slices_S4096x2_S4096x1_0_1 : S4096x2.Slices ![0, 1] S4096x1
  shapeCasts_S4096_S4096x1 : S4096.ShapeCasts S4096x1
  shapeCasts_S4096x1_S4096 : S4096x1.ShapeCasts S4096
  shapeCasts_S4096_S1x4096 : S4096.ShapeCasts S1x4096
  iota_S256x4096_d0_w32 : S256x4096.Iotas .tc 32 [0]
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  natLt_1_32 : 1 < 32
  inb_S256x4096_S256x4096_0_0 : ∀ a, (![0, 0] : Fin 2 → Nat) a + S256x4096.size a ≤ S256x4096.size a
  h_S256x4096 : 0 < S256x4096.numel
  bcast_S_S4096x4096 : S_.BroadcastsInDim S4096x4096 (![] : Fin 0 → Fin S4096x4096.rank)
  shapeCasts_S4096x4096_S16777216 : S4096x4096.ShapeCasts S16777216
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S16777216 : S_.BroadcastsInDim S16777216 (![] : Fin 0 → Fin S16777216.rank)
  bcast_S4096_S4096x4096_0 : S4096.BroadcastsInDim S4096x4096 (![0] : Fin 1 → Fin S4096x4096.rank)
  bcast_S1x4096_S4096x4096_0_1 : S1x4096.BroadcastsInDim S4096x4096 (![0, 1] : Fin 2 → Fin S4096x4096.rank)
  bcast_S_S16384 : S_.BroadcastsInDim S16384 (![] : Fin 0 → Fin S16384.rank)
  bcast_S16777216_S16777216x1_0 : S16777216.BroadcastsInDim S16777216x1 (![0] : Fin 1 → Fin S16777216x1.rank)
  bcast_S16384_S16384x1_0 : S16384.BroadcastsInDim S16384x1 (![0] : Fin 1 → Fin S16384x1.rank)
  reducesTo_S16384x2_S16384_d1 : S16384x2.ReducesTo [1] S16384
  reduceWindows_S16384_S16384_w16384s1p16383_0 : S16384.ReduceWindows (![16384] : Fin 1 → Nat) ![1] ![16383] ![0] S16384
  bcast_S16384x1_S16384x2_0_1 : S16384x1.BroadcastsInDim S16384x2 (![0, 1] : Fin 2 → Fin S16384x2.rank)
  bcast_S_S4096 : S_.BroadcastsInDim S4096 (![] : Fin 0 → Fin S4096.rank)
  bcast_S_S4096x2 : S_.BroadcastsInDim S4096x2 (![] : Fin 0 → Fin S4096x2.rank)
  bcast_S4096_S4096x1_0 : S4096.BroadcastsInDim S4096x1 (![0] : Fin 1 → Fin S4096x1.rank)
  scatter_S16384_S16777216x1_S16777216_n_0_0_1_wf : ScatterDims.WF S16384 S16777216x1 S16777216 [] [0] [0] 1
  gather_S4096x2_S16384x1_S16384x2_1_0_n_n_0_1_12_wf : GatherDims.WF S4096x2 S16384x1 S16384x2 [1] [0] [] [0] [] 1 ![1, 2]
  gather_S4096_S16384x1_S16384_n_0_n_n_0_1_1_wf : GatherDims.WF S4096 S16384x1 S16384 [] [0] [] [0] [] 1 ![1]
  scatter_S4096_S16384x1_S16384_n_0_0_1_wf : ScatterDims.WF S4096 S16384x1 S16384 [] [0] [0] 1
  scatter_S4096x2_S16384x1_S16384x2_1_0_0_1_wf : ScatterDims.WF S4096x2 S16384x1 S16384x2 [1] [0] [0] 1
  gather_S4096x2_S4096x1_S4096x2_1_0_n_n_0_1_12_wf : GatherDims.WF S4096x2 S4096x1 S4096x2 [1] [0] [] [0] [] 1 ![1, 2]
  scatter_S4096x2_S4096x1_S4096x2_1_0_0_1_wf : ScatterDims.WF S4096x2 S4096x1 S4096x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S4096x1.size a
  hwx0_0 : ∀ i : grid0.Coords, EltTy.bits .f32 = 32 ∨ (Rect.block (s := S4096x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .i32 = 32 ∨ (Rect.block (s := S4096x4096) S256x4096.size (cc0_transform_6 i) (hinb0_6 i)).WholeWords (EltTy.packing .i32)

variable [Facts₀]

def scatter_S16384_S16777216x1_S16777216_n_0_0_1 : ScatterDims S16384 S16777216x1 S16777216 where
  updateWindowDims := []
  insertedWindowDims := [0]
  scatterDimsToOperandDims := [0]
  indexVectorDim := 1
  wf := scatter_S16384_S16777216x1_S16777216_n_0_0_1_wf
def gather_S4096x2_S16384x1_S16384x2_1_0_n_n_0_1_12 : GatherDims S4096x2 S16384x1 S16384x2 where
  offsetDims := [1]
  collapsedSliceDims := [0]
  operandBatchingDims := []
  startIndicesBatchingDims := []
  startIndexMap := [0]
  indexVectorDim := 1
  sliceSizes := ![1, 2]
  wf := gather_S4096x2_S16384x1_S16384x2_1_0_n_n_0_1_12_wf
def gather_S4096_S16384x1_S16384_n_0_n_n_0_1_1 : GatherDims S4096 S16384x1 S16384 where
  offsetDims := []
  collapsedSliceDims := [0]
  operandBatchingDims := []
  startIndicesBatchingDims := []
  startIndexMap := [0]
  indexVectorDim := 1
  sliceSizes := ![1]
  wf := gather_S4096_S16384x1_S16384_n_0_n_n_0_1_1_wf
def scatter_S4096_S16384x1_S16384_n_0_0_1 : ScatterDims S4096 S16384x1 S16384 where
  updateWindowDims := []
  insertedWindowDims := [0]
  scatterDimsToOperandDims := [0]
  indexVectorDim := 1
  wf := scatter_S4096_S16384x1_S16384_n_0_0_1_wf
def scatter_S4096x2_S16384x1_S16384x2_1_0_0_1 : ScatterDims S4096x2 S16384x1 S16384x2 where
  updateWindowDims := [1]
  insertedWindowDims := [0]
  scatterDimsToOperandDims := [0]
  indexVectorDim := 1
  wf := scatter_S4096x2_S16384x1_S16384x2_1_0_0_1_wf
def gather_S4096x2_S4096x1_S4096x2_1_0_n_n_0_1_12 : GatherDims S4096x2 S4096x1 S4096x2 where
  offsetDims := [1]
  collapsedSliceDims := [0]
  operandBatchingDims := []
  startIndicesBatchingDims := []
  startIndexMap := [0]
  indexVectorDim := 1
  sliceSizes := ![1, 2]
  wf := gather_S4096x2_S4096x1_S4096x2_1_0_n_n_0_1_12_wf
def scatter_S4096x2_S4096x1_S4096x2_1_0_0_1 : ScatterDims S4096x2 S4096x1 S4096x2 where
  updateWindowDims := [1]
  insertedWindowDims := [0]
  scatterDimsToOperandDims := [0]
  indexVectorDim := 1
  wf := scatter_S4096x2_S4096x1_S4096x2_1_0_0_1_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2 : Shape := ⟨2, ![4096, 2]⟩
abbrev S4096 : Shape := ⟨1, ![4096]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S_ : Shape := ⟨0, ![]⟩
abbrev S16777216 : Shape := ⟨1, ![16777216]⟩
abbrev S16384 : Shape := ⟨1, ![16384]⟩
abbrev S16777216x1 : Shape := ⟨2, ![16777216, 1]⟩
abbrev S16384x1 : Shape := ⟨2, ![16384, 1]⟩
abbrev S16384x2 : Shape := ⟨2, ![16384, 2]⟩

abbrev nBuf : Space → Nat
  | .hbm => 266
  | .vmem => 0
  | .smem => 0
  | _ => 0

abbrev hbmTy0_0 (i : Nat) : BufTy := match i % 128 with
  | 0 => ⟨S4096x2, .f32⟩
  | 1 => ⟨S4096, .f32⟩
  | 2 => ⟨S4096x1x2, .f32⟩
  | 3 => ⟨S1x4096x2, .f32⟩
  | 4 => ⟨S4096x4096x2, .f32⟩
  | 5 => ⟨S4096x4096x2, .f32⟩
  | 6 => ⟨S4096x4096x2, .f32⟩
  | 7 => ⟨S4096x4096x2, .f32⟩
  | 8 => ⟨S4096x1, .f32⟩
  | 9 => ⟨S1x4096, .f32⟩
  | 10 => ⟨S4096x4096, .f32⟩
  | 11 => ⟨S4096x4096, .f32⟩
  | 12 => ⟨S4096x4096, .f32⟩
  | 13 => ⟨S4096x4096x1, .f32⟩
  | 14 => ⟨S4096x4096x2, .f32⟩
  | 15 => ⟨S4096x4096x2, .i1⟩
  | 16 => ⟨S_, .i1⟩
  | 17 => ⟨S4096x4096, .i1⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i1⟩
  | 24 => ⟨S4096x4096, .i1⟩
  | 25 => ⟨S4096x4096, .i1⟩
  | 26 => ⟨S16777216, .i1⟩
  | 27 => ⟨S16777216, .i32⟩
  | 28 => ⟨S_, .i32⟩
  | 29 => ⟨S_, .i32⟩
  | 30 => ⟨S16777216, .i32⟩
  | 31 => ⟨S_, .i32⟩
  | 32 => ⟨S16777216, .i32⟩
  | 33 => ⟨S16777216, .i32⟩
  | 34 => ⟨S_, .i32⟩
  | 35 => ⟨S16777216, .i32⟩
  | 36 => ⟨S16777216, .i1⟩
  | 37 => ⟨S16777216, .i1⟩
  | 38 => ⟨S_, .i32⟩
  | 39 => ⟨S_, .i32⟩
  | 40 => ⟨S16777216, .i32⟩
  | 41 => ⟨S16777216, .i32⟩
  | 42 => ⟨S4096, .i32⟩
  | 43 => ⟨S4096x4096, .i32⟩
  | 44 => ⟨S16777216, .i32⟩
  | 45 => ⟨S4096, .i32⟩
  | 46 => ⟨S1x4096, .i32⟩
  | 47 => ⟨S4096x4096, .i32⟩
  | 48 => ⟨S16777216, .i32⟩
  | 49 => ⟨S_, .i32⟩
  | 50 => ⟨S16384, .i32⟩
  | 51 => ⟨S_, .i32⟩
  | 52 => ⟨S16777216, .i32⟩
  | 53 => ⟨S16777216, .i1⟩
  | 54 => ⟨S_, .i32⟩
  | 55 => ⟨S16777216, .i32⟩
  | 56 => ⟨S16777216, .i32⟩
  | 57 => ⟨S16777216, .i32⟩
  | 58 => ⟨S16777216x1, .i32⟩
  | 59 => ⟨S16384, .i32⟩
  | 60 => ⟨S_, .i32⟩
  | 61 => ⟨S16384, .i32⟩
  | 62 => ⟨S_, .i32⟩
  | 63 => ⟨S16777216, .i32⟩
  | 64 => ⟨S16777216, .i1⟩
  | 65 => ⟨S_, .i32⟩
  | 66 => ⟨S16777216, .i32⟩
  | 67 => ⟨S16777216, .i32⟩
  | 68 => ⟨S16777216, .i32⟩
  | 69 => ⟨S16777216x1, .i32⟩
  | 70 => ⟨S16384, .i32⟩
  | 71 => ⟨S_, .i32⟩
  | 72 => ⟨S_, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S_, .i32⟩
  | 81 => ⟨S_, .i32⟩
  | 82 => ⟨S16384, .i32⟩
  | 83 => ⟨S16384, .i32⟩
  | 84 => ⟨S_, .i32⟩
  | 85 => ⟨S16384, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x2, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x2, .f32⟩
  | 105 => ⟨S16384x2, .f32⟩
  | 106 => ⟨S16384x2, .f32⟩
  | 107 => ⟨S_, .f32⟩
  | 108 => ⟨S16384, .f32⟩
  | 109 => ⟨S_, .f32⟩
  | 110 => ⟨S16384, .f32⟩
  | 111 => ⟨S16384, .f32⟩
  | 112 => ⟨S16384, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S4096x2, .f32⟩

abbrev hbmTy0_1 (i : Nat) : BufTy := match i % 128 with
  | 0 => ⟨S16384, .i32⟩
  | 1 => ⟨S16384x1, .i32⟩
  | 2 => ⟨S16384, .f32⟩
  | 3 => ⟨S16384, .f32⟩
  | 4 => ⟨S16384, .f32⟩
  | 5 => ⟨S_, .i32⟩
  | 6 => ⟨S16384, .i32⟩
  | 7 => ⟨S16384, .i1⟩
  | 8 => ⟨S_, .f32⟩
  | 9 => ⟨S16384, .f32⟩
  | 10 => ⟨S16384, .i1⟩
  | 11 => ⟨S16384, .i1⟩
  | 12 => ⟨S16384, .i32⟩
  | 13 => ⟨S_, .i32⟩
  | 14 => ⟨S_, .i32⟩
  | 15 => ⟨S16384, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i1⟩
  | 22 => ⟨S16384, .i1⟩
  | 23 => ⟨S_, .i32⟩
  | 24 => ⟨S_, .i32⟩
  | 25 => ⟨S16384, .i32⟩
  | 26 => ⟨S16384, .i32⟩
  | 27 => ⟨S16384, .f32⟩
  | 28 => ⟨S16384x1, .f32⟩
  | 29 => ⟨S16384x2, .f32⟩
  | 30 => ⟨S16384x2, .f32⟩
  | 31 => ⟨S_, .i32⟩
  | 32 => ⟨S4096, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S4096, .i32⟩
  | 42 => ⟨S_, .i32⟩
  | 43 => ⟨S4096, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S4096, .i32⟩
  | 53 => ⟨S_, .f32⟩
  | 54 => ⟨S4096x2, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S4096x2, .f32⟩
  | 64 => ⟨S_, .i32⟩
  | 65 => ⟨S4096, .i32⟩
  | 66 => ⟨S4096, .i1⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4096x2, .f32⟩
  | 95 => ⟨S_, .f32⟩
  | 96 => ⟨S4096x2, .f32⟩
  | 97 => ⟨S4096x2, .f32⟩
  | 98 => ⟨S4096x2, .f32⟩
  | 99 => ⟨S_, .i32⟩
  | 100 => ⟨S_, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x2, .f32⟩
  | 116 => ⟨S_, .f32⟩
  | 117 => ⟨S4096x2, .f32⟩
  | 118 => ⟨S4096x2, .f32⟩
  | 119 => ⟨S4096x2, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x2, .f32⟩

abbrev hbmTy0_2 (i : Nat) : BufTy := match i % 128 with
  | 0 => ⟨S4096x2, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096x2, .f32⟩
  | _ => ⟨S4096x2, .f32⟩

abbrev hbmTy (i : Nat) : BufTy := match i / 128 with
  | 0 => hbmTy0_0 i
  | 1 => hbmTy0_1 i
  | 2 => hbmTy0_2 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_call0_c : Ref sig .tc := ⟨.hbm, 28, rfl⟩
abbrev main_call0_call0_v0 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_c_11 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v54 : Ref sig .tc := ⟨.hbm, 78, rfl⟩
abbrev main_c_12 : Ref sig .tc := ⟨.hbm, 79, rfl⟩
abbrev main_c_13 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v55 : Ref sig .tc := ⟨.hbm, 86, rfl⟩
abbrev main_c_14 : Ref sig .tc := ⟨.hbm, 87, rfl⟩
abbrev main_v56 : Ref sig .tc := ⟨.hbm, 88, rfl⟩
abbrev main_v57 : Ref sig .tc := ⟨.hbm, 89, rfl⟩
abbrev main_c_15 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_16 : Ref sig .tc := ⟨.hbm, 96, rfl⟩
abbrev main_v63 : Ref sig .tc := ⟨.hbm, 97, rfl⟩
abbrev main_v64 : Ref sig .tc := ⟨.hbm, 98, rfl⟩
abbrev main_c_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_c_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_21 : Ref sig .tc := ⟨.hbm, 122, rfl⟩
abbrev main_v83 : Ref sig .tc := ⟨.hbm, 123, rfl⟩
abbrev main_v84 : Ref sig .tc := ⟨.hbm, 124, rfl⟩
abbrev main_c_22 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call4_call0_c : Ref sig .tc := ⟨.hbm, 141, rfl⟩
abbrev main_call4_call0_v0 : Ref sig .tc := ⟨.hbm, 142, rfl⟩
abbrev main_v98 : Ref sig .tc := ⟨.hbm, 143, rfl⟩
abbrev main_c_25 : Ref sig .tc := ⟨.hbm, 144, rfl⟩
abbrev main_v99 : Ref sig .tc := ⟨.hbm, 145, rfl⟩
abbrev main_v100 : Ref sig .tc := ⟨.hbm, 146, rfl⟩
abbrev main_c_26 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_27 : Ref sig .tc := ⟨.hbm, 151, rfl⟩
abbrev main_call5_v0 : Ref sig .tc := ⟨.hbm, 152, rfl⟩
abbrev main_call5_v1 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_28 : Ref sig .tc := ⟨.hbm, 159, rfl⟩
abbrev main_v109 : Ref sig .tc := ⟨.hbm, 160, rfl⟩
abbrev main_c_29 : Ref sig .tc := ⟨.hbm, 161, rfl⟩
abbrev main_v110 : Ref sig .tc := ⟨.hbm, 162, rfl⟩
abbrev main_v111 : Ref sig .tc := ⟨.hbm, 163, rfl⟩
abbrev main_c_30 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_31 : Ref sig .tc := ⟨.hbm, 170, rfl⟩
abbrev main_v117 : Ref sig .tc := ⟨.hbm, 171, rfl⟩
abbrev main_c_32 : Ref sig .tc := ⟨.hbm, 172, rfl⟩
abbrev main_v118 : Ref sig .tc := ⟨.hbm, 173, rfl⟩
abbrev main_v119 : Ref sig .tc := ⟨.hbm, 174, rfl⟩
abbrev main_c_33 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_34 : Ref sig .tc := ⟨.hbm, 181, rfl⟩
abbrev main_v125 : Ref sig .tc := ⟨.hbm, 182, rfl⟩
abbrev main_c_35 : Ref sig .tc := ⟨.hbm, 183, rfl⟩
abbrev main_v126 : Ref sig .tc := ⟨.hbm, 184, rfl⟩
abbrev main_v127 : Ref sig .tc := ⟨.hbm, 185, rfl⟩
abbrev main_c_36 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_c_37 : Ref sig .tc := ⟨.hbm, 192, rfl⟩
abbrev main_v133 : Ref sig .tc := ⟨.hbm, 193, rfl⟩
abbrev main_v134 : Ref sig .tc := ⟨.hbm, 194, rfl⟩
abbrev main_c_38 : Ref sig .tc := ⟨.hbm, 195, rfl⟩
abbrev main_call6_v0 : Ref sig .tc := ⟨.hbm, 196, rfl⟩
abbrev main_call6_v1 : Ref sig .tc := ⟨.hbm, 197, rfl⟩
abbrev main_v135 : Ref sig .tc := ⟨.hbm, 198, rfl⟩
abbrev main_c_39 : Ref sig .tc := ⟨.hbm, 199, rfl⟩
abbrev main_v136 : Ref sig .tc := ⟨.hbm, 200, rfl⟩
abbrev main_v137 : Ref sig .tc := ⟨.hbm, 201, rfl⟩
abbrev main_c_40 : Ref sig .tc := ⟨.hbm, 202, rfl⟩
abbrev main_call7_v0 : Ref sig .tc := ⟨.hbm, 203, rfl⟩
abbrev main_call7_v1 : Ref sig .tc := ⟨.hbm, 204, rfl⟩
abbrev main_v138 : Ref sig .tc := ⟨.hbm, 205, rfl⟩
abbrev main_c_41 : Ref sig .tc := ⟨.hbm, 206, rfl⟩
abbrev main_c_42 : Ref sig .tc := ⟨.hbm, 207, rfl⟩
abbrev main_call8_v0 : Ref sig .tc := ⟨.hbm, 208, rfl⟩
abbrev main_call8_v1 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_v139 : Ref sig .tc := ⟨.hbm, 213, rfl⟩
abbrev main_c_43 : Ref sig .tc := ⟨.hbm, 214, rfl⟩
abbrev main_v140 : Ref sig .tc := ⟨.hbm, 215, rfl⟩
abbrev main_v141 : Ref sig .tc := ⟨.hbm, 216, rfl⟩
abbrev main_c_44 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_45 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_c_46 : Ref sig .tc := ⟨.hbm, 227, rfl⟩
abbrev main_c_47 : Ref sig .tc := ⟨.hbm, 228, rfl⟩
abbrev main_call9_v0 : Ref sig .tc := ⟨.hbm, 229, rfl⟩
abbrev main_call9_v1 : Ref sig .tc := ⟨.hbm, 230, rfl⟩
abbrev main_call9_v2 : Ref sig .tc := ⟨.hbm, 231, rfl⟩
abbrev main_call9_v3 : Ref sig .tc := ⟨.hbm, 232, rfl⟩
abbrev main_call9_v4 : Ref sig .tc := ⟨.hbm, 233, rfl⟩
abbrev main_v150 : Ref sig .tc := ⟨.hbm, 234, rfl⟩
abbrev main_c_48 : Ref sig .tc := ⟨.hbm, 235, rfl⟩
abbrev main_v151 : Ref sig .tc := ⟨.hbm, 236, rfl⟩
abbrev main_v152 : Ref sig .tc := ⟨.hbm, 237, rfl⟩
abbrev main_c_49 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_cst_50 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_c_51 : Ref sig .tc := ⟨.hbm, 248, rfl⟩
abbrev main_v161 : Ref sig .tc := ⟨.hbm, 249, rfl⟩
abbrev main_v162 : Ref sig .tc := ⟨.hbm, 250, rfl⟩
abbrev main_c_52 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_c_53 : Ref sig .tc := ⟨.hbm, 257, rfl⟩
abbrev main_v168 : Ref sig .tc := ⟨.hbm, 258, rfl⟩
abbrev main_v169 : Ref sig .tc := ⟨.hbm, 259, rfl⟩
abbrev main_c_54 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩

abbrev nD : Nat := 1
abbrev τ : Topo := Topo.v7x

variable {F : FTy → Type} [FloatOps F]

class Facts₀ : Prop where
  bcast_S4096x2_S4096x1x2_0_2 : S4096x2.BroadcastsInDim S4096x1x2 (![0, 2] : Fin 2 → Fin S4096x1x2.rank)
  bcast_S4096x2_S1x4096x2_1_2 : S4096x2.BroadcastsInDim S1x4096x2 (![1, 2] : Fin 2 → Fin S1x4096x2.rank)
  bcast_S4096x1x2_S4096x4096x2_0_1_2 : S4096x1x2.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S16777216 : S_.BroadcastsInDim S16777216 (![] : Fin 0 → Fin S16777216.rank)
  bcast_S4096_S4096x4096_0 : S4096.BroadcastsInDim S4096x4096 (![0] : Fin 1 → Fin S4096x4096.rank)
  shapeCasts_S4096_S1x4096 : S4096.ShapeCasts S1x4096
  bcast_S_S16384 : S_.BroadcastsInDim S16384 (![] : Fin 0 → Fin S16384.rank)
  bcast_S16777216_S16777216x1_0 : S16777216.BroadcastsInDim S16777216x1 (![0] : Fin 1 → Fin S16777216x1.rank)
  bcast_S16384_S16384x1_0 : S16384.BroadcastsInDim S16384x1 (![0] : Fin 1 → Fin S16384x1.rank)
  reducesTo_S16384x2_S16384_d1 : S16384x2.ReducesTo [1] S16384
  reduceWindows_S16384_S16384_w16384s1p16383_0 : S16384.ReduceWindows (![16384] : Fin 1 → Nat) ![1] ![16383] ![0] S16384
  bcast_S16384x1_S16384x2_0_1 : S16384x1.BroadcastsInDim S16384x2 (![0, 1] : Fin 2 → Fin S16384x2.rank)
  bcast_S_S4096 : S_.BroadcastsInDim S4096 (![] : Fin 0 → Fin S4096.rank)
  bcast_S_S4096x2 : S_.BroadcastsInDim S4096x2 (![] : Fin 0 → Fin S4096x2.rank)
  scatter_S16384_S16777216x1_S16777216_n_0_0_1_wf : ScatterDims.WF S16384 S16777216x1 S16777216 [] [0] [0] 1
  gather_S4096x2_S16384x1_S16384x2_1_0_n_n_0_1_12_wf : GatherDims.WF S4096x2 S16384x1 S16384x2 [1] [0] [] [0] [] 1 ![1, 2]
  gather_S4096_S16384x1_S16384_n_0_n_n_0_1_1_wf : GatherDims.WF S4096 S16384x1 S16384 [] [0] [] [0] [] 1 ![1]
  scatter_S4096_S16384x1_S16384_n_0_0_1_wf : ScatterDims.WF S4096 S16384x1 S16384 [] [0] [0] 1
  scatter_S4096x2_S16384x1_S16384x2_1_0_0_1_wf : ScatterDims.WF S4096x2 S16384x1 S16384x2 [1] [0] [0] 1
  gather_S4096x2_S4096x1_S4096x2_1_0_n_n_0_1_12_wf : GatherDims.WF S4096x2 S4096x1 S4096x2 [1] [0] [] [0] [] 1 ![1, 2]
  scatter_S4096x2_S4096x1_S4096x2_1_0_0_1_wf : ScatterDims.WF S4096x2 S4096x1 S4096x2 [1] [0] [0] 1

variable [Facts₀]

def scatter_S16384_S16777216x1_S16777216_n_0_0_1 : ScatterDims S16384 S16777216x1 S16777216 where
  updateWindowDims := []
  insertedWindowDims := [0]
  scatterDimsToOperandDims := [0]
  indexVectorDim := 1
  wf := scatter_S16384_S16777216x1_S16777216_n_0_0_1_wf
def gather_S4096x2_S16384x1_S16384x2_1_0_n_n_0_1_12 : GatherDims S4096x2 S16384x1 S16384x2 where
  offsetDims := [1]
  collapsedSliceDims := [0]
  operandBatchingDims := []
  startIndicesBatchingDims := []
  startIndexMap := [0]
  indexVectorDim := 1
  sliceSizes := ![1, 2]
  wf := gather_S4096x2_S16384x1_S16384x2_1_0_n_n_0_1_12_wf
def gather_S4096_S16384x1_S16384_n_0_n_n_0_1_1 : GatherDims S4096 S16384x1 S16384 where
  offsetDims := []
  collapsedSliceDims := [0]
  operandBatchingDims := []
  startIndicesBatchingDims := []
  startIndexMap := [0]
  indexVectorDim := 1
  sliceSizes := ![1]
  wf := gather_S4096_S16384x1_S16384_n_0_n_n_0_1_1_wf
def scatter_S4096_S16384x1_S16384_n_0_0_1 : ScatterDims S4096 S16384x1 S16384 where
  updateWindowDims := []
  insertedWindowDims := [0]
  scatterDimsToOperandDims := [0]
  indexVectorDim := 1
  wf := scatter_S4096_S16384x1_S16384_n_0_0_1_wf
def scatter_S4096x2_S16384x1_S16384x2_1_0_0_1 : ScatterDims S4096x2 S16384x1 S16384x2 where
  updateWindowDims := [1]
  insertedWindowDims := [0]
  scatterDimsToOperandDims := [0]
  indexVectorDim := 1
  wf := scatter_S4096x2_S16384x1_S16384x2_1_0_0_1_wf
def gather_S4096x2_S4096x1_S4096x2_1_0_n_n_0_1_12 : GatherDims S4096x2 S4096x1 S4096x2 where
  offsetDims := [1]
  collapsedSliceDims := [0]
  operandBatchingDims := []
  startIndicesBatchingDims := []
  startIndexMap := [0]
  indexVectorDim := 1
  sliceSizes := ![1, 2]
  wf := gather_S4096x2_S4096x1_S4096x2_1_0_n_n_0_1_12_wf
def scatter_S4096x2_S4096x1_S4096x2_1_0_0_1 : ScatterDims S4096x2 S4096x1 S4096x2 where
  updateWindowDims := [1]
  insertedWindowDims := [0]
  scatterDimsToOperandDims := [0]
  indexVectorDim := 1
  wf := scatter_S4096x2_S4096x1_S4096x2_1_0_0_1_wf

class Facts : Prop extends Facts₀ where

variable [Facts]
-- ==== Proof.Kernel.Host.lean ====
/-
  The host side of `Kernel`'s @main around its one region. @main is ten host operations (slices and reshapes of the two
  arguments into the six operand arrays), the region, and then 244 host operations in 21 stretches that compact, test and
  scatter. Here: the buffer contents the region is entered with (`V0`, `V`), @main as "the region continued by the later
  stretches" (`hmain`), and the three facts the launch theorem asks of the later stretches — they touch only unscoped
  TensorCore buffers, allocate nothing, and write neither an argument nor an array that a window of the region stages
  (`KeepsL`: each operation writes exactly its own result buffer, which is none of the listed ones).
-/
import proofs.«167490_j40750649704463_1_alg».proof.Proof.Gen.Kernel.Launch
import Idealize.ShloMosaic.Lib.Pipeline.FrameSuffix

set_option maxRecDepth 16384

noncomputable section

namespace Cert.Kernel.Host

open Cert.Kernel Cert.Kernel.Gen
open Idealize.ShloMosaic Idealize.ShloMosaic.TcCoe
open Idealize.SL Idealize.SL.RA Idealize.SL.Sem

variable {F : FTy → Type} [FloatOps F]

/-! ## The stretches after the region -/

/-- The 21 stretches of host operations after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

/-- The two arguments. -/
abbrev args : List (Ref sig .tc) := [main_arg0, main_arg1]
/-- The two arguments and the seven arrays the region's windows stage: what no later line may write. -/
abbrev guarded : List (Ref sig .tc) :=
  [main_arg0, main_arg1, main_v0, main_v1, main_v2, main_v5, main_v8, main_v9, main_v10]

/-- An operation writes none of the buffers listed in `G`. -/
def KeepsL (G : List (Ref sig .tc)) (op : HloOp τ sig (Elt F)) : Prop := ∀ r ∈ G, Proc.devRef (τ := τ) .tc r ∉ op.writes

section Kinds
variable {x a b c y : Ref sig .tc} (G : List (Ref sig .tc))

theorem keeps_of_writes {op : HloOp τ sig (Elt F)} (hw : op.writes = {Proc.devRef .tc y}) (h : y ∉ G) : KeepsL G op := by
  intro r hr hmem
  rw [hw, Finset.mem_singleton] at hmem
  exact h (Proc.devRef_injective (τ := τ) _ hmem ▸ hr)

theorem keeps_nullary (v : y.ty.Contents (Elt F)) (hy) (h : y ∉ G) : KeepsL G (StableHlo.nullary (τ := τ) y v hy) :=
  keeps_of_writes G (StableHlo.nullary_writes ..) h
theorem keeps_unary (f : x.ty.Contents (Elt F) → y.ty.Contents (Elt F)) (hx hy) (h : y ∉ G) :
    KeepsL G (StableHlo.unary (τ := τ) x y f hx hy) := keeps_of_writes G (StableHlo.unary_writes ..) h
theorem keeps_binary (f : a.ty.Contents (Elt F) → b.ty.Contents (Elt F) → y.ty.Contents (Elt F)) (ha hb hy) (h : y ∉ G) :
    KeepsL G (StableHlo.binary (τ := τ) a b y f ha hb hy) := keeps_of_writes G (StableHlo.binary_writes ..) h
theorem keeps_ternary (f : c.ty.Contents (Elt F) → a.ty.Contents (Elt F) → b.ty.Contents (Elt F) → y.ty.Contents (Elt F))
    (hc ha hb hy) (h : y ∉ G) : KeepsL G (StableHlo.ternary (τ := τ) c a b y f hc ha hb hy) :=
  keeps_of_writes G (StableHlo.ternary_writes ..) h
theorem keeps_reshape (he hn hx hy) (h : y ∉ G) :
    KeepsL G (StableHlo.reshape (τ := τ) (Val := Elt F) x y he hn hx hy) := keeps_of_writes G (StableHlo.reshape_writes ..) h
end Kinds

/-- One stretch: split the conjunction, then each operation by its kind, its result buffer compared with the listed ones. -/
macro "keeps_stretch" : tactic =>
  `(tactic| ((repeat' apply And.intro) <;>
      first
        | exact keeps_nullary _ _ _ (by decide)
        | exact keeps_unary _ _ _ _ (by decide)
        | exact keeps_binary _ _ _ _ _ (by decide)
        | exact keeps_ternary _ _ _ _ _ _ (by decide)
        | exact keeps_reshape _ _ _ _ _ (by decide)))

theorem keeps_0 : (hostOps1 : List (HloOp τ sig (Elt F))).Forall (KeepsL guarded) := by
  simp only [hostOps1, List.Forall]; keeps_stretch
theorem fresh_0 : (hostOps1 : List (HloOp τ sig (Elt F))).Forall fun op => op.fresh = ∅ := by
  simp only [List.Forall]; repeat' constructor
theorem keeps_1 : (hostOps1_1 : List (HloOp τ sig (Elt F))).Forall (KeepsL guarded) := by
  simp only [hostOps1_1, List.Forall]; keeps_stretch
theorem fresh_1 : (hostOps1_1 : List (HloOp τ sig (Elt F))).Forall fun op => op.fresh = ∅ := by
  simp only [List.Forall]; repeat' constructor
theorem keeps_2 : (hostOps1_2 : List (HloOp τ sig (Elt F))).Forall (KeepsL guarded) := by
  simp only [hostOps1_2, List.Forall]; keeps_stretch
theorem fresh_2 : (hostOps1_2 : List (HloOp τ sig (Elt F))).Forall fun op => op.fresh = ∅ := by
  simp only [List.Forall]; repeat' constructor
theorem keeps_3 : (hostOps1_3 : List (HloOp τ sig (Elt F))).Forall (KeepsL guarded) := by
  simp only [hostOps1_3, List.Forall]; keeps_stretch
theorem fresh_3 : (hostOps1_3 : List (HloOp τ sig (Elt F))).Forall fun op => op.fresh = ∅ := by
  simp only [List.Forall]; repeat' constructor
theorem keeps_4 : (hostOps1_4 : List (HloOp τ sig (Elt F))).Forall (KeepsL guarded) := by
  simp only [hostOps1_4, List.Forall]; keeps_stretch
theorem fresh_4 : (hostOps1_4 : List (HloOp τ sig (Elt F))).Forall fun op => op.fresh = ∅ := by
  simp only [List.Forall]; repeat' constructor
theorem keeps_5 : (hostOps1_5 : List (HloOp τ sig (Elt F))).Forall (KeepsL guarded) := by
  simp only [hostOps1_5, List.Forall]; keeps_stretch
theorem fresh_5 : (hostOps1_5 : List (HloOp τ sig (Elt F))).Forall fun op => op.fresh = ∅ := by
  simp only [List.Forall]; repeat' constructor
theorem keeps_6 : (hostOps1_6 : List (HloOp τ sig (Elt F))).Forall (KeepsL guarded) := by
  simp only [hostOps1_6, List.Forall]; keeps_stretch
theorem fresh_6 : (hostOps1_6 : List (HloOp τ sig (Elt F))).Forall fun op => op.fresh = ∅ := by
  simp only [List.Forall]; repeat' constructor
theorem keeps_7 : (hostOps1_7 : List (HloOp τ sig (Elt F))).Forall (KeepsL guarded) := by
  simp only [hostOps1_7, List.Forall]; keeps_stretch
theorem fresh_7 : (hostOps1_7 : List (HloOp τ sig (Elt F))).Forall fun op => op.fresh = ∅ := by
  simp only [List.Forall]; repeat' constructor
theorem keeps_8 : (hostOps1_8 : List (HloOp τ sig (Elt F))).Forall (KeepsL guarded) := by
  simp only [hostOps1_8, List.Forall]; keeps_stretch
theorem fresh_8 : (hostOps1_8 : List (HloOp τ sig (Elt F))).Forall fun op => op.fresh = ∅ := by
  simp only [List.Forall]; repeat' constructor
theorem keeps_9 : (hostOps1_9 : List (HloOp τ sig (Elt F))).Forall (KeepsL guarded) := by
  simp only [hostOps1_9, List.Forall]; keeps_stretch
theorem fresh_9 : (hostOps1_9 : List (HloOp τ sig (Elt F))).Forall fun op => op.fresh = ∅ := by
  simp only [List.Forall]; repeat' constructor
theorem keeps_10 : (hostOps1_10 : List (HloOp τ sig (Elt F))).Forall (KeepsL guarded) := by
  simp only [hostOps1_10, List.Forall]; keeps_stretch
theorem fresh_10 : (hostOps1_10 : List (HloOp τ sig (Elt F))).Forall fun op => op.fresh = ∅ := by
  simp only [List.Forall]; repeat' constructor
theorem keeps_11 : (hostOps1_11 : List (HloOp τ sig (Elt F))).Forall (KeepsL guarded) := by
  simp only [hostOps1_11, List.Forall]; keeps_stretch
theorem fresh_11 : (hostOps1_11 : List (HloOp τ sig (Elt F))).Forall fun op => op.fresh = ∅ := by
  simp only [List.Forall]; repeat' constructor
theorem keeps_12 : (hostOps1_12 : List (HloOp τ sig (Elt F))).Forall (KeepsL guarded) := by
  simp only [hostOps1_12, List.Forall]; keeps_stretch
theorem fresh_12 : (hostOps1_12 : List (HloOp τ sig (Elt F))).Forall fun op => op.fresh = ∅ := by
  simp only [List.Forall]; repeat' constructor
theorem keeps_13 : (hostOps1_13 : List (HloOp τ sig (Elt F))).Forall (KeepsL guarded) := by
  simp only [hostOps1_13, List.Forall]; keeps_stretch
theorem fresh_13 : (hostOps1_13 : List (HloOp τ sig (Elt F))).Forall fun op => op.fresh = ∅ := by
  simp only [List.Forall]; repeat' constructor
theorem keeps_14 : (hostOps1_14 : List (HloOp τ sig (Elt F))).Forall (KeepsL guarded) := by
  simp only [hostOps1_14, List.Forall]; keeps_stretch
theorem fresh_14 : (hostOps1_14 : List (HloOp τ sig (Elt F))).Forall fun op => op.fresh = ∅ := by
  simp only [List.Forall]; repeat' constructor
theorem keeps_15 : (hostOps1_15 : List (HloOp τ sig (Elt F))).Forall (KeepsL guarded) := by
  simp only [hostOps1_15, List.Forall]; keeps_stretch
theorem fresh_15 : (hostOps1_15 : List (HloOp τ sig (Elt F))).Forall fun op => op.fresh = ∅ := by
  simp only [List.Forall]; repeat' constructor
theorem keeps_16 : (hostOps1_16 : List (HloOp τ sig (Elt F))).Forall (KeepsL guarded) := by
  simp only [hostOps1_16, List.Forall]; keeps_stretch
theorem fresh_16 : (hostOps1_16 : List (HloOp τ sig (Elt F))).Forall fun op => op.fresh = ∅ := by
  simp only [List.Forall]; repeat' constructor
theorem keeps_17 : (hostOps1_17 : List (HloOp τ sig (Elt F))).Forall (KeepsL guarded) := by
  simp only [hostOps1_17, List.Forall]; keeps_stretch
theorem fresh_17 : (hostOps1_17 : List (HloOp τ sig (Elt F))).Forall fun op => op.fresh = ∅ := by
  simp only [List.Forall]; repeat' constructor
theorem keeps_18 : (hostOps1_18 : List (HloOp τ sig (Elt F))).Forall (KeepsL guarded) := by
  simp only [hostOps1_18, List.Forall]; keeps_stretch
theorem fresh_18 : (hostOps1_18 : List (HloOp τ sig (Elt F))).Forall fun op => op.fresh = ∅ := by
  simp only [List.Forall]; repeat' constructor
theorem keeps_19 : (hostOps1_19 : List (HloOp τ sig (Elt F))).Forall (KeepsL guarded) := by
  simp only [hostOps1_19, List.Forall]; keeps_stretch
theorem fresh_19 : (hostOps1_19 : List (HloOp τ sig (Elt F))).Forall fun op => op.fresh = ∅ := by
  simp only [List.Forall]; repeat' constructor
theorem keeps_20 : (hostOps1_20 : List (HloOp τ sig (Elt F))).Forall (KeepsL guarded) := by
  simp only [hostOps1_20, List.Forall]; keeps_stretch
theorem fresh_20 : (hostOps1_20 : List (HloOp τ sig (Elt F))).Forall fun op => op.fresh = ∅ := by
  simp only [List.Forall]; repeat' constructor

theorem tail_keeps : (tail : List (List (HloOp τ sig (Elt F)))).Forall fun ops => ops.Forall (KeepsL guarded) :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19, keeps_20⟩
theorem tail_fresh : (tail : List (List (HloOp τ sig (Elt F)))).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20⟩
theorem tail_sub : (tail : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩

theorem of_forall₂ {α : Type} {P : α → Prop} {L : List (List α)} (h : L.Forall fun l => l.Forall P) :
    ∀ l ∈ L, ∀ x ∈ l, P x :=
  fun l hl x hx => List.forall_iff_forall_mem.mp (List.forall_iff_forall_mem.mp h l hl) x hx

/-- Every operation of the flattened tail keeps the guarded buffers. -/
theorem flatten_keeps : ∀ op ∈ (tail : List (List (HloOp τ sig (Elt F)))).flatten, KeepsL guarded op := by
  intro op hop
  obtain ⟨l, hl, hx⟩ := List.mem_flatten.mp hop
  exact of_forall₂ tail_keeps l hl op hx

/-- The later stretches touch the pipeline's arrays and the bypassing buffers only (nothing is prefetched, so every unscoped
    TensorCore reference is one or the other). -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (of_forall₂ tail_sub ops hops op hop)
/-- They allocate nothing. -/
theorem sfx_fresh : ∀ ops ∈ (tail : List (List (HloOp τ sig (Elt F)))), ∀ op ∈ ops, op.fresh = ∅ :=
  of_forall₂ tail_fresh
/-- Every window's array is guarded. -/
theorem arr_guarded : ∀ w : Fin 7, Pipeline.arrRef spec0 w ∈ guarded := by decide
/-- And they write no array of the pipeline. -/
theorem sfx_keeps : ∀ ops ∈ (tail : List (List (HloOp τ sig (Elt F)))), ∀ op ∈ ops,
    ∀ w, Proc.devRef .tc (Pipeline.arrRef spec0 w) ∉ op.writes :=
  fun ops hops op hop w => of_forall₂ tail_keeps ops hops op hop _ (arr_guarded w)

/-! ## @main around the region -/

variable (m : (ℓ : Loc nD τ sig) → Buf (Elt F) ℓ)

/-- Core `c`'s TensorCore buffer contents when the region is entered: the launch contents after the ten operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main reduces to the region continued by the later stretches, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The ten operations before the region write neither argument. -/
theorem hostOps0_keeps : (hostOps0 : List (HloOp τ sig (Elt F))).Forall (KeepsL args) := by
  simp only [hostOps0, List.Forall]; keeps_stretch

/-- So the region finds each argument as launched. -/
theorem V_arg (c : Dev nD) {r : Ref sig .tc} (hr : r ∈ args) : V m c r = m ((c : Thread nD τ).loc r) :=
  StableHlo.after_of_forall_not_mem (b := Proc.devRef .tc r) _ _ fun op hop => by
    simp only [List.flatten_cons, List.flatten_nil, List.append_nil] at hop
    exact List.forall_iff_forall_mem.mp hostOps0_keeps op hop r hr

/-- And no later stretch writes an argument either: each ends as launched, whatever the region's proof data. -/
theorem W_arg {U' : Type} [URA U'] (dats : (p : Fin 1) → (c : Dev nD) → Pipeline.Dat τ (Elt F) Unit ℕ U' ℕ (cfgs p) c) (c : Dev nD)
    {r : Ref sig .tc} (hr : r ∈ args) :
    Pipeline.afterTail₀ cfgs dats 0 (V0 m) tail c r = m ((c : Thread nD τ).loc r) := by
  have hg : r ∈ guarded := by
    simp only [List.mem_cons, List.mem_nil_iff, or_false] at hr
    rcases hr with rfl | rfl <;> decide
  have hne : ∀ w, Pipeline.arrRef spec0 w ≠ r := by
    simp only [List.mem_cons, List.mem_nil_iff, or_false] at hr
    rcases hr with rfl | rfl <;> decide
  unfold Pipeline.afterTail₀
  rw [StableHlo.after_of_forall_not_mem (b := Proc.devRef .tc r) _ _ (fun op hop => flatten_keeps op hop r hg),
    Pipeline.withArrays_of_ne _ c (V0 m c) _ r hne]
  exact V_arg m c hr

end Cert.Kernel.Host

end
-- ==== Proof.Kernel.Body.lean ====
/-
  The body of `Kernel`'s one kernel on whole staging buffers. It loads three 256×1 columns (the x and y coordinates and the
  radius of the 256 bodies of this row tile) and three 1×4096 rows (the same of all 4096 bodies), loads and discards its
  output buffer, and stores ONE 256×4096 array of 0/1 words: the skeleton's payload `k0_pay1` of the six loads, which marks
  the pairs whose boxes overlap on both axes and that are not a body with itself. So after the body the output buffer holds
  that payload (`out6`, written as the canonical form of the one store, which covers the buffer) and the six inputs are as found.
-/
import proofs.«167490_j40750649704463_1_alg».proof.Proof.Gen.Kernel.Launch
import proofs.«167490_j40750649704463_1_alg».proof.Proof.Gen.Kernel.Skeleton
import proofs.«167490_j40750649704463_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a column buffer, of a row buffer, of the output buffer: the rectangles the body loads and stores through. -/
abbrev rCol : Rect S256x1 := Rect.unit (s := S256x1) ![0, 0] S256x1.size inb_S256x1_S256x1_0_0
abbrev rRow : Rect S1x4096 := Rect.unit (s := S1x4096) ![0, 0] S1x4096.size inb_S1x4096_S1x4096_0_0
abbrev rOut : Rect S256x4096 := Rect.unit (s := S256x4096) ![0, 0] S256x4096.size inb_S256x4096_S256x4096_0_0

/-- What the output buffer holds after the body at grid coordinates `i`, from the six input buffers' contents (columns x, y,
    radius; rows x, y, radius): the one store's payload, as the canonical form of the store list. -/
def out6 (i : grid0.Coords) (x0 x1 x2 : Vec F S256x1 .f32) (x3 x4 x5 : Vec F S1x4096 .f32) : Vec F S256x4096 .i32 :=
  View.canon [⟨rOut, k0_pay1 i (View.ld x0 rCol) (View.ld x3 rRow) (View.ld x1 rCol) (View.ld x4 rRow) (View.ld x2 rCol) (View.ld x5 rRow)⟩]

/-- The one store is of the whole buffer, so it covers it. -/
theorem cover6 (p0 : Vec F S256x4096 .i32) (y : S256x4096.Idx) :
    ∃ pc ∈ ([⟨rOut, p0⟩] : List (View.Piece (Elt F) S256x4096 .i32)), y ∈ pc.1.set :=
  View.cover_of_tiled [⟨rOut, p0⟩] S256x4096.size (by rfl) y

set_option maxHeartbeats 1000000 in
/-- The body on whole staging memrefs, the inputs at contents `x0 … x5` and the output at anything, runs to the continuation
    holding the inputs as they were and the output at `out6` of them. -/
theorem sound_kernel (c : Dev nD) (E : Set ℕ) (i : grid0.Coords)
    (arg1 : Memref sig .tc .vmem S256x1 .f32) (harg1 : arg1.IsWhole) (arg2 : Memref sig .tc .vmem S256x1 .f32) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S256x4096 .i32) (harg7 : arg7.IsWhole)
    (x0 x1 x2 : Vec F S256x1 .f32) (x3 x4 x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 i x0 x1 x2 x3 x4 x5)) -∗ K ⟨⟩))
      ⊢ wp frame (wpE (defs₀ (F := F)) Variants.none c none) E
          (cc0__collide_kernel i arg1 harg1 arg2 harg2 arg3 harg3 arg4 harg4 arg5 harg5 arg6 harg6 arg7 harg7) K := by
  simp only [cc0__collide_kernel_eq_skeleton]; unfold cc0__collide_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Cert.Kernel.Body

end
-- ==== Proof.Kernel.Frame.lean ====
/-
  The frame of `Kernel`: every weakly fair execution of @main terminates, nothing faults, and the two argument arrays end as
  launched. The region is a pipeline of 16 points over 7 windows: three 256×1 column operands whose block index is the point,
  three 1×4096 row operands fetched once (their block index never moves), and the 256×4096 output block written back at
  every point. The proof data says what each staging buffer holds after the body at a point: an input's its block of the
  array as the region finds it (`iblk`), the output's the body's one store (`Body.out6` of the six input blocks). With
  that, the body obligation is the body's triple at every point, and the library's launch theorem for "host lines, one
  region, host lines" gives the run; the arguments are read off its post (no line after the region writes them).
-/
import proofs.«167490_j40750649704463_1_alg».proof.Proof.Kernel.Host
import proofs.«167490_j40750649704463_1_alg».proof.Proof.Kernel.Body

set_option maxRecDepth 16384

noncomputable section

namespace Cert.Kernel.Frame

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched window's block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched window's block
    index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched window's block
    index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched window's block
    index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched window's block
    index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (an unfetched window's block
    index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post read at the two arguments — buffers no window stages, so the post's
    second clause applies, and no later line writes them — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg m dats c (by decide)),
     ((h c).2 main_arg1 (Pipeline.mem_restRefs_of main_arg1 (by decide) (by decide))).trans (W_arg m dats c (by decide))⟩) h

/-! ## The pipeline's proof data -/

/-- The proof data of the one pipeline on core `c`: the arrays as the region finds them; after the body at point `t` each
    input's buffer at its block and the output's at the body's store of the input blocks; the invariant only what the body
    never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (grid0.coords t) (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each array
    of the pipeline at what the library computes from the proof data and every other unscoped buffer as the later lines
    leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frame

end
-- ==== Proof.KernelIdeal.Host.lean ====
/-
  The host side of `KernelIdeal`'s @main around its one region. @main is ten host operations (slices and reshapes of the two
  arguments into the six operand arrays), the region, and then 244 host operations in 21 stretches that compact, test and
  scatter. Here: the buffer contents the region is entered with (`V0`, `V`), @main as "the region continued by the later
  stretches" (`hmain`), and the three facts the launch theorem asks of the later stretches — they touch only unscoped
  TensorCore buffers, allocate nothing, and write neither an argument nor an array that a window of the region stages
  (`KeepsL`: each operation writes exactly its own result buffer, which is none of the listed ones).
-/
import proofs.«167490_j40750649704463_1_alg».proof.Proof.Gen.KernelIdeal.Launch
import Idealize.ShloMosaic.Lib.Pipeline.FrameSuffix

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.Sem

variable {F : FTy → Type} [FloatOps F]

/-! ## The stretches after the region -/

/-- The 21 stretches of host operations after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

/-- The two arguments. -/
abbrev args : List (Ref sig .tc) := [main_arg0, main_arg1]
/-- The two arguments and the seven arrays the region's windows stage: what no later line may write. -/
abbrev guarded : List (Ref sig .tc) :=
  [main_arg0, main_arg1, main_v0, main_v1, main_v2, main_v5, main_v8, main_v9, main_v10]

/-- An operation writes none of the buffers listed in `G`. -/
def KeepsL (G : List (Ref sig .tc)) (op : HloOp τ sig (Elt F)) : Prop := ∀ r ∈ G, Proc.devRef (τ := τ) .tc r ∉ op.writes

section Kinds
variable {x a b c y : Ref sig .tc} (G : List (Ref sig .tc))

theorem keeps_of_writes {op : HloOp τ sig (Elt F)} (hw : op.writes = {Proc.devRef .tc y}) (h : y ∉ G) : KeepsL G op := by
  intro r hr hmem
  rw [hw, Finset.mem_singleton] at hmem
  exact h (Proc.devRef_injective (τ := τ) _ hmem ▸ hr)

theorem keeps_nullary (v : y.ty.Contents (Elt F)) (hy) (h : y ∉ G) : KeepsL G (StableHlo.nullary (τ := τ) y v hy) :=
  keeps_of_writes G (StableHlo.nullary_writes ..) h
theorem keeps_unary (f : x.ty.Contents (Elt F) → y.ty.Contents (Elt F)) (hx hy) (h : y ∉ G) :
    KeepsL G (StableHlo.unary (τ := τ) x y f hx hy) := keeps_of_writes G (StableHlo.unary_writes ..) h
theorem keeps_binary (f : a.ty.Contents (Elt F) → b.ty.Contents (Elt F) → y.ty.Contents (Elt F)) (ha hb hy) (h : y ∉ G) :
    KeepsL G (StableHlo.binary (τ := τ) a b y f ha hb hy) := keeps_of_writes G (StableHlo.binary_writes ..) h
theorem keeps_ternary (f : c.ty.Contents (Elt F) → a.ty.Contents (Elt F) → b.ty.Contents (Elt F) → y.ty.Contents (Elt F))
    (hc ha hb hy) (h : y ∉ G) : KeepsL G (StableHlo.ternary (τ := τ) c a b y f hc ha hb hy) :=
  keeps_of_writes G (StableHlo.ternary_writes ..) h
theorem keeps_reshape (he hn hx hy) (h : y ∉ G) :
    KeepsL G (StableHlo.reshape (τ := τ) (Val := Elt F) x y he hn hx hy) := keeps_of_writes G (StableHlo.reshape_writes ..) h
end Kinds

/-- One stretch: split the conjunction, then each operation by its kind, its result buffer compared with the listed ones. -/
macro "keeps_stretch" : tactic =>
  `(tactic| ((repeat' apply And.intro) <;>
      first
        | exact keeps_nullary _ _ _ (by decide)
        | exact keeps_unary _ _ _ _ (by decide)
        | exact keeps_binary _ _ _ _ _ (by decide)
        | exact keeps_ternary _ _ _ _ _ _ (by decide)
        | exact keeps_reshape _ _ _ _ _ (by decide)))

theorem keeps_0 : (hostOps1 : List (HloOp τ sig (Elt F))).Forall (KeepsL guarded) := by
  simp only [hostOps1, List.Forall]; keeps_stretch
theorem fresh_0 : (hostOps1 : List (HloOp τ sig (Elt F))).Forall fun op => op.fresh = ∅ := by
  simp only [List.Forall]; repeat' constructor
theorem keeps_1 : (hostOps1_1 : List (HloOp τ sig (Elt F))).Forall (KeepsL guarded) := by
  simp only [hostOps1_1, List.Forall]; keeps_stretch
theorem fresh_1 : (hostOps1_1 : List (HloOp τ sig (Elt F))).Forall fun op => op.fresh = ∅ := by
  simp only [List.Forall]; repeat' constructor
theorem keeps_2 : (hostOps1_2 : List (HloOp τ sig (Elt F))).Forall (KeepsL guarded) := by
  simp only [hostOps1_2, List.Forall]; keeps_stretch
theorem fresh_2 : (hostOps1_2 : List (HloOp τ sig (Elt F))).Forall fun op => op.fresh = ∅ := by
  simp only [List.Forall]; repeat' constructor
theorem keeps_3 : (hostOps1_3 : List (HloOp τ sig (Elt F))).Forall (KeepsL guarded) := by
  simp only [hostOps1_3, List.Forall]; keeps_stretch
theorem fresh_3 : (hostOps1_3 : List (HloOp τ sig (Elt F))).Forall fun op => op.fresh = ∅ := by
  simp only [List.Forall]; repeat' constructor
theorem keeps_4 : (hostOps1_4 : List (HloOp τ sig (Elt F))).Forall (KeepsL guarded) := by
  simp only [hostOps1_4, List.Forall]; keeps_stretch
theorem fresh_4 : (hostOps1_4 : List (HloOp τ sig (Elt F))).Forall fun op => op.fresh = ∅ := by
  simp only [List.Forall]; repeat' constructor
theorem keeps_5 : (hostOps1_5 : List (HloOp τ sig (Elt F))).Forall (KeepsL guarded) := by
  simp only [hostOps1_5, List.Forall]; keeps_stretch
theorem fresh_5 : (hostOps1_5 : List (HloOp τ sig (Elt F))).Forall fun op => op.fresh = ∅ := by
  simp only [List.Forall]; repeat' constructor
theorem keeps_6 : (hostOps1_6 : List (HloOp τ sig (Elt F))).Forall (KeepsL guarded) := by
  simp only [hostOps1_6, List.Forall]; keeps_stretch
theorem fresh_6 : (hostOps1_6 : List (HloOp τ sig (Elt F))).Forall fun op => op.fresh = ∅ := by
  simp only [List.Forall]; repeat' constructor
theorem keeps_7 : (hostOps1_7 : List (HloOp τ sig (Elt F))).Forall (KeepsL guarded) := by
  simp only [hostOps1_7, List.Forall]; keeps_stretch
theorem fresh_7 : (hostOps1_7 : List (HloOp τ sig (Elt F))).Forall fun op => op.fresh = ∅ := by
  simp only [List.Forall]; repeat' constructor
theorem keeps_8 : (hostOps1_8 : List (HloOp τ sig (Elt F))).Forall (KeepsL guarded) := by
  simp only [hostOps1_8, List.Forall]; keeps_stretch
theorem fresh_8 : (hostOps1_8 : List (HloOp τ sig (Elt F))).Forall fun op => op.fresh = ∅ := by
  simp only [List.Forall]; repeat' constructor
theorem keeps_9 : (hostOps1_9 : List (HloOp τ sig (Elt F))).Forall (KeepsL guarded) := by
  simp only [hostOps1_9, List.Forall]; keeps_stretch
theorem fresh_9 : (hostOps1_9 : List (HloOp τ sig (Elt F))).Forall fun op => op.fresh = ∅ := by
  simp only [List.Forall]; repeat' constructor
theorem keeps_10 : (hostOps1_10 : List (HloOp τ sig (Elt F))).Forall (KeepsL guarded) := by
  simp only [hostOps1_10, List.Forall]; keeps_stretch
theorem fresh_10 : (hostOps1_10 : List (HloOp τ sig (Elt F))).Forall fun op => op.fresh = ∅ := by
  simp only [List.Forall]; repeat' constructor
theorem keeps_11 : (hostOps1_11 : List (HloOp τ sig (Elt F))).Forall (KeepsL guarded) := by
  simp only [hostOps1_11, List.Forall]; keeps_stretch
theorem fresh_11 : (hostOps1_11 : List (HloOp τ sig (Elt F))).Forall fun op => op.fresh = ∅ := by
  simp only [List.Forall]; repeat' constructor
theorem keeps_12 : (hostOps1_12 : List (HloOp τ sig (Elt F))).Forall (KeepsL guarded) := by
  simp only [hostOps1_12, List.Forall]; keeps_stretch
theorem fresh_12 : (hostOps1_12 : List (HloOp τ sig (Elt F))).Forall fun op => op.fresh = ∅ := by
  simp only [List.Forall]; repeat' constructor
theorem keeps_13 : (hostOps1_13 : List (HloOp τ sig (Elt F))).Forall (KeepsL guarded) := by
  simp only [hostOps1_13, List.Forall]; keeps_stretch
theorem fresh_13 : (hostOps1_13 : List (HloOp τ sig (Elt F))).Forall fun op => op.fresh = ∅ := by
  simp only [List.Forall]; repeat' constructor
theorem keeps_14 : (hostOps1_14 : List (HloOp τ sig (Elt F))).Forall (KeepsL guarded) := by
  simp only [hostOps1_14, List.Forall]; keeps_stretch
theorem fresh_14 : (hostOps1_14 : List (HloOp τ sig (Elt F))).Forall fun op => op.fresh = ∅ := by
  simp only [List.Forall]; repeat' constructor
theorem keeps_15 : (hostOps1_15 : List (HloOp τ sig (Elt F))).Forall (KeepsL guarded) := by
  simp only [hostOps1_15, List.Forall]; keeps_stretch
theorem fresh_15 : (hostOps1_15 : List (HloOp τ sig (Elt F))).Forall fun op => op.fresh = ∅ := by
  simp only [List.Forall]; repeat' constructor
theorem keeps_16 : (hostOps1_16 : List (HloOp τ sig (Elt F))).Forall (KeepsL guarded) := by
  simp only [hostOps1_16, List.Forall]; keeps_stretch
theorem fresh_16 : (hostOps1_16 : List (HloOp τ sig (Elt F))).Forall fun op => op.fresh = ∅ := by
  simp only [List.Forall]; repeat' constructor
theorem keeps_17 : (hostOps1_17 : List (HloOp τ sig (Elt F))).Forall (KeepsL guarded) := by
  simp only [hostOps1_17, List.Forall]; keeps_stretch
theorem fresh_17 : (hostOps1_17 : List (HloOp τ sig (Elt F))).Forall fun op => op.fresh = ∅ := by
  simp only [List.Forall]; repeat' constructor
theorem keeps_18 : (hostOps1_18 : List (HloOp τ sig (Elt F))).Forall (KeepsL guarded) := by
  simp only [hostOps1_18, List.Forall]; keeps_stretch
theorem fresh_18 : (hostOps1_18 : List (HloOp τ sig (Elt F))).Forall fun op => op.fresh = ∅ := by
  simp only [List.Forall]; repeat' constructor
theorem keeps_19 : (hostOps1_19 : List (HloOp τ sig (Elt F))).Forall (KeepsL guarded) := by
  simp only [hostOps1_19, List.Forall]; keeps_stretch
theorem fresh_19 : (hostOps1_19 : List (HloOp τ sig (Elt F))).Forall fun op => op.fresh = ∅ := by
  simp only [List.Forall]; repeat' constructor
theorem keeps_20 : (hostOps1_20 : List (HloOp τ sig (Elt F))).Forall (KeepsL guarded) := by
  simp only [hostOps1_20, List.Forall]; keeps_stretch
theorem fresh_20 : (hostOps1_20 : List (HloOp τ sig (Elt F))).Forall fun op => op.fresh = ∅ := by
  simp only [List.Forall]; repeat' constructor

theorem tail_keeps : (tail : List (List (HloOp τ sig (Elt F)))).Forall fun ops => ops.Forall (KeepsL guarded) :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19, keeps_20⟩
theorem tail_fresh : (tail : List (List (HloOp τ sig (Elt F)))).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20⟩
theorem tail_sub : (tail : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩

theorem of_forall₂ {α : Type} {P : α → Prop} {L : List (List α)} (h : L.Forall fun l => l.Forall P) :
    ∀ l ∈ L, ∀ x ∈ l, P x :=
  fun l hl x hx => List.forall_iff_forall_mem.mp (List.forall_iff_forall_mem.mp h l hl) x hx

/-- Every operation of the flattened tail keeps the guarded buffers. -/
theorem flatten_keeps : ∀ op ∈ (tail : List (List (HloOp τ sig (Elt F)))).flatten, KeepsL guarded op := by
  intro op hop
  obtain ⟨l, hl, hx⟩ := List.mem_flatten.mp hop
  exact of_forall₂ tail_keeps l hl op hx

/-- The later stretches touch the pipeline's arrays and the bypassing buffers only (nothing is prefetched, so every unscoped
    TensorCore reference is one or the other). -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (of_forall₂ tail_sub ops hops op hop)
/-- They allocate nothing. -/
theorem sfx_fresh : ∀ ops ∈ (tail : List (List (HloOp τ sig (Elt F)))), ∀ op ∈ ops, op.fresh = ∅ :=
  of_forall₂ tail_fresh
/-- Every window's array is guarded. -/
theorem arr_guarded : ∀ w : Fin 7, Pipeline.arrRef spec0 w ∈ guarded := by decide
/-- And they write no array of the pipeline. -/
theorem sfx_keeps : ∀ ops ∈ (tail : List (List (HloOp τ sig (Elt F)))), ∀ op ∈ ops,
    ∀ w, Proc.devRef .tc (Pipeline.arrRef spec0 w) ∉ op.writes :=
  fun ops hops op hop w => of_forall₂ tail_keeps ops hops op hop _ (arr_guarded w)

/-! ## @main around the region -/

variable (m : (ℓ : Loc nD τ sig) → Buf (Elt F) ℓ)

/-- Core `c`'s TensorCore buffer contents when the region is entered: the launch contents after the ten operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main reduces to the region continued by the later stretches, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The ten operations before the region write neither argument. -/
theorem hostOps0_keeps : (hostOps0 : List (HloOp τ sig (Elt F))).Forall (KeepsL args) := by
  simp only [hostOps0, List.Forall]; keeps_stretch

/-- So the region finds each argument as launched. -/
theorem V_arg (c : Dev nD) {r : Ref sig .tc} (hr : r ∈ args) : V m c r = m ((c : Thread nD τ).loc r) :=
  StableHlo.after_of_forall_not_mem (b := Proc.devRef .tc r) _ _ fun op hop => by
    simp only [List.flatten_cons, List.flatten_nil, List.append_nil] at hop
    exact List.forall_iff_forall_mem.mp hostOps0_keeps op hop r hr

/-- And no later stretch writes an argument either: each ends as launched, whatever the region's proof data. -/
theorem W_arg {U' : Type} [URA U'] (dats : (p : Fin 1) → (c : Dev nD) → Pipeline.Dat τ (Elt F) Unit ℕ U' ℕ (cfgs p) c) (c : Dev nD)
    {r : Ref sig .tc} (hr : r ∈ args) :
    Pipeline.afterTail₀ cfgs dats 0 (V0 m) tail c r = m ((c : Thread nD τ).loc r) := by
  have hg : r ∈ guarded := by
    simp only [List.mem_cons, List.mem_nil_iff, or_false] at hr
    rcases hr with rfl | rfl <;> decide
  have hne : ∀ w, Pipeline.arrRef spec0 w ≠ r := by
    simp only [List.mem_cons, List.mem_nil_iff, or_false] at hr
    rcases hr with rfl | rfl <;> decide
  unfold Pipeline.afterTail₀
  rw [StableHlo.after_of_forall_not_mem (b := Proc.devRef .tc r) _ _ (fun op hop => flatten_keeps op hop r hg),
    Pipeline.withArrays_of_ne _ c (V0 m c) _ r hne]
  exact V_arg m c hr

end Cert.KernelIdeal.Host

end
-- ==== Proof.KernelIdeal.Body.lean ====
/-
  The body of `KernelIdeal`'s one kernel on whole staging buffers. It loads three 256×1 columns (the x and y coordinates and the
  radius of the 256 bodies of this row tile) and three 1×4096 rows (the same of all 4096 bodies), loads and discards its
  output buffer, and stores ONE 256×4096 array of 0/1 words: the skeleton's payload `k0_pay1` of the six loads, which marks
  the pairs whose boxes overlap on both axes and that are not a body with itself. So after the body the output buffer holds
  that payload (`out6`, written as the canonical form of the one store, which covers the buffer) and the six inputs are as found.
-/
import proofs.«167490_j40750649704463_1_alg».proof.Proof.Gen.KernelIdeal.Launch
import proofs.«167490_j40750649704463_1_alg».proof.Proof.Gen.KernelIdeal.Skeleton
import proofs.«167490_j40750649704463_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a column buffer, of a row buffer, of the output buffer: the rectangles the body loads and stores through. -/
abbrev rCol : Rect S256x1 := Rect.unit (s := S256x1) ![0, 0] S256x1.size inb_S256x1_S256x1_0_0
abbrev rRow : Rect S1x4096 := Rect.unit (s := S1x4096) ![0, 0] S1x4096.size inb_S1x4096_S1x4096_0_0
abbrev rOut : Rect S256x4096 := Rect.unit (s := S256x4096) ![0, 0] S256x4096.size inb_S256x4096_S256x4096_0_0

/-- What the output buffer holds after the body at grid coordinates `i`, from the six input buffers' contents (columns x, y,
    radius; rows x, y, radius): the one store's payload, as the canonical form of the store list. -/
def out6 (i : grid0.Coords) (x0 x1 x2 : Vec F S256x1 .f32) (x3 x4 x5 : Vec F S1x4096 .f32) : Vec F S256x4096 .i32 :=
  View.canon [⟨rOut, k0_pay1 i (View.ld x0 rCol) (View.ld x3 rRow) (View.ld x1 rCol) (View.ld x4 rRow) (View.ld x2 rCol) (View.ld x5 rRow)⟩]

/-- The one store is of the whole buffer, so it covers it. -/
theorem cover6 (p0 : Vec F S256x4096 .i32) (y : S256x4096.Idx) :
    ∃ pc ∈ ([⟨rOut, p0⟩] : List (View.Piece (Elt F) S256x4096 .i32)), y ∈ pc.1.set :=
  View.cover_of_tiled [⟨rOut, p0⟩] S256x4096.size (by rfl) y

set_option maxHeartbeats 1000000 in
/-- The body on whole staging memrefs, the inputs at contents `x0 … x5` and the output at anything, runs to the continuation
    holding the inputs as they were and the output at `out6` of them. -/
theorem sound_kernel (c : Dev nD) (E : Set ℕ) (i : grid0.Coords)
    (arg1 : Memref sig .tc .vmem S256x1 .f32) (harg1 : arg1.IsWhole) (arg2 : Memref sig .tc .vmem S256x1 .f32) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S256x4096 .i32) (harg7 : arg7.IsWhole)
    (x0 x1 x2 : Vec F S256x1 .f32) (x3 x4 x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 i x0 x1 x2 x3 x4 x5)) -∗ K ⟨⟩))
      ⊢ wp frame (wpE (defs₀ (F := F)) Variants.none c none) E
          (cc0__collide_kernel i arg1 harg1 arg2 harg2 arg3 harg3 arg4 harg4 arg5 harg5 arg6 harg6 arg7 harg7) K := by
  simp only [cc0__collide_kernel_eq_skeleton]; unfold cc0__collide_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Cert.KernelIdeal.Body

end
-- ==== Proof.KernelIdeal.Frame.lean ====
/-
  The frame of `KernelIdeal`: every weakly fair execution of @main terminates, nothing faults, and the two argument arrays end as
  launched. The region is a pipeline of 16 points over 7 windows: three 256×1 column operands whose block index is the point,
  three 1×4096 row operands fetched once (their block index never moves), and the 256×4096 output block written back at
  every point. The proof data says what each staging buffer holds after the body at a point: an input's its block of the
  array as the region finds it (`iblk`), the output's the body's one store (`Body.out6` of the six input blocks). With
  that, the body obligation is the body's triple at every point, and the library's launch theorem for "host lines, one
  region, host lines" gives the run; the arguments are read off its post (no line after the region writes them).
-/
import proofs.«167490_j40750649704463_1_alg».proof.Proof.KernelIdeal.Host
import proofs.«167490_j40750649704463_1_alg».proof.Proof.KernelIdeal.Body

set_option maxRecDepth 16384

noncomputable section

namespace Cert.KernelIdeal.Frame

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched window's block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched window's block
    index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched window's block
    index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched window's block
    index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched window's block
    index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (an unfetched window's block
    index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post read at the two arguments — buffers no window stages, so the post's
    second clause applies, and no later line writes them — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg m dats c (by decide)),
     ((h c).2 main_arg1 (Pipeline.mem_restRefs_of main_arg1 (by decide) (by decide))).trans (W_arg m dats c (by decide))⟩) h

/-! ## The pipeline's proof data -/

/-- The proof data of the one pipeline on core `c`: the arrays as the region finds them; after the body at point `t` each
    input's buffer at its block and the output's at the body's store of the input blocks; the invariant only what the body
    never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (grid0.coords t) (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each array
    of the pipeline at what the library computes from the proof data and every other unscoped buffer as the later lines
    leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frame

end
-- ==== Proof.ReferenceIdeal.Ops.lean ====
/-
  @main of `ReferenceIdeal` as lists of its host operations: one list per stretch, a new stretch at every call of a
  module-local function (whose body's operations are written out over that call's buffers) and at every boundary
  between the windows @main is printed in; `main_chain` says @main IS the chain of the stretches, an equation Lean's
  kernel checks by unfolding. Nothing here is an argument: it is the program's own text, regrouped.
-/
import proofs.«167490_j40750649704463_1_alg».proof.Proof.Gen.ReferenceIdeal
import Idealize.ShloMosaic.Lib.Pipeline.Regions

set_option maxRecDepth 4096

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Stretch 0 of window 0: 26 operations. -/
abbrev s0_0 : List (HloOp τ sig (Elt F)) :=
  [ StableHlo.unary main_arg0 main_v0 (broadcastInDim S4096x1x2 ![0, 2] bcast_S4096x2_S4096x1x2_0_2 : (⟨S4096x2, .f32⟩ : BufTy).Contents (Elt F) → (⟨S4096x1x2, .f32⟩ : BufTy).Contents (Elt F)),
    StableHlo.unary main_arg0 main_v1 (broadcastInDim S1x4096x2 ![1, 2] bcast_S4096x2_S1x4096x2_1_2 : (⟨S4096x2, .f32⟩ : BufTy).Contents (Elt F) → (⟨S1x4096x2, .f32⟩ : BufTy).Contents (Elt F)),
    StableHlo.unary main_v0 main_v2 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    StableHlo.unary main_v1 main_v3 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    StableHlo.binary main_v2 main_v3 main_v4 (subf : (⟨S4096x4096x2, .f32⟩ : BufTy).Contents (Elt F) → (⟨S4096x4096x2, .f32⟩ : BufTy).Contents (Elt F) → (⟨S4096x4096x2, .f32⟩ : BufTy).Contents (Elt F)),
    StableHlo.unary main_v4 main_v5 (Host.absf : (⟨S4096x4096x2, .f32⟩ : BufTy).Contents (Elt F) → (⟨S4096x4096x2, .f32⟩ : BufTy).Contents (Elt F)),
    StableHlo.unary main_arg1 main_v6 (broadcastInDim S4096x1 ![0] bcast_S4096_S4096x1_0 : (⟨S4096, .f32⟩ : BufTy).Contents (Elt F) → (⟨S4096x1, .f32⟩ : BufTy).Contents (Elt F)),
    StableHlo.unary main_arg1 main_v7 (broadcastInDim S1x4096 ![1] bcast_S4096_S1x4096_1 : (⟨S4096, .f32⟩ : BufTy).Contents (Elt F) → (⟨S1x4096, .f32⟩ : BufTy).Contents (Elt F)),
    StableHlo.unary main_v6 main_v8 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v7 main_v9 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v8 main_v9 main_v10 (addf : (⟨S4096x4096, .f32⟩ : BufTy).Contents (Elt F) → (⟨S4096x4096, .f32⟩ : BufTy).Contents (Elt F) → (⟨S4096x4096, .f32⟩ : BufTy).Contents (Elt F)),
    StableHlo.unary main_v10 main_v11 (broadcastInDim S4096x4096x1 ![0, 1] bcast_S4096x4096_S4096x4096x1_0_1 : (⟨S4096x4096, .f32⟩ : BufTy).Contents (Elt F) → (⟨S4096x4096x1, .f32⟩ : BufTy).Contents (Elt F)),
    StableHlo.unary main_v11 main_v12 (broadcastInDim S4096x4096x2 ![0, 1, 2] bcast_S4096x4096x1_S4096x4096x2_0_1_2 : (⟨S4096x4096x1, .f32⟩ : BufTy).Contents (Elt F) → (⟨S4096x4096x2, .f32⟩ : BufTy).Contents (Elt F)),
    StableHlo.binary main_v5 main_v12 main_v13 (cmpf .ole : (⟨S4096x4096x2, .f32⟩ : BufTy).Contents (Elt F) → (⟨S4096x4096x2, .f32⟩ : BufTy).Contents (Elt F) → (⟨S4096x4096x2, .i1⟩ : BufTy).Contents (Elt F)),
    StableHlo.nullary main_c (constantI S_ 1 1#1),
    StableHlo.binary main_v13 main_c main_v14 ((fun x v => Host.reduce IntOp.andi x v reducesTo_S4096x4096x2_S4096x4096_d2 h_S_) : (⟨S4096x4096x2, .i1⟩ : BufTy).Contents (Elt F) → (⟨S_, .i1⟩ : BufTy).Contents (Elt F) → (⟨S4096x4096, .i1⟩ : BufTy).Contents (Elt F)),
    StableHlo.nullary main_v15 (iotaInDim S4096x4096 32 0),
    StableHlo.nullary main_v16 (iotaInDim S4096x4096 32 1),
    StableHlo.nullary main_c_0 (constantI S_ 32 0#32),
    StableHlo.unary main_c_0 main_v17 (broadcastInDim S4096x4096 ![] bcast_S_S4096x4096 : (⟨S_, .i32⟩ : BufTy).Contents (Elt F) → (⟨S4096x4096, .i32⟩ : BufTy).Contents (Elt F)),
    StableHlo.binary main_v15 main_v17 main_v18 (addi : (⟨S4096x4096, .i32⟩ : BufTy).Contents (Elt F) → (⟨S4096x4096, .i32⟩ : BufTy).Contents (Elt F) → (⟨S4096x4096, .i32⟩ : BufTy).Contents (Elt F)),
    StableHlo.binary main_v18 main_v16 main_v19 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v19 main_v20 (noti : (⟨S4096x4096, .i1⟩ : BufTy).Contents (Elt F) → (⟨S4096x4096, .i1⟩ : BufTy).Contents (Elt F)),
    StableHlo.binary main_v14 main_v20 main_v21 (andi : (⟨S4096x4096, .i1⟩ : BufTy).Contents (Elt F) → (⟨S4096x4096, .i1⟩ : BufTy).Contents (Elt F) → (⟨S4096x4096, .i1⟩ : BufTy).Contents (Elt F)),
    StableHlo.reshape main_v21 main_v22 rfl shapeCasts_S4096x4096_S16777216,
    StableHlo.unary main_v22 main_v23 ((extui 32 · natLt_1_32) : (⟨S16777216, .i1⟩ : BufTy).Contents (Elt F) → (⟨S16777216, .i32⟩ : BufTy).Contents (Elt F)) ]
/-- Stretch 1 of window 0: 3 operations. -/
abbrev s0_1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v23 : StableHlo.TRef sig ⟨S16777216, .i32⟩) (.of main_call0_call0_v0 : StableHlo.TRef sig ⟨S_, .i32⟩) (.of main_v24 : StableHlo.TRef sig ⟨S16777216, .i32⟩) (fun x v => Host.reduceWindow IntOp.addi ![16777216] ![1] ![16777215] ![0] x v reduceWindows_S16777216_S16777216_w16777216s1p16777215_0 h_S_) ]
/-- Stretch 2 of window 0: 8 operations. -/
abbrev s0_2 : List (HloOp τ sig (Elt F)) :=
  [ StableHlo.nullary main_c_1 (constantI S_ 32 1#32),
    StableHlo.unary main_c_1 main_v25 (broadcastInDim S16777216 ![] bcast_S_S16777216 : (⟨S_, .i32⟩ : BufTy).Contents (Elt F) → (⟨S16777216, .i32⟩ : BufTy).Contents (Elt F)),
    StableHlo.binary main_v24 main_v25 main_v26 (subi : (⟨S16777216, .i32⟩ : BufTy).Contents (Elt F) → (⟨S16777216, .i32⟩ : BufTy).Contents (Elt F) → (⟨S16777216, .i32⟩ : BufTy).Contents (Elt F)),
    StableHlo.nullary main_c_2 (constantI S_ 32 16384#32),
    StableHlo.unary main_c_2 main_v27 (broadcastInDim S16777216 ![] bcast_S_S16777216 : (⟨S_, .i32⟩ : BufTy).Contents (Elt F) → (⟨S16777216, .i32⟩ : BufTy).Contents (Elt F)),
    StableHlo.binary main_v26 main_v27 main_v28 (cmpi .slt : (⟨S16777216, .i32⟩ : BufTy).Contents (Elt F) → (⟨S16777216, .i32⟩ : BufTy).Contents (Elt F) → (⟨S16777216, .i1⟩ : BufTy).Contents (Elt F)),
    StableHlo.binary main_v22 main_v28 main_v29 (andi : (⟨S16777216, .i1⟩ : BufTy).Contents (Elt F) → (⟨S16777216, .i1⟩ : BufTy).Contents (Elt F) → (⟨S16777216, .i1⟩ : BufTy).Contents (Elt F)),
    StableHlo.nullary main_c_3 (constantI S_ 32 16384#32) ]
/-- Stretch 3 of window 0: 3 operations. -/
abbrev s0_3 : List (HloOp τ sig (Elt F)) :=
  [ StableHlo.TRef.unary (.of main_c_3 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16777216, .i32⟩) (broadcastInDim S16777216 ![] bcast_S_S16777216),
    StableHlo.TRef.ternary (.of main_v29 : StableHlo.TRef sig ⟨S16777216, .i1⟩) (.of main_v26 : StableHlo.TRef sig ⟨S16777216, .i32⟩) (.of main_call1_v1 : StableHlo.TRef sig ⟨S16777216, .i32⟩) (.of main_v30 : StableHlo.TRef sig ⟨S16777216, .i32⟩) select ]
/-- Stretch 4 of window 0: 24 operations. -/
abbrev s0_4 : List (HloOp τ sig (Elt F)) :=
  [ StableHlo.nullary main_v31 (iotaInDim S4096 32 0),
    StableHlo.unary main_v31 main_v32 (broadcastInDim S4096x4096 ![0] bcast_S4096_S4096x4096_0 : (⟨S4096, .i32⟩ : BufTy).Contents (Elt F) → (⟨S4096x4096, .i32⟩ : BufTy).Contents (Elt F)),
    StableHlo.reshape main_v32 main_v33 rfl shapeCasts_S4096x4096_S16777216,
    StableHlo.nullary main_v34 (iotaInDim S4096 32 0),
    StableHlo.reshape main_v34 main_v35 rfl shapeCasts_S4096_S1x4096,
    StableHlo.unary main_v35 main_v36 (broadcastInDim S4096x4096 ![0, 1] bcast_S1x4096_S4096x4096_0_1 : (⟨S1x4096, .i32⟩ : BufTy).Contents (Elt F) → (⟨S4096x4096, .i32⟩ : BufTy).Contents (Elt F)),
    StableHlo.reshape main_v36 main_v37 rfl shapeCasts_S4096x4096_S16777216,
    StableHlo.nullary main_c_4 (constantI S_ 32 4294967295#32),
    StableHlo.unary main_c_4 main_v38 (broadcastInDim S16384 ![] bcast_S_S16384 : (⟨S_, .i32⟩ : BufTy).Contents (Elt F) → (⟨S16384, .i32⟩ : BufTy).Contents (Elt F)),
    StableHlo.nullary main_c_5 (constantI S_ 32 0#32),
    StableHlo.unary main_c_5 main_v39 (broadcastInDim S16777216 ![] bcast_S_S16777216 : (⟨S_, .i32⟩ : BufTy).Contents (Elt F) → (⟨S16777216, .i32⟩ : BufTy).Contents (Elt F)),
    StableHlo.binary main_v30 main_v39 main_v40 (cmpi .slt : (⟨S16777216, .i32⟩ : BufTy).Contents (Elt F) → (⟨S16777216, .i32⟩ : BufTy).Contents (Elt F) → (⟨S16777216, .i1⟩ : BufTy).Contents (Elt F)),
    StableHlo.nullary main_c_6 (constantI S_ 32 16384#32),
    StableHlo.unary main_c_6 main_v41 (broadcastInDim S16777216 ![] bcast_S_S16777216 : (⟨S_, .i32⟩ : BufTy).Contents (Elt F) → (⟨S16777216, .i32⟩ : BufTy).Contents (Elt F)),
    StableHlo.binary main_v30 main_v41 main_v42 (addi : (⟨S16777216, .i32⟩ : BufTy).Contents (Elt F) → (⟨S16777216, .i32⟩ : BufTy).Contents (Elt F) → (⟨S16777216, .i32⟩ : BufTy).Contents (Elt F)),
    StableHlo.ternary main_v40 main_v42 main_v30 main_v43 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v43 main_v44 (broadcastInDim S16777216x1 ![0] bcast_S16777216_S16777216x1_0 : (⟨S16777216, .i32⟩ : BufTy).Contents (Elt F) → (⟨S16777216x1, .i32⟩ : BufTy).Contents (Elt F)),
    StableHlo.ternary main_v38 main_v44 main_v33 main_v45 ((fun x i u => Host.scatter scatter_S16384_S16777216x1_S16777216_n_0_0_1 (fun _ b => b) x i u) : (⟨S16384, .i32⟩ : BufTy).Contents (Elt F) → (⟨S16777216x1, .i32⟩ : BufTy).Contents (Elt F) → (⟨S16777216, .i32⟩ : BufTy).Contents (Elt F) → (⟨S16384, .i32⟩ : BufTy).Contents (Elt F)),
    StableHlo.nullary main_c_7 (constantI S_ 32 4294967295#32),
    StableHlo.unary main_c_7 main_v46 (broadcastInDim S16384 ![] bcast_S_S16384 : (⟨S_, .i32⟩ : BufTy).Contents (Elt F) → (⟨S16384, .i32⟩ : BufTy).Contents (Elt F)),
    StableHlo.nullary main_c_8 (constantI S_ 32 0#32),
    StableHlo.unary main_c_8 main_v47 (broadcastInDim S16777216 ![] bcast_S_S16777216 : (⟨S_, .i32⟩ : BufTy).Contents (Elt F) → (⟨S16777216, .i32⟩ : BufTy).Contents (Elt F)),
    StableHlo.binary main_v30 main_v47 main_v48 (cmpi .slt : (⟨S16777216, .i32⟩ : BufTy).Contents (Elt F) → (⟨S16777216, .i32⟩ : BufTy).Contents (Elt F) → (⟨S16777216, .i1⟩ : BufTy).Contents (Elt F)),
    StableHlo.nullary main_c_9 (constantI S_ 32 16384#32) ]
theorem main_part0_chain (c : Dev nD) : main_part0 (F := F) c = (Pipeline.chainK
  [ StableHlo.seq s0_0,
    StableHlo.seq s0_1,
    StableHlo.seq s0_2,
    StableHlo.seq s0_3 ]
  (StableHlo.seq s0_4) : Prog (TpuEff nD τ sig (Elt F) (Pipeline.Sig Λ₀ (Fin 0) fun p => (pcfgs (F := F) p).Adm) .tc) PUnit) := by
  chain_rfl

/-- Stretch 0 of window 1: 7 operations. -/
abbrev s1_0 : List (HloOp τ sig (Elt F)) :=
  [ StableHlo.unary main_c_9 main_v49 (broadcastInDim S16777216 ![] bcast_S_S16777216 : (⟨S_, .i32⟩ : BufTy).Contents (Elt F) → (⟨S16777216, .i32⟩ : BufTy).Contents (Elt F)),
    StableHlo.binary main_v30 main_v49 main_v50 (addi : (⟨S16777216, .i32⟩ : BufTy).Contents (Elt F) → (⟨S16777216, .i32⟩ : BufTy).Contents (Elt F) → (⟨S16777216, .i32⟩ : BufTy).Contents (Elt F)),
    StableHlo.ternary main_v48 main_v50 main_v30 main_v51 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v51 main_v52 (broadcastInDim S16777216x1 ![0] bcast_S16777216_S16777216x1_0 : (⟨S16777216, .i32⟩ : BufTy).Contents (Elt F) → (⟨S16777216x1, .i32⟩ : BufTy).Contents (Elt F)),
    StableHlo.ternary main_v46 main_v52 main_v37 main_v53 ((fun x i u => Host.scatter scatter_S16384_S16777216x1_S16777216_n_0_0_1 (fun _ b => b) x i u) : (⟨S16384, .i32⟩ : BufTy).Contents (Elt F) → (⟨S16777216x1, .i32⟩ : BufTy).Contents (Elt F) → (⟨S16777216, .i32⟩ : BufTy).Contents (Elt F) → (⟨S16384, .i32⟩ : BufTy).Contents (Elt F)),
    StableHlo.nullary main_c_10 (constantI S_ 32 0#32),
    StableHlo.nullary main_c_11 (constantI S_ 32 4095#32) ]
/-- Stretch 1 of window 1: 6 operations. -/
abbrev s1_1 : List (HloOp τ sig (Elt F)) :=
  [ StableHlo.TRef.unary (.of main_c_10 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.binary (.of main_call2_v1 : StableHlo.TRef sig ⟨S16384, .i32⟩) (.of main_v45 : StableHlo.TRef sig ⟨S16384, .i32⟩) (.of main_call2_v2 : StableHlo.TRef sig ⟨S16384, .i32⟩) maxsi,
    StableHlo.TRef.unary (.of main_c_11 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S16384, .i32⟩) (broadcastInDim S16384 ![] bcast_S_S16384),
    StableHlo.TRef.binary (.of main_call2_v4 : StableHlo.TRef sig ⟨S16384, .i32⟩) (.of main_call2_v2 : StableHlo.TRef sig ⟨S16384, .i32⟩) (.of main_v54 : StableHlo.TRef sig ⟨S16384, .i32⟩) minsi ]
/-- Stretch 2 of window 1: 2 operations. -/
abbrev s1_2 : List (HloOp τ sig (Elt F)) :=
  [ StableHlo.nullary main_c_12 (constantI S_ 32 0#32),
    StableHlo.nullary main_c_13 (constantI S_ 32 4095#32) ]
/-- Stretch 3 of window 1: 6 operations. -/
abbrev s1_3 : List (HloOp τ sig (Elt F)) :=
  [ StableHlo.TRef.unary (.of main_c_12 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.binary (.of main_call3_v1 : StableHlo.TRef sig ⟨S16384, .i32⟩) (.of main_v53 : StableHlo.TRef sig ⟨S16384, .i32⟩) (.of main_call3_v2 : StableHlo.TRef sig ⟨S16384, .i32⟩) maxsi,
    StableHlo.TRef.unary (.of main_c_13 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S16384, .i32⟩) (broadcastInDim S16384 ![] bcast_S_S16384),
    StableHlo.TRef.binary (.of main_call3_v4 : StableHlo.TRef sig ⟨S16384, .i32⟩) (.of main_call3_v2 : StableHlo.TRef sig ⟨S16384, .i32⟩) (.of main_v55 : StableHlo.TRef sig ⟨S16384, .i32⟩) minsi ]
/-- Stretch 4 of window 1: 49 operations. -/
abbrev s1_4 : List (HloOp τ sig (Elt F)) :=
  [ StableHlo.nullary main_c_14 (constantI S_ 32 0#32),
    StableHlo.unary main_c_14 main_v56 (broadcastInDim S16384 ![] bcast_S_S16384 : (⟨S_, .i32⟩ : BufTy).Contents (Elt F) → (⟨S16384, .i32⟩ : BufTy).Contents (Elt F)),
    StableHlo.binary main_v54 main_v56 main_v57 (cmpi .slt : (⟨S16384, .i32⟩ : BufTy).Contents (Elt F) → (⟨S16384, .i32⟩ : BufTy).Contents (Elt F) → (⟨S16384, .i1⟩ : BufTy).Contents (Elt F)),
    StableHlo.nullary main_c_15 (constantI S_ 32 4096#32),
    StableHlo.unary main_c_15 main_v58 (broadcastInDim S16384 ![] bcast_S_S16384 : (⟨S_, .i32⟩ : BufTy).Contents (Elt F) → (⟨S16384, .i32⟩ : BufTy).Contents (Elt F)),
    StableHlo.binary main_v54 main_v58 main_v59 (addi : (⟨S16384, .i32⟩ : BufTy).Contents (Elt F) → (⟨S16384, .i32⟩ : BufTy).Contents (Elt F) → (⟨S16384, .i32⟩ : BufTy).Contents (Elt F)),
    StableHlo.ternary main_v57 main_v59 main_v54 main_v60 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v60 main_v61 (broadcastInDim S16384x1 ![0] bcast_S16384_S16384x1_0 : (⟨S16384, .i32⟩ : BufTy).Contents (Elt F) → (⟨S16384x1, .i32⟩ : BufTy).Contents (Elt F)),
    StableHlo.binary main_arg0 main_v61 main_v62 ((fun x i => Host.gather gather_S4096x2_S16384x1_S16384x2_1_0_n_n_0_1_12 x i) : (⟨S4096x2, .f32⟩ : BufTy).Contents (Elt F) → (⟨S16384x1, .i32⟩ : BufTy).Contents (Elt F) → (⟨S16384x2, .f32⟩ : BufTy).Contents (Elt F)),
    StableHlo.nullary main_c_16 (constantI S_ 32 0#32),
    StableHlo.unary main_c_16 main_v63 (broadcastInDim S16384 ![] bcast_S_S16384 : (⟨S_, .i32⟩ : BufTy).Contents (Elt F) → (⟨S16384, .i32⟩ : BufTy).Contents (Elt F)),
    StableHlo.binary main_v55 main_v63 main_v64 (cmpi .slt : (⟨S16384, .i32⟩ : BufTy).Contents (Elt F) → (⟨S16384, .i32⟩ : BufTy).Contents (Elt F) → (⟨S16384, .i1⟩ : BufTy).Contents (Elt F)),
    StableHlo.nullary main_c_17 (constantI S_ 32 4096#32),
    StableHlo.unary main_c_17 main_v65 (broadcastInDim S16384 ![] bcast_S_S16384 : (⟨S_, .i32⟩ : BufTy).Contents (Elt F) → (⟨S16384, .i32⟩ : BufTy).Contents (Elt F)),
    StableHlo.binary main_v55 main_v65 main_v66 (addi : (⟨S16384, .i32⟩ : BufTy).Contents (Elt F) → (⟨S16384, .i32⟩ : BufTy).Contents (Elt F) → (⟨S16384, .i32⟩ : BufTy).Contents (Elt F)),
    StableHlo.ternary main_v64 main_v66 main_v55 main_v67 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v67 main_v68 (broadcastInDim S16384x1 ![0] bcast_S16384_S16384x1_0 : (⟨S16384, .i32⟩ : BufTy).Contents (Elt F) → (⟨S16384x1, .i32⟩ : BufTy).Contents (Elt F)),
    StableHlo.binary main_arg0 main_v68 main_v69 ((fun x i => Host.gather gather_S4096x2_S16384x1_S16384x2_1_0_n_n_0_1_12 x i) : (⟨S4096x2, .f32⟩ : BufTy).Contents (Elt F) → (⟨S16384x1, .i32⟩ : BufTy).Contents (Elt F) → (⟨S16384x2, .f32⟩ : BufTy).Contents (Elt F)),
    StableHlo.binary main_v62 main_v69 main_v70 (subf : (⟨S16384x2, .f32⟩ : BufTy).Contents (Elt F) → (⟨S16384x2, .f32⟩ : BufTy).Contents (Elt F) → (⟨S16384x2, .f32⟩ : BufTy).Contents (Elt F)),
    StableHlo.binary main_v70 main_v70 main_v71 (mulf : (⟨S16384x2, .f32⟩ : BufTy).Contents (Elt F) → (⟨S16384x2, .f32⟩ : BufTy).Contents (Elt F) → (⟨S16384x2, .f32⟩ : BufTy).Contents (Elt F)),
    StableHlo.nullary main_cst (constant S_ .f32 0x00000000#32),
    StableHlo.binary main_v71 main_cst main_v72 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.nullary main_cst_18 (constant S_ .f32 0x2B8CBCCC#32),
    StableHlo.unary main_cst_18 main_v73 (broadcastInDim S16384 ![] bcast_S_S16384 : (⟨S_, .f32⟩ : BufTy).Contents (Elt F) → (⟨S16384, .f32⟩ : BufTy).Contents (Elt F)),
    StableHlo.binary main_v72 main_v73 main_v74 (addf : (⟨S16384, .f32⟩ : BufTy).Contents (Elt F) → (⟨S16384, .f32⟩ : BufTy).Contents (Elt F) → (⟨S16384, .f32⟩ : BufTy).Contents (Elt F)),
    StableHlo.unary main_v74 main_v75 (Host.sqrt : (⟨S16384, .f32⟩ : BufTy).Contents (Elt F) → (⟨S16384, .f32⟩ : BufTy).Contents (Elt F)),
    StableHlo.nullary main_c_19 (constantI S_ 32 0#32),
    StableHlo.unary main_c_19 main_v76 (broadcastInDim S16384 ![] bcast_S_S16384 : (⟨S_, .i32⟩ : BufTy).Contents (Elt F) → (⟨S16384, .i32⟩ : BufTy).Contents (Elt F)),
    StableHlo.binary main_v54 main_v76 main_v77 (cmpi .slt : (⟨S16384, .i32⟩ : BufTy).Contents (Elt F) → (⟨S16384, .i32⟩ : BufTy).Contents (Elt F) → (⟨S16384, .i1⟩ : BufTy).Contents (Elt F)),
    StableHlo.nullary main_c_20 (constantI S_ 32 4096#32),
    StableHlo.unary main_c_20 main_v78 (broadcastInDim S16384 ![] bcast_S_S16384 : (⟨S_, .i32⟩ : BufTy).Contents (Elt F) → (⟨S16384, .i32⟩ : BufTy).Contents (Elt F)),
    StableHlo.binary main_v54 main_v78 main_v79 (addi : (⟨S16384, .i32⟩ : BufTy).Contents (Elt F) → (⟨S16384, .i32⟩ : BufTy).Contents (Elt F) → (⟨S16384, .i32⟩ : BufTy).Contents (Elt F)),
    StableHlo.ternary main_v77 main_v79 main_v54 main_v80 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v80 main_v81 (broadcastInDim S16384x1 ![0] bcast_S16384_S16384x1_0 : (⟨S16384, .i32⟩ : BufTy).Contents (Elt F) → (⟨S16384x1, .i32⟩ : BufTy).Contents (Elt F)),
    StableHlo.binary main_arg1 main_v81 main_v82 ((fun x i => Host.gather gather_S4096_S16384x1_S16384_n_0_n_n_0_1_1 x i) : (⟨S4096, .f32⟩ : BufTy).Contents (Elt F) → (⟨S16384x1, .i32⟩ : BufTy).Contents (Elt F) → (⟨S16384, .f32⟩ : BufTy).Contents (Elt F)),
    StableHlo.nullary main_c_21 (constantI S_ 32 0#32),
    StableHlo.unary main_c_21 main_v83 (broadcastInDim S16384 ![] bcast_S_S16384 : (⟨S_, .i32⟩ : BufTy).Contents (Elt F) → (⟨S16384, .i32⟩ : BufTy).Contents (Elt F)),
    StableHlo.binary main_v55 main_v83 main_v84 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 4096#32),
    StableHlo.unary main_c_22 main_v85 (broadcastInDim S16384 ![] bcast_S_S16384 : (⟨S_, .i32⟩ : BufTy).Contents (Elt F) → (⟨S16384, .i32⟩ : BufTy).Contents (Elt F)),
    StableHlo.binary main_v55 main_v85 main_v86 (addi : (⟨S16384, .i32⟩ : BufTy).Contents (Elt F) → (⟨S16384, .i32⟩ : BufTy).Contents (Elt F) → (⟨S16384, .i32⟩ : BufTy).Contents (Elt F)),
    StableHlo.ternary main_v84 main_v86 main_v55 main_v87 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v87 main_v88 (broadcastInDim S16384x1 ![0] bcast_S16384_S16384x1_0 : (⟨S16384, .i32⟩ : BufTy).Contents (Elt F) → (⟨S16384x1, .i32⟩ : BufTy).Contents (Elt F)),
    StableHlo.binary main_arg1 main_v88 main_v89 ((fun x i => Host.gather gather_S4096_S16384x1_S16384_n_0_n_n_0_1_1 x i) : (⟨S4096, .f32⟩ : BufTy).Contents (Elt F) → (⟨S16384x1, .i32⟩ : BufTy).Contents (Elt F) → (⟨S16384, .f32⟩ : BufTy).Contents (Elt F)),
    StableHlo.binary main_v82 main_v89 main_v90 (addf : (⟨S16384, .f32⟩ : BufTy).Contents (Elt F) → (⟨S16384, .f32⟩ : BufTy).Contents (Elt F) → (⟨S16384, .f32⟩ : BufTy).Contents (Elt F)),
    StableHlo.binary main_v90 main_v75 main_v91 (subf : (⟨S16384, .f32⟩ : BufTy).Contents (Elt F) → (⟨S16384, .f32⟩ : BufTy).Contents (Elt F) → (⟨S16384, .f32⟩ : BufTy).Contents (Elt F)),
    StableHlo.nullary main_c_23 (constantI S_ 32 0#32),
    StableHlo.unary main_c_23 main_v92 (broadcastInDim S16384 ![] bcast_S_S16384 : (⟨S_, .i32⟩ : BufTy).Contents (Elt F) → (⟨S16384, .i32⟩ : BufTy).Contents (Elt F)),
    StableHlo.binary main_v45 main_v92 main_v93 (cmpi .sge : (⟨S16384, .i32⟩ : BufTy).Contents (Elt F) → (⟨S16384, .i32⟩ : BufTy).Contents (Elt F) → (⟨S16384, .i1⟩ : BufTy).Contents (Elt F)) ]
theorem main_part1_chain (c : Dev nD) : main_part1 (F := F) c = (Pipeline.chainK
  [ StableHlo.seq s1_0,
    StableHlo.seq s1_1,
    StableHlo.seq s1_2,
    StableHlo.seq s1_3 ]
  (StableHlo.seq s1_4) : Prog (TpuEff nD τ sig (Elt F) (Pipeline.Sig Λ₀ (Fin 0) fun p => (pcfgs (F := F) p).Adm) .tc) PUnit) := by
  chain_rfl

/-- Stretch 0 of window 2: 5 operations. -/
abbrev s2_0 : List (HloOp τ sig (Elt F)) :=
  [ StableHlo.nullary main_cst_24 (constant S_ .f32 0x00000000#32),
    StableHlo.unary main_cst_24 main_v94 (broadcastInDim S16384 ![] bcast_S_S16384 : (⟨S_, .f32⟩ : BufTy).Contents (Elt F) → (⟨S16384, .f32⟩ : BufTy).Contents (Elt F)),
    StableHlo.binary main_v91 main_v94 main_v95 (cmpf .ogt : (⟨S16384, .f32⟩ : BufTy).Contents (Elt F) → (⟨S16384, .f32⟩ : BufTy).Contents (Elt F) → (⟨S16384, .i1⟩ : BufTy).Contents (Elt F)),
    StableHlo.binary main_v93 main_v95 main_v96 (andi : (⟨S16384, .i1⟩ : BufTy).Contents (Elt F) → (⟨S16384, .i1⟩ : BufTy).Contents (Elt F) → (⟨S16384, .i1⟩ : BufTy).Contents (Elt F)),
    StableHlo.unary main_v96 main_v97 ((extui 32 · natLt_1_32) : (⟨S16384, .i1⟩ : BufTy).Contents (Elt F) → (⟨S16384, .i32⟩ : BufTy).Contents (Elt F)) ]
/-- Stretch 1 of window 2: 3 operations. -/
abbrev s2_1 : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v97 : StableHlo.TRef sig ⟨S16384, .i32⟩) (.of main_call4_call0_v0 : StableHlo.TRef sig ⟨S_, .i32⟩) (.of main_v98 : StableHlo.TRef sig ⟨S16384, .i32⟩) (fun x v => Host.reduceWindow IntOp.addi ![16384] ![1] ![16383] ![0] x v reduceWindows_S16384_S16384_w16384s1p16383_0 h_S_) ]
/-- Stretch 2 of window 2: 8 operations. -/
abbrev s2_2 : List (HloOp τ sig (Elt F)) :=
  [ StableHlo.nullary main_c_25 (constantI S_ 32 1#32),
    StableHlo.unary main_c_25 main_v99 (broadcastInDim S16384 ![] bcast_S_S16384 : (⟨S_, .i32⟩ : BufTy).Contents (Elt F) → (⟨S16384, .i32⟩ : BufTy).Contents (Elt F)),
    StableHlo.binary main_v98 main_v99 main_v100 (subi : (⟨S16384, .i32⟩ : BufTy).Contents (Elt F) → (⟨S16384, .i32⟩ : BufTy).Contents (Elt F) → (⟨S16384, .i32⟩ : BufTy).Contents (Elt F)),
    StableHlo.nullary main_c_26 (constantI S_ 32 4096#32),
    StableHlo.unary main_c_26 main_v101 (broadcastInDim S16384 ![] bcast_S_S16384 : (⟨S_, .i32⟩ : BufTy).Contents (Elt F) → (⟨S16384, .i32⟩ : BufTy).Contents (Elt F)),
    StableHlo.binary main_v100 main_v101 main_v102 (cmpi .slt : (⟨S16384, .i32⟩ : BufTy).Contents (Elt F) → (⟨S16384, .i32⟩ : BufTy).Contents (Elt F) → (⟨S16384, .i1⟩ : BufTy).Contents (Elt F)),
    StableHlo.binary main_v96 main_v102 main_v103 (andi : (⟨S16384, .i1⟩ : BufTy).Contents (Elt F) → (⟨S16384, .i1⟩ : BufTy).Contents (Elt F) → (⟨S16384, .i1⟩ : BufTy).Contents (Elt F)),
    StableHlo.nullary main_c_27 (constantI S_ 32 4096#32) ]
/-- Stretch 3 of window 2: 3 operations. -/
abbrev s2_3 : List (HloOp τ sig (Elt F)) :=
  [ StableHlo.TRef.unary (.of main_c_27 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S16384, .i32⟩) (broadcastInDim S16384 ![] bcast_S_S16384),
    StableHlo.TRef.ternary (.of main_v103 : StableHlo.TRef sig ⟨S16384, .i1⟩) (.of main_v100 : StableHlo.TRef sig ⟨S16384, .i32⟩) (.of main_call5_v1 : StableHlo.TRef sig ⟨S16384, .i32⟩) (.of main_v104 : StableHlo.TRef sig ⟨S16384, .i32⟩) select ]
/-- Stretch 4 of window 2: 41 operations. -/
abbrev s2_4 : List (HloOp τ sig (Elt F)) :=
  [ StableHlo.binary main_v91 main_v75 main_v105 (Host.divf : (⟨S16384, .f32⟩ : BufTy).Contents (Elt F) → (⟨S16384, .f32⟩ : BufTy).Contents (Elt F) → (⟨S16384, .f32⟩ : BufTy).Contents (Elt F)),
    StableHlo.unary main_v105 main_v106 (broadcastInDim S16384x1 ![0] bcast_S16384_S16384x1_0 : (⟨S16384, .f32⟩ : BufTy).Contents (Elt F) → (⟨S16384x1, .f32⟩ : BufTy).Contents (Elt F)),
    StableHlo.unary main_v106 main_v107 (broadcastInDim S16384x2 ![0, 1] bcast_S16384x1_S16384x2_0_1 : (⟨S16384x1, .f32⟩ : BufTy).Contents (Elt F) → (⟨S16384x2, .f32⟩ : BufTy).Contents (Elt F)),
    StableHlo.binary main_v70 main_v107 main_v108 (mulf : (⟨S16384x2, .f32⟩ : BufTy).Contents (Elt F) → (⟨S16384x2, .f32⟩ : BufTy).Contents (Elt F) → (⟨S16384x2, .f32⟩ : BufTy).Contents (Elt F)),
    StableHlo.nullary main_c_28 (constantI S_ 32 4294967295#32),
    StableHlo.unary main_c_28 main_v109 (broadcastInDim S4096 ![] bcast_S_S4096 : (⟨S_, .i32⟩ : BufTy).Contents (Elt F) → (⟨S4096, .i32⟩ : BufTy).Contents (Elt F)),
    StableHlo.nullary main_c_29 (constantI S_ 32 0#32),
    StableHlo.unary main_c_29 main_v110 (broadcastInDim S16384 ![] bcast_S_S16384 : (⟨S_, .i32⟩ : BufTy).Contents (Elt F) → (⟨S16384, .i32⟩ : BufTy).Contents (Elt F)),
    StableHlo.binary main_v104 main_v110 main_v111 (cmpi .slt : (⟨S16384, .i32⟩ : BufTy).Contents (Elt F) → (⟨S16384, .i32⟩ : BufTy).Contents (Elt F) → (⟨S16384, .i1⟩ : BufTy).Contents (Elt F)),
    StableHlo.nullary main_c_30 (constantI S_ 32 4096#32),
    StableHlo.unary main_c_30 main_v112 (broadcastInDim S16384 ![] bcast_S_S16384 : (⟨S_, .i32⟩ : BufTy).Contents (Elt F) → (⟨S16384, .i32⟩ : BufTy).Contents (Elt F)),
    StableHlo.binary main_v104 main_v112 main_v113 (addi : (⟨S16384, .i32⟩ : BufTy).Contents (Elt F) → (⟨S16384, .i32⟩ : BufTy).Contents (Elt F) → (⟨S16384, .i32⟩ : BufTy).Contents (Elt F)),
    StableHlo.ternary main_v111 main_v113 main_v104 main_v114 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v114 main_v115 (broadcastInDim S16384x1 ![0] bcast_S16384_S16384x1_0 : (⟨S16384, .i32⟩ : BufTy).Contents (Elt F) → (⟨S16384x1, .i32⟩ : BufTy).Contents (Elt F)),
    StableHlo.ternary main_v109 main_v115 main_v45 main_v116 ((fun x i u => Host.scatter scatter_S4096_S16384x1_S16384_n_0_0_1 (fun _ b => b) x i u) : (⟨S4096, .i32⟩ : BufTy).Contents (Elt F) → (⟨S16384x1, .i32⟩ : BufTy).Contents (Elt F) → (⟨S16384, .i32⟩ : BufTy).Contents (Elt F) → (⟨S4096, .i32⟩ : BufTy).Contents (Elt F)),
    StableHlo.nullary main_c_31 (constantI S_ 32 4294967295#32),
    StableHlo.unary main_c_31 main_v117 (broadcastInDim S4096 ![] bcast_S_S4096 : (⟨S_, .i32⟩ : BufTy).Contents (Elt F) → (⟨S4096, .i32⟩ : BufTy).Contents (Elt F)),
    StableHlo.nullary main_c_32 (constantI S_ 32 0#32),
    StableHlo.unary main_c_32 main_v118 (broadcastInDim S16384 ![] bcast_S_S16384 : (⟨S_, .i32⟩ : BufTy).Contents (Elt F) → (⟨S16384, .i32⟩ : BufTy).Contents (Elt F)),
    StableHlo.binary main_v104 main_v118 main_v119 (cmpi .slt : (⟨S16384, .i32⟩ : BufTy).Contents (Elt F) → (⟨S16384, .i32⟩ : BufTy).Contents (Elt F) → (⟨S16384, .i1⟩ : BufTy).Contents (Elt F)),
    StableHlo.nullary main_c_33 (constantI S_ 32 4096#32),
    StableHlo.unary main_c_33 main_v120 (broadcastInDim S16384 ![] bcast_S_S16384 : (⟨S_, .i32⟩ : BufTy).Contents (Elt F) → (⟨S16384, .i32⟩ : BufTy).Contents (Elt F)),
    StableHlo.binary main_v104 main_v120 main_v121 (addi : (⟨S16384, .i32⟩ : BufTy).Contents (Elt F) → (⟨S16384, .i32⟩ : BufTy).Contents (Elt F) → (⟨S16384, .i32⟩ : BufTy).Contents (Elt F)),
    StableHlo.ternary main_v119 main_v121 main_v104 main_v122 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v122 main_v123 (broadcastInDim S16384x1 ![0] bcast_S16384_S16384x1_0 : (⟨S16384, .i32⟩ : BufTy).Contents (Elt F) → (⟨S16384x1, .i32⟩ : BufTy).Contents (Elt F)),
    StableHlo.ternary main_v117 main_v123 main_v53 main_v124 ((fun x i u => Host.scatter scatter_S4096_S16384x1_S16384_n_0_0_1 (fun _ b => b) x i u) : (⟨S4096, .i32⟩ : BufTy).Contents (Elt F) → (⟨S16384x1, .i32⟩ : BufTy).Contents (Elt F) → (⟨S16384, .i32⟩ : BufTy).Contents (Elt F) → (⟨S4096, .i32⟩ : BufTy).Contents (Elt F)),
    StableHlo.nullary main_cst_34 (constant S_ .f32 0x00000000#32),
    StableHlo.unary main_cst_34 main_v125 (broadcastInDim S4096x2 ![] bcast_S_S4096x2 : (⟨S_, .f32⟩ : BufTy).Contents (Elt F) → (⟨S4096x2, .f32⟩ : BufTy).Contents (Elt F)),
    StableHlo.nullary main_c_35 (constantI S_ 32 0#32),
    StableHlo.unary main_c_35 main_v126 (broadcastInDim S16384 ![] bcast_S_S16384 : (⟨S_, .i32⟩ : BufTy).Contents (Elt F) → (⟨S16384, .i32⟩ : BufTy).Contents (Elt F)),
    StableHlo.binary main_v104 main_v126 main_v127 (cmpi .slt : (⟨S16384, .i32⟩ : BufTy).Contents (Elt F) → (⟨S16384, .i32⟩ : BufTy).Contents (Elt F) → (⟨S16384, .i1⟩ : BufTy).Contents (Elt F)),
    StableHlo.nullary main_c_36 (constantI S_ 32 4096#32),
    StableHlo.unary main_c_36 main_v128 (broadcastInDim S16384 ![] bcast_S_S16384 : (⟨S_, .i32⟩ : BufTy).Contents (Elt F) → (⟨S16384, .i32⟩ : BufTy).Contents (Elt F)),
    StableHlo.binary main_v104 main_v128 main_v129 (addi : (⟨S16384, .i32⟩ : BufTy).Contents (Elt F) → (⟨S16384, .i32⟩ : BufTy).Contents (Elt F) → (⟨S16384, .i32⟩ : BufTy).Contents (Elt F)),
    StableHlo.ternary main_v127 main_v129 main_v104 main_v130 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v130 main_v131 (broadcastInDim S16384x1 ![0] bcast_S16384_S16384x1_0 : (⟨S16384, .i32⟩ : BufTy).Contents (Elt F) → (⟨S16384x1, .i32⟩ : BufTy).Contents (Elt F)),
    StableHlo.ternary main_v125 main_v131 main_v108 main_v132 ((fun x i u => Host.scatter scatter_S4096x2_S16384x1_S16384x2_1_0_0_1 (fun _ b => b) x i u) : (⟨S4096x2, .f32⟩ : BufTy).Contents (Elt F) → (⟨S16384x1, .i32⟩ : BufTy).Contents (Elt F) → (⟨S16384x2, .f32⟩ : BufTy).Contents (Elt F) → (⟨S4096x2, .f32⟩ : BufTy).Contents (Elt F)),
    StableHlo.nullary main_c_37 (constantI S_ 32 0#32),
    StableHlo.unary main_c_37 main_v133 (broadcastInDim S4096 ![] bcast_S_S4096 : (⟨S_, .i32⟩ : BufTy).Contents (Elt F) → (⟨S4096, .i32⟩ : BufTy).Contents (Elt F)),
    StableHlo.binary main_v116 main_v133 main_v134 (cmpi .sge : (⟨S4096, .i32⟩ : BufTy).Contents (Elt F) → (⟨S4096, .i32⟩ : BufTy).Contents (Elt F) → (⟨S4096, .i1⟩ : BufTy).Contents (Elt F)),
    StableHlo.nullary main_c_38 (constantI S_ 32 4096#32) ]
/-- Stretch 5 of window 2: 3 operations. -/
abbrev s2_5 : List (HloOp τ sig (Elt F)) :=
  [ StableHlo.TRef.unary (.of main_c_38 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4096, .i32⟩) (broadcastInDim S4096 ![] bcast_S_S4096),
    StableHlo.TRef.ternary (.of main_v134 : StableHlo.TRef sig ⟨S4096, .i1⟩) (.of main_v116 : StableHlo.TRef sig ⟨S4096, .i32⟩) (.of main_call6_v1 : StableHlo.TRef sig ⟨S4096, .i32⟩) (.of main_v135 : StableHlo.TRef sig ⟨S4096, .i32⟩) select ]
/-- Stretch 6 of window 2: 3 operations. -/
abbrev s2_6 : List (HloOp τ sig (Elt F)) :=
  [ StableHlo.nullary main_c_39 (constantI S_ 32 0#32),
    StableHlo.unary main_c_39 main_v136 (broadcastInDim S4096 ![] bcast_S_S4096 : (⟨S_, .i32⟩ : BufTy).Contents (Elt F) → (⟨S4096, .i32⟩ : BufTy).Contents (Elt F)),
    StableHlo.binary main_v124 main_v136 main_v137 (cmpi .sge : (⟨S4096, .i32⟩ : BufTy).Contents (Elt F) → (⟨S4096, .i32⟩ : BufTy).Contents (Elt F) → (⟨S4096, .i1⟩ : BufTy).Contents (Elt F)) ]
theorem main_part2_chain (c : Dev nD) : main_part2 (F := F) c = (Pipeline.chainK
  [ StableHlo.seq s2_0,
    StableHlo.seq s2_1,
    StableHlo.seq s2_2,
    StableHlo.seq s2_3,
    StableHlo.seq s2_4,
    StableHlo.seq s2_5 ]
  (StableHlo.seq s2_6) : Prog (TpuEff nD τ sig (Elt F) (Pipeline.Sig Λ₀ (Fin 0) fun p => (pcfgs (F := F) p).Adm) .tc) PUnit) := by
  chain_rfl

/-- Stretch 0 of window 3: 1 operations. -/
abbrev s3_0 : List (HloOp τ sig (Elt F)) :=
  [ StableHlo.nullary main_c_40 (constantI S_ 32 4096#32) ]
/-- Stretch 1 of window 3: 3 operations. -/
abbrev s3_1 : List (HloOp τ sig (Elt F)) :=
  [ StableHlo.TRef.unary (.of main_c_40 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4096, .i32⟩) (broadcastInDim S4096 ![] bcast_S_S4096),
    StableHlo.TRef.ternary (.of main_v137 : StableHlo.TRef sig ⟨S4096, .i1⟩) (.of main_v124 : StableHlo.TRef sig ⟨S4096, .i32⟩) (.of main_call7_v1 : StableHlo.TRef sig ⟨S4096, .i32⟩) (.of main_v138 : StableHlo.TRef sig ⟨S4096, .i32⟩) select ]
/-- Stretch 2 of window 3: 2 operations. -/
abbrev s3_2 : List (HloOp τ sig (Elt F)) :=
  [ StableHlo.nullary main_c_41 (constantI S_ 32 0#32),
    StableHlo.nullary main_c_42 (constantI S_ 32 4095#32) ]
/-- Stretch 3 of window 3: 6 operations. -/
abbrev s3_3 : List (HloOp τ sig (Elt F)) :=
  [ StableHlo.TRef.unary (.of main_c_41 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4096, .i32⟩) (broadcastInDim S4096 ![] bcast_S_S4096),
    StableHlo.TRef.binary (.of main_call8_v1 : StableHlo.TRef sig ⟨S4096, .i32⟩) (.of main_v116 : StableHlo.TRef sig ⟨S4096, .i32⟩) (.of main_call8_v2 : StableHlo.TRef sig ⟨S4096, .i32⟩) maxsi,
    StableHlo.TRef.unary (.of main_c_42 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S4096, .i32⟩) (broadcastInDim S4096 ![] bcast_S_S4096),
    StableHlo.TRef.binary (.of main_call8_v4 : StableHlo.TRef sig ⟨S4096, .i32⟩) (.of main_call8_v2 : StableHlo.TRef sig ⟨S4096, .i32⟩) (.of main_v139 : StableHlo.TRef sig ⟨S4096, .i32⟩) minsi ]
/-- Stretch 4 of window 3: 15 operations. -/
abbrev s3_4 : List (HloOp τ sig (Elt F)) :=
  [ StableHlo.nullary main_c_43 (constantI S_ 32 0#32),
    StableHlo.unary main_c_43 main_v140 (broadcastInDim S4096 ![] bcast_S_S4096 : (⟨S_, .i32⟩ : BufTy).Contents (Elt F) → (⟨S4096, .i32⟩ : BufTy).Contents (Elt F)),
    StableHlo.binary main_v139 main_v140 main_v141 (cmpi .slt : (⟨S4096, .i32⟩ : BufTy).Contents (Elt F) → (⟨S4096, .i32⟩ : BufTy).Contents (Elt F) → (⟨S4096, .i1⟩ : BufTy).Contents (Elt F)),
    StableHlo.nullary main_c_44 (constantI S_ 32 4096#32),
    StableHlo.unary main_c_44 main_v142 (broadcastInDim S4096 ![] bcast_S_S4096 : (⟨S_, .i32⟩ : BufTy).Contents (Elt F) → (⟨S4096, .i32⟩ : BufTy).Contents (Elt F)),
    StableHlo.binary main_v139 main_v142 main_v143 (addi : (⟨S4096, .i32⟩ : BufTy).Contents (Elt F) → (⟨S4096, .i32⟩ : BufTy).Contents (Elt F) → (⟨S4096, .i32⟩ : BufTy).Contents (Elt F)),
    StableHlo.ternary main_v141 main_v143 main_v139 main_v144 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v144 main_v145 (broadcastInDim S4096x1 ![0] bcast_S4096_S4096x1_0 : (⟨S4096, .i32⟩ : BufTy).Contents (Elt F) → (⟨S4096x1, .i32⟩ : BufTy).Contents (Elt F)),
    StableHlo.binary main_arg0 main_v145 main_v146 ((fun x i => Host.gather gather_S4096x2_S4096x1_S4096x2_1_0_n_n_0_1_12 x i) : (⟨S4096x2, .f32⟩ : BufTy).Contents (Elt F) → (⟨S4096x1, .i32⟩ : BufTy).Contents (Elt F) → (⟨S4096x2, .f32⟩ : BufTy).Contents (Elt F)),
    StableHlo.nullary main_cst_45 (constant S_ .f32 0x3F000000#32),
    StableHlo.unary main_cst_45 main_v147 (broadcastInDim S4096x2 ![] bcast_S_S4096x2 : (⟨S_, .f32⟩ : BufTy).Contents (Elt F) → (⟨S4096x2, .f32⟩ : BufTy).Contents (Elt F)),
    StableHlo.binary main_v147 main_v132 main_v148 (mulf : (⟨S4096x2, .f32⟩ : BufTy).Contents (Elt F) → (⟨S4096x2, .f32⟩ : BufTy).Contents (Elt F) → (⟨S4096x2, .f32⟩ : BufTy).Contents (Elt F)),
    StableHlo.binary main_v146 main_v148 main_v149 (addf : (⟨S4096x2, .f32⟩ : BufTy).Contents (Elt F) → (⟨S4096x2, .f32⟩ : BufTy).Contents (Elt F) → (⟨S4096x2, .f32⟩ : BufTy).Contents (Elt F)),
    StableHlo.nullary main_c_46 (constantI S_ 32 0#32),
    StableHlo.nullary main_c_47 (constantI S_ 32 4095#32) ]
/-- Stretch 5 of window 3: 6 operations. -/
abbrev s3_5 : List (HloOp τ sig (Elt F)) :=
  [ StableHlo.TRef.unary (.of main_c_46 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S4096, .i32⟩) (broadcastInDim S4096 ![] bcast_S_S4096),
    StableHlo.TRef.binary (.of main_call9_v1 : StableHlo.TRef sig ⟨S4096, .i32⟩) (.of main_v124 : StableHlo.TRef sig ⟨S4096, .i32⟩) (.of main_call9_v2 : StableHlo.TRef sig ⟨S4096, .i32⟩) maxsi,
    StableHlo.TRef.unary (.of main_c_47 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S4096, .i32⟩) (broadcastInDim S4096 ![] bcast_S_S4096),
    StableHlo.TRef.binary (.of main_call9_v4 : StableHlo.TRef sig ⟨S4096, .i32⟩) (.of main_call9_v2 : StableHlo.TRef sig ⟨S4096, .i32⟩) (.of main_v150 : StableHlo.TRef sig ⟨S4096, .i32⟩) minsi ]
/-- Stretch 6 of window 3: 31 operations. -/
abbrev s3_6 : List (HloOp τ sig (Elt F)) :=
  [ StableHlo.nullary main_c_48 (constantI S_ 32 0#32),
    StableHlo.unary main_c_48 main_v151 (broadcastInDim S4096 ![] bcast_S_S4096 : (⟨S_, .i32⟩ : BufTy).Contents (Elt F) → (⟨S4096, .i32⟩ : BufTy).Contents (Elt F)),
    StableHlo.binary main_v150 main_v151 main_v152 (cmpi .slt : (⟨S4096, .i32⟩ : BufTy).Contents (Elt F) → (⟨S4096, .i32⟩ : BufTy).Contents (Elt F) → (⟨S4096, .i1⟩ : BufTy).Contents (Elt F)),
    StableHlo.nullary main_c_49 (constantI S_ 32 4096#32),
    StableHlo.unary main_c_49 main_v153 (broadcastInDim S4096 ![] bcast_S_S4096 : (⟨S_, .i32⟩ : BufTy).Contents (Elt F) → (⟨S4096, .i32⟩ : BufTy).Contents (Elt F)),
    StableHlo.binary main_v150 main_v153 main_v154 (addi : (⟨S4096, .i32⟩ : BufTy).Contents (Elt F) → (⟨S4096, .i32⟩ : BufTy).Contents (Elt F) → (⟨S4096, .i32⟩ : BufTy).Contents (Elt F)),
    StableHlo.ternary main_v152 main_v154 main_v150 main_v155 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v155 main_v156 (broadcastInDim S4096x1 ![0] bcast_S4096_S4096x1_0 : (⟨S4096, .i32⟩ : BufTy).Contents (Elt F) → (⟨S4096x1, .i32⟩ : BufTy).Contents (Elt F)),
    StableHlo.binary main_arg0 main_v156 main_v157 ((fun x i => Host.gather gather_S4096x2_S4096x1_S4096x2_1_0_n_n_0_1_12 x i) : (⟨S4096x2, .f32⟩ : BufTy).Contents (Elt F) → (⟨S4096x1, .i32⟩ : BufTy).Contents (Elt F) → (⟨S4096x2, .f32⟩ : BufTy).Contents (Elt F)),
    StableHlo.nullary main_cst_50 (constant S_ .f32 0x3F000000#32),
    StableHlo.unary main_cst_50 main_v158 (broadcastInDim S4096x2 ![] bcast_S_S4096x2 : (⟨S_, .f32⟩ : BufTy).Contents (Elt F) → (⟨S4096x2, .f32⟩ : BufTy).Contents (Elt F)),
    StableHlo.binary main_v158 main_v132 main_v159 (mulf : (⟨S4096x2, .f32⟩ : BufTy).Contents (Elt F) → (⟨S4096x2, .f32⟩ : BufTy).Contents (Elt F) → (⟨S4096x2, .f32⟩ : BufTy).Contents (Elt F)),
    StableHlo.binary main_v157 main_v159 main_v160 (subf : (⟨S4096x2, .f32⟩ : BufTy).Contents (Elt F) → (⟨S4096x2, .f32⟩ : BufTy).Contents (Elt F) → (⟨S4096x2, .f32⟩ : BufTy).Contents (Elt F)),
    StableHlo.nullary main_c_51 (constantI S_ 32 0#32),
    StableHlo.unary main_c_51 main_v161 (broadcastInDim S4096 ![] bcast_S_S4096 : (⟨S_, .i32⟩ : BufTy).Contents (Elt F) → (⟨S4096, .i32⟩ : BufTy).Contents (Elt F)),
    StableHlo.binary main_v135 main_v161 main_v162 (cmpi .slt : (⟨S4096, .i32⟩ : BufTy).Contents (Elt F) → (⟨S4096, .i32⟩ : BufTy).Contents (Elt F) → (⟨S4096, .i1⟩ : BufTy).Contents (Elt F)),
    StableHlo.nullary main_c_52 (constantI S_ 32 4096#32),
    StableHlo.unary main_c_52 main_v163 (broadcastInDim S4096 ![] bcast_S_S4096 : (⟨S_, .i32⟩ : BufTy).Contents (Elt F) → (⟨S4096, .i32⟩ : BufTy).Contents (Elt F)),
    StableHlo.binary main_v135 main_v163 main_v164 (addi : (⟨S4096, .i32⟩ : BufTy).Contents (Elt F) → (⟨S4096, .i32⟩ : BufTy).Contents (Elt F) → (⟨S4096, .i32⟩ : BufTy).Contents (Elt F)),
    StableHlo.ternary main_v162 main_v164 main_v135 main_v165 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v165 main_v166 (broadcastInDim S4096x1 ![0] bcast_S4096_S4096x1_0 : (⟨S4096, .i32⟩ : BufTy).Contents (Elt F) → (⟨S4096x1, .i32⟩ : BufTy).Contents (Elt F)),
    StableHlo.ternary main_arg0 main_v166 main_v149 main_v167 ((fun x i u => Host.scatter scatter_S4096x2_S4096x1_S4096x2_1_0_0_1 (fun _ b => b) x i u) : (⟨S4096x2, .f32⟩ : BufTy).Contents (Elt F) → (⟨S4096x1, .i32⟩ : BufTy).Contents (Elt F) → (⟨S4096x2, .f32⟩ : BufTy).Contents (Elt F) → (⟨S4096x2, .f32⟩ : BufTy).Contents (Elt F)),
    StableHlo.nullary main_c_53 (constantI S_ 32 0#32),
    StableHlo.unary main_c_53 main_v168 (broadcastInDim S4096 ![] bcast_S_S4096 : (⟨S_, .i32⟩ : BufTy).Contents (Elt F) → (⟨S4096, .i32⟩ : BufTy).Contents (Elt F)),
    StableHlo.binary main_v138 main_v168 main_v169 (cmpi .slt : (⟨S4096, .i32⟩ : BufTy).Contents (Elt F) → (⟨S4096, .i32⟩ : BufTy).Contents (Elt F) → (⟨S4096, .i1⟩ : BufTy).Contents (Elt F)),
    StableHlo.nullary main_c_54 (constantI S_ 32 4096#32),
    StableHlo.unary main_c_54 main_v170 (broadcastInDim S4096 ![] bcast_S_S4096 : (⟨S_, .i32⟩ : BufTy).Contents (Elt F) → (⟨S4096, .i32⟩ : BufTy).Contents (Elt F)),
    StableHlo.binary main_v138 main_v170 main_v171 (addi : (⟨S4096, .i32⟩ : BufTy).Contents (Elt F) → (⟨S4096, .i32⟩ : BufTy).Contents (Elt F) → (⟨S4096, .i32⟩ : BufTy).Contents (Elt F)),
    StableHlo.ternary main_v169 main_v171 main_v138 main_v172 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v172 main_v173 (broadcastInDim S4096x1 ![0] bcast_S4096_S4096x1_0 : (⟨S4096, .i32⟩ : BufTy).Contents (Elt F) → (⟨S4096x1, .i32⟩ : BufTy).Contents (Elt F)),
    StableHlo.ternary main_v167 main_v173 main_v160 main_v174 ((fun x i u => Host.scatter scatter_S4096x2_S4096x1_S4096x2_1_0_0_1 (fun _ b => b) x i u) : (⟨S4096x2, .f32⟩ : BufTy).Contents (Elt F) → (⟨S4096x1, .i32⟩ : BufTy).Contents (Elt F) → (⟨S4096x2, .f32⟩ : BufTy).Contents (Elt F) → (⟨S4096x2, .f32⟩ : BufTy).Contents (Elt F)) ]
theorem main_part3_chain (c : Dev nD) : main_part3 (F := F) c = (Pipeline.chain
  [ StableHlo.seq s3_0,
    StableHlo.seq s3_1,
    StableHlo.seq s3_2,
    StableHlo.seq s3_3,
    StableHlo.seq s3_4,
    StableHlo.seq s3_5,
    StableHlo.seq s3_6 ] : Prog (TpuEff nD τ sig (Elt F) (Pipeline.Sig Λ₀ (Fin 0) fun p => (pcfgs (F := F) p).Adm) .tc) PUnit) := by
  chain_rfl

/-- All the stretches, in order. -/
abbrev stretches : List (List (HloOp τ sig (Elt F))) :=
  [s0_0, s0_1, s0_2, s0_3, s0_4, s1_0, s1_1, s1_2, s1_3, s1_4, s2_0, s2_1, s2_2, s2_3, s2_4, s2_5, s2_6, s3_0, s3_1, s3_2, s3_3, s3_4, s3_5, s3_6]

/-- @main is the chain of its stretches. -/
theorem main_chain (c : Dev nD) : main (F := F) c = (Pipeline.chain
  [ StableHlo.seq s0_0,
    StableHlo.seq s0_1,
    StableHlo.seq s0_2,
    StableHlo.seq s0_3,
    StableHlo.seq s0_4,
    StableHlo.seq s1_0,
    StableHlo.seq s1_1,
    StableHlo.seq s1_2,
    StableHlo.seq s1_3,
    StableHlo.seq s1_4,
    StableHlo.seq s2_0,
    StableHlo.seq s2_1,
    StableHlo.seq s2_2,
    StableHlo.seq s2_3,
    StableHlo.seq s2_4,
    StableHlo.seq s2_5,
    StableHlo.seq s2_6,
    StableHlo.seq s3_0,
    StableHlo.seq s3_1,
    StableHlo.seq s3_2,
    StableHlo.seq s3_3,
    StableHlo.seq s3_4,
    StableHlo.seq s3_5,
    StableHlo.seq s3_6 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

end Cert.ReferenceIdeal.Ops

end
-- ==== Proof.ReferenceIdeal.Run.lean ====
/-
  The reference's run. @main of the reference is a straight line of host operations (no region): the broad phase as whole
  array operations, then the same compaction, exact phase and scatter as the kernel program's. With @main spelled as the
  chain of its stretches (`Ops.main_chain`), every weakly fair execution terminates with each buffer at the fold of the
  operations over the launch contents (the library's straight-line run), and no operation writes an argument.
-/
import proofs.«167490_j40750649704463_1_alg».proof.Proof.ReferenceIdeal.Ops
import Idealize.ShloMosaic.Lib.StableHlo.Run

set_option maxRecDepth 16384

noncomputable section

namespace Cert.ReferenceIdeal.Run

open Cert.ReferenceIdeal Cert.ReferenceIdeal.Gen Cert.ReferenceIdeal.Ops
open Idealize.ShloMosaic Idealize.ShloMosaic.TcCoe Idealize.ShloMosaic.StableHlo
open Idealize.SL Idealize.SL.Sem

variable {F : FTy → Type} [FloatOps F]

/-- The two arguments. -/
abbrev args : List (Ref sig .tc) := [main_arg0, main_arg1]

/-- An operation writes none of the buffers listed in `G`. -/
def KeepsL (G : List (Ref sig .tc)) (op : HloOp τ sig (Elt F)) : Prop := ∀ r ∈ G, Proc.devRef (τ := τ) .tc r ∉ op.writes

section Kinds
variable {x a b c y : Ref sig .tc} (G : List (Ref sig .tc))

theorem keeps_of_writes {op : HloOp τ sig (Elt F)} (hw : op.writes = {Proc.devRef .tc y}) (h : y ∉ G) : KeepsL G op := by
  intro r hr hmem
  rw [hw, Finset.mem_singleton] at hmem
  exact h (Proc.devRef_injective (τ := τ) _ hmem ▸ hr)

theorem keeps_nullary (v : y.ty.Contents (Elt F)) (hy) (h : y ∉ G) : KeepsL G (StableHlo.nullary (τ := τ) y v hy) :=
  keeps_of_writes G (StableHlo.nullary_writes ..) h
theorem keeps_unary (f : x.ty.Contents (Elt F) → y.ty.Contents (Elt F)) (hx hy) (h : y ∉ G) :
    KeepsL G (StableHlo.unary (τ := τ) x y f hx hy) := keeps_of_writes G (StableHlo.unary_writes ..) h
theorem keeps_binary (f : a.ty.Contents (Elt F) → b.ty.Contents (Elt F) → y.ty.Contents (Elt F)) (ha hb hy) (h : y ∉ G) :
    KeepsL G (StableHlo.binary (τ := τ) a b y f ha hb hy) := keeps_of_writes G (StableHlo.binary_writes ..) h
theorem keeps_ternary (f : c.ty.Contents (Elt F) → a.ty.Contents (Elt F) → b.ty.Contents (Elt F) → y.ty.Contents (Elt F))
    (hc ha hb hy) (h : y ∉ G) : KeepsL G (StableHlo.ternary (τ := τ) c a b y f hc ha hb hy) :=
  keeps_of_writes G (StableHlo.ternary_writes ..) h
theorem keeps_reshape (he hn hx hy) (h : y ∉ G) :
    KeepsL G (StableHlo.reshape (τ := τ) (Val := Elt F) x y he hn hx hy) := keeps_of_writes G (StableHlo.reshape_writes ..) h
end Kinds

/-- One stretch: split the conjunction, then each operation by its kind, its result buffer compared with the listed ones. -/
macro "keeps_stretch" : tactic =>
  `(tactic| ((repeat' apply And.intro) <;>
      first
        | exact keeps_nullary _ _ _ (by decide)
        | exact keeps_unary _ _ _ _ (by decide)
        | exact keeps_binary _ _ _ _ _ (by decide)
        | exact keeps_ternary _ _ _ _ _ _ (by decide)
        | exact keeps_reshape _ _ _ _ _ (by decide)))

theorem keeps_s0_0 : (s0_0 : List (HloOp τ sig (Elt F))).Forall (KeepsL args) := by
  simp only [s0_0, List.Forall]; keeps_stretch
theorem sub_s0_0 : (s0_0 : List (HloOp τ sig (Elt F))).Forall fun op => op.bufs ⊆ tcRefs τ sig := by
  simp only [s0_0, List.Forall, TRef.nullary, TRef.unary, TRef.binary, TRef.ternary, nullary_bufs_sub, unary_bufs_sub, binary_bufs_sub,
    ternary_bufs_sub, reshape_bufs_sub, and_self]
theorem fresh_s0_0 : (s0_0 : List (HloOp τ sig (Elt F))).Forall fun op => op.fresh = ∅ := by
  simp only [List.Forall]; repeat' constructor
theorem keeps_s0_1 : (s0_1 : List (HloOp τ sig (Elt F))).Forall (KeepsL args) := by
  simp only [s0_1, List.Forall]; keeps_stretch
theorem sub_s0_1 : (s0_1 : List (HloOp τ sig (Elt F))).Forall fun op => op.bufs ⊆ tcRefs τ sig := by
  simp only [s0_1, List.Forall, TRef.nullary, TRef.unary, TRef.binary, TRef.ternary, nullary_bufs_sub, unary_bufs_sub, binary_bufs_sub,
    ternary_bufs_sub, reshape_bufs_sub, and_self]
theorem fresh_s0_1 : (s0_1 : List (HloOp τ sig (Elt F))).Forall fun op => op.fresh = ∅ := by
  simp only [List.Forall]; repeat' constructor
theorem keeps_s0_2 : (s0_2 : List (HloOp τ sig (Elt F))).Forall (KeepsL args) := by
  simp only [s0_2, List.Forall]; keeps_stretch
theorem sub_s0_2 : (s0_2 : List (HloOp τ sig (Elt F))).Forall fun op => op.bufs ⊆ tcRefs τ sig := by
  simp only [s0_2, List.Forall, TRef.nullary, TRef.unary, TRef.binary, TRef.ternary, nullary_bufs_sub, unary_bufs_sub, binary_bufs_sub,
    ternary_bufs_sub, reshape_bufs_sub, and_self]
theorem fresh_s0_2 : (s0_2 : List (HloOp τ sig (Elt F))).Forall fun op => op.fresh = ∅ := by
  simp only [List.Forall]; repeat' constructor
theorem keeps_s0_3 : (s0_3 : List (HloOp τ sig (Elt F))).Forall (KeepsL args) := by
  simp only [s0_3, List.Forall]; keeps_stretch
theorem sub_s0_3 : (s0_3 : List (HloOp τ sig (Elt F))).Forall fun op => op.bufs ⊆ tcRefs τ sig := by
  simp only [s0_3, List.Forall, TRef.nullary, TRef.unary, TRef.binary, TRef.ternary, nullary_bufs_sub, unary_bufs_sub, binary_bufs_sub,
    ternary_bufs_sub, reshape_bufs_sub, and_self]
theorem fresh_s0_3 : (s0_3 : List (HloOp τ sig (Elt F))).Forall fun op => op.fresh = ∅ := by
  simp only [List.Forall]; repeat' constructor
theorem keeps_s0_4 : (s0_4 : List (HloOp τ sig (Elt F))).Forall (KeepsL args) := by
  simp only [s0_4, List.Forall]; keeps_stretch
theorem sub_s0_4 : (s0_4 : List (HloOp τ sig (Elt F))).Forall fun op => op.bufs ⊆ tcRefs τ sig := by
  simp only [s0_4, List.Forall, TRef.nullary, TRef.unary, TRef.binary, TRef.ternary, nullary_bufs_sub, unary_bufs_sub, binary_bufs_sub,
    ternary_bufs_sub, reshape_bufs_sub, and_self]
theorem fresh_s0_4 : (s0_4 : List (HloOp τ sig (Elt F))).Forall fun op => op.fresh = ∅ := by
  simp only [List.Forall]; repeat' constructor
theorem keeps_s1_0 : (s1_0 : List (HloOp τ sig (Elt F))).Forall (KeepsL args) := by
  simp only [s1_0, List.Forall]; keeps_stretch
theorem sub_s1_0 : (s1_0 : List (HloOp τ sig (Elt F))).Forall fun op => op.bufs ⊆ tcRefs τ sig := by
  simp only [s1_0, List.Forall, TRef.nullary, TRef.unary, TRef.binary, TRef.ternary, nullary_bufs_sub, unary_bufs_sub, binary_bufs_sub,
    ternary_bufs_sub, reshape_bufs_sub, and_self]
theorem fresh_s1_0 : (s1_0 : List (HloOp τ sig (Elt F))).Forall fun op => op.fresh = ∅ := by
  simp only [List.Forall]; repeat' constructor
theorem keeps_s1_1 : (s1_1 : List (HloOp τ sig (Elt F))).Forall (KeepsL args) := by
  simp only [s1_1, List.Forall]; keeps_stretch
theorem sub_s1_1 : (s1_1 : List (HloOp τ sig (Elt F))).Forall fun op => op.bufs ⊆ tcRefs τ sig := by
  simp only [s1_1, List.Forall, TRef.nullary, TRef.unary, TRef.binary, TRef.ternary, nullary_bufs_sub, unary_bufs_sub, binary_bufs_sub,
    ternary_bufs_sub, reshape_bufs_sub, and_self]
theorem fresh_s1_1 : (s1_1 : List (HloOp τ sig (Elt F))).Forall fun op => op.fresh = ∅ := by
  simp only [List.Forall]; repeat' constructor
theorem keeps_s1_2 : (s1_2 : List (HloOp τ sig (Elt F))).Forall (KeepsL args) := by
  simp only [s1_2, List.Forall]; keeps_stretch
theorem sub_s1_2 : (s1_2 : List (HloOp τ sig (Elt F))).Forall fun op => op.bufs ⊆ tcRefs τ sig := by
  simp only [s1_2, List.Forall, TRef.nullary, TRef.unary, TRef.binary, TRef.ternary, nullary_bufs_sub, unary_bufs_sub, binary_bufs_sub,
    ternary_bufs_sub, reshape_bufs_sub, and_self]
theorem fresh_s1_2 : (s1_2 : List (HloOp τ sig (Elt F))).Forall fun op => op.fresh = ∅ := by
  simp only [List.Forall]; repeat' constructor
theorem keeps_s1_3 : (s1_3 : List (HloOp τ sig (Elt F))).Forall (KeepsL args) := by
  simp only [s1_3, List.Forall]; keeps_stretch
theorem sub_s1_3 : (s1_3 : List (HloOp τ sig (Elt F))).Forall fun op => op.bufs ⊆ tcRefs τ sig := by
  simp only [s1_3, List.Forall, TRef.nullary, TRef.unary, TRef.binary, TRef.ternary, nullary_bufs_sub, unary_bufs_sub, binary_bufs_sub,
    ternary_bufs_sub, reshape_bufs_sub, and_self]
theorem fresh_s1_3 : (s1_3 : List (HloOp τ sig (Elt F))).Forall fun op => op.fresh = ∅ := by
  simp only [List.Forall]; repeat' constructor
theorem keeps_s1_4 : (s1_4 : List (HloOp τ sig (Elt F))).Forall (KeepsL args) := by
  simp only [s1_4, List.Forall]; keeps_stretch
theorem sub_s1_4 : (s1_4 : List (HloOp τ sig (Elt F))).Forall fun op => op.bufs ⊆ tcRefs τ sig := by
  simp only [s1_4, List.Forall, TRef.nullary, TRef.unary, TRef.binary, TRef.ternary, nullary_bufs_sub, unary_bufs_sub, binary_bufs_sub,
    ternary_bufs_sub, reshape_bufs_sub, and_self]
theorem fresh_s1_4 : (s1_4 : List (HloOp τ sig (Elt F))).Forall fun op => op.fresh = ∅ := by
  simp only [List.Forall]; repeat' constructor
theorem keeps_s2_0 : (s2_0 : List (HloOp τ sig (Elt F))).Forall (KeepsL args) := by
  simp only [s2_0, List.Forall]; keeps_stretch
theorem sub_s2_0 : (s2_0 : List (HloOp τ sig (Elt F))).Forall fun op => op.bufs ⊆ tcRefs τ sig := by
  simp only [s2_0, List.Forall, TRef.nullary, TRef.unary, TRef.binary, TRef.ternary, nullary_bufs_sub, unary_bufs_sub, binary_bufs_sub,
    ternary_bufs_sub, reshape_bufs_sub, and_self]
theorem fresh_s2_0 : (s2_0 : List (HloOp τ sig (Elt F))).Forall fun op => op.fresh = ∅ := by
  simp only [List.Forall]; repeat' constructor
theorem keeps_s2_1 : (s2_1 : List (HloOp τ sig (Elt F))).Forall (KeepsL args) := by
  simp only [s2_1, List.Forall]; keeps_stretch
theorem sub_s2_1 : (s2_1 : List (HloOp τ sig (Elt F))).Forall fun op => op.bufs ⊆ tcRefs τ sig := by
  simp only [s2_1, List.Forall, TRef.nullary, TRef.unary, TRef.binary, TRef.ternary, nullary_bufs_sub, unary_bufs_sub, binary_bufs_sub,
    ternary_bufs_sub, reshape_bufs_sub, and_self]
theorem fresh_s2_1 : (s2_1 : List (HloOp τ sig (Elt F))).Forall fun op => op.fresh = ∅ := by
  simp only [List.Forall]; repeat' constructor
theorem keeps_s2_2 : (s2_2 : List (HloOp τ sig (Elt F))).Forall (KeepsL args) := by
  simp only [s2_2, List.Forall]; keeps_stretch
theorem sub_s2_2 : (s2_2 : List (HloOp τ sig (Elt F))).Forall fun op => op.bufs ⊆ tcRefs τ sig := by
  simp only [s2_2, List.Forall, TRef.nullary, TRef.unary, TRef.binary, TRef.ternary, nullary_bufs_sub, unary_bufs_sub, binary_bufs_sub,
    ternary_bufs_sub, reshape_bufs_sub, and_self]
theorem fresh_s2_2 : (s2_2 : List (HloOp τ sig (Elt F))).Forall fun op => op.fresh = ∅ := by
  simp only [List.Forall]; repeat' constructor
theorem keeps_s2_3 : (s2_3 : List (HloOp τ sig (Elt F))).Forall (KeepsL args) := by
  simp only [s2_3, List.Forall]; keeps_stretch
theorem sub_s2_3 : (s2_3 : List (HloOp τ sig (Elt F))).Forall fun op => op.bufs ⊆ tcRefs τ sig := by
  simp only [s2_3, List.Forall, TRef.nullary, TRef.unary, TRef.binary, TRef.ternary, nullary_bufs_sub, unary_bufs_sub, binary_bufs_sub,
    ternary_bufs_sub, reshape_bufs_sub, and_self]
theorem fresh_s2_3 : (s2_3 : List (HloOp τ sig (Elt F))).Forall fun op => op.fresh = ∅ := by
  simp only [List.Forall]; repeat' constructor
theorem keeps_s2_4 : (s2_4 : List (HloOp τ sig (Elt F))).Forall (KeepsL args) := by
  simp only [s2_4, List.Forall]; keeps_stretch
theorem sub_s2_4 : (s2_4 : List (HloOp τ sig (Elt F))).Forall fun op => op.bufs ⊆ tcRefs τ sig := by
  simp only [s2_4, List.Forall, TRef.nullary, TRef.unary, TRef.binary, TRef.ternary, nullary_bufs_sub, unary_bufs_sub, binary_bufs_sub,
    ternary_bufs_sub, reshape_bufs_sub, and_self]
theorem fresh_s2_4 : (s2_4 : List (HloOp τ sig (Elt F))).Forall fun op => op.fresh = ∅ := by
  simp only [List.Forall]; repeat' constructor
theorem keeps_s2_5 : (s2_5 : List (HloOp τ sig (Elt F))).Forall (KeepsL args) := by
  simp only [s2_5, List.Forall]; keeps_stretch
theorem sub_s2_5 : (s2_5 : List (HloOp τ sig (Elt F))).Forall fun op => op.bufs ⊆ tcRefs τ sig := by
  simp only [s2_5, List.Forall, TRef.nullary, TRef.unary, TRef.binary, TRef.ternary, nullary_bufs_sub, unary_bufs_sub, binary_bufs_sub,
    ternary_bufs_sub, reshape_bufs_sub, and_self]
theorem fresh_s2_5 : (s2_5 : List (HloOp τ sig (Elt F))).Forall fun op => op.fresh = ∅ := by
  simp only [List.Forall]; repeat' constructor
theorem keeps_s2_6 : (s2_6 : List (HloOp τ sig (Elt F))).Forall (KeepsL args) := by
  simp only [s2_6, List.Forall]; keeps_stretch
theorem sub_s2_6 : (s2_6 : List (HloOp τ sig (Elt F))).Forall fun op => op.bufs ⊆ tcRefs τ sig := by
  simp only [s2_6, List.Forall, TRef.nullary, TRef.unary, TRef.binary, TRef.ternary, nullary_bufs_sub, unary_bufs_sub, binary_bufs_sub,
    ternary_bufs_sub, reshape_bufs_sub, and_self]
theorem fresh_s2_6 : (s2_6 : List (HloOp τ sig (Elt F))).Forall fun op => op.fresh = ∅ := by
  simp only [List.Forall]; repeat' constructor
theorem keeps_s3_0 : (s3_0 : List (HloOp τ sig (Elt F))).Forall (KeepsL args) := by
  simp only [s3_0, List.Forall]; keeps_stretch
theorem sub_s3_0 : (s3_0 : List (HloOp τ sig (Elt F))).Forall fun op => op.bufs ⊆ tcRefs τ sig := by
  simp only [s3_0, List.Forall, TRef.nullary, TRef.unary, TRef.binary, TRef.ternary, nullary_bufs_sub, unary_bufs_sub, binary_bufs_sub,
    ternary_bufs_sub, reshape_bufs_sub, and_self]
theorem fresh_s3_0 : (s3_0 : List (HloOp τ sig (Elt F))).Forall fun op => op.fresh = ∅ := by
  simp only [List.Forall]; repeat' constructor
theorem keeps_s3_1 : (s3_1 : List (HloOp τ sig (Elt F))).Forall (KeepsL args) := by
  simp only [s3_1, List.Forall]; keeps_stretch
theorem sub_s3_1 : (s3_1 : List (HloOp τ sig (Elt F))).Forall fun op => op.bufs ⊆ tcRefs τ sig := by
  simp only [s3_1, List.Forall, TRef.nullary, TRef.unary, TRef.binary, TRef.ternary, nullary_bufs_sub, unary_bufs_sub, binary_bufs_sub,
    ternary_bufs_sub, reshape_bufs_sub, and_self]
theorem fresh_s3_1 : (s3_1 : List (HloOp τ sig (Elt F))).Forall fun op => op.fresh = ∅ := by
  simp only [List.Forall]; repeat' constructor
theorem keeps_s3_2 : (s3_2 : List (HloOp τ sig (Elt F))).Forall (KeepsL args) := by
  simp only [s3_2, List.Forall]; keeps_stretch
theorem sub_s3_2 : (s3_2 : List (HloOp τ sig (Elt F))).Forall fun op => op.bufs ⊆ tcRefs τ sig := by
  simp only [s3_2, List.Forall, TRef.nullary, TRef.unary, TRef.binary, TRef.ternary, nullary_bufs_sub, unary_bufs_sub, binary_bufs_sub,
    ternary_bufs_sub, reshape_bufs_sub, and_self]
theorem fresh_s3_2 : (s3_2 : List (HloOp τ sig (Elt F))).Forall fun op => op.fresh = ∅ := by
  simp only [List.Forall]; repeat' constructor
theorem keeps_s3_3 : (s3_3 : List (HloOp τ sig (Elt F))).Forall (KeepsL args) := by
  simp only [s3_3, List.Forall]; keeps_stretch
theorem sub_s3_3 : (s3_3 : List (HloOp τ sig (Elt F))).Forall fun op => op.bufs ⊆ tcRefs τ sig := by
  simp only [s3_3, List.Forall, TRef.nullary, TRef.unary, TRef.binary, TRef.ternary, nullary_bufs_sub, unary_bufs_sub, binary_bufs_sub,
    ternary_bufs_sub, reshape_bufs_sub, and_self]
theorem fresh_s3_3 : (s3_3 : List (HloOp τ sig (Elt F))).Forall fun op => op.fresh = ∅ := by
  simp only [List.Forall]; repeat' constructor
theorem keeps_s3_4 : (s3_4 : List (HloOp τ sig (Elt F))).Forall (KeepsL args) := by
  simp only [s3_4, List.Forall]; keeps_stretch
theorem sub_s3_4 : (s3_4 : List (HloOp τ sig (Elt F))).Forall fun op => op.bufs ⊆ tcRefs τ sig := by
  simp only [s3_4, List.Forall, TRef.nullary, TRef.unary, TRef.binary, TRef.ternary, nullary_bufs_sub, unary_bufs_sub, binary_bufs_sub,
    ternary_bufs_sub, reshape_bufs_sub, and_self]
theorem fresh_s3_4 : (s3_4 : List (HloOp τ sig (Elt F))).Forall fun op => op.fresh = ∅ := by
  simp only [List.Forall]; repeat' constructor
theorem keeps_s3_5 : (s3_5 : List (HloOp τ sig (Elt F))).Forall (KeepsL args) := by
  simp only [s3_5, List.Forall]; keeps_stretch
theorem sub_s3_5 : (s3_5 : List (HloOp τ sig (Elt F))).Forall fun op => op.bufs ⊆ tcRefs τ sig := by
  simp only [s3_5, List.Forall, TRef.nullary, TRef.unary, TRef.binary, TRef.ternary, nullary_bufs_sub, unary_bufs_sub, binary_bufs_sub,
    ternary_bufs_sub, reshape_bufs_sub, and_self]
theorem fresh_s3_5 : (s3_5 : List (HloOp τ sig (Elt F))).Forall fun op => op.fresh = ∅ := by
  simp only [List.Forall]; repeat' constructor
theorem keeps_s3_6 : (s3_6 : List (HloOp τ sig (Elt F))).Forall (KeepsL args) := by
  simp only [s3_6, List.Forall]; keeps_stretch
theorem sub_s3_6 : (s3_6 : List (HloOp τ sig (Elt F))).Forall fun op => op.bufs ⊆ tcRefs τ sig := by
  simp only [s3_6, List.Forall, TRef.nullary, TRef.unary, TRef.binary, TRef.ternary, nullary_bufs_sub, unary_bufs_sub, binary_bufs_sub,
    ternary_bufs_sub, reshape_bufs_sub, and_self]
theorem fresh_s3_6 : (s3_6 : List (HloOp τ sig (Elt F))).Forall fun op => op.fresh = ∅ := by
  simp only [List.Forall]; repeat' constructor

theorem all_keeps : (stretches : List (List (HloOp τ sig (Elt F)))).Forall fun ops => ops.Forall (KeepsL args) :=
  ⟨keeps_s0_0, keeps_s0_1, keeps_s0_2, keeps_s0_3, keeps_s0_4, keeps_s1_0, keeps_s1_1, keeps_s1_2, keeps_s1_3, keeps_s1_4, keeps_s2_0, keeps_s2_1, keeps_s2_2, keeps_s2_3, keeps_s2_4, keeps_s2_5, keeps_s2_6, keeps_s3_0, keeps_s3_1, keeps_s3_2, keeps_s3_3, keeps_s3_4, keeps_s3_5, keeps_s3_6⟩
theorem all_sub : (stretches : List (List (HloOp τ sig (Elt F)))).Forall fun ops => ops.Forall fun op => op.bufs ⊆ tcRefs τ sig :=
  ⟨sub_s0_0, sub_s0_1, sub_s0_2, sub_s0_3, sub_s0_4, sub_s1_0, sub_s1_1, sub_s1_2, sub_s1_3, sub_s1_4, sub_s2_0, sub_s2_1, sub_s2_2, sub_s2_3, sub_s2_4, sub_s2_5, sub_s2_6, sub_s3_0, sub_s3_1, sub_s3_2, sub_s3_3, sub_s3_4, sub_s3_5, sub_s3_6⟩
theorem all_fresh : (stretches : List (List (HloOp τ sig (Elt F)))).Forall fun ops => ops.Forall fun op => op.fresh = ∅ :=
  ⟨fresh_s0_0, fresh_s0_1, fresh_s0_2, fresh_s0_3, fresh_s0_4, fresh_s1_0, fresh_s1_1, fresh_s1_2, fresh_s1_3, fresh_s1_4, fresh_s2_0, fresh_s2_1, fresh_s2_2, fresh_s2_3, fresh_s2_4, fresh_s2_5, fresh_s2_6, fresh_s3_0, fresh_s3_1, fresh_s3_2, fresh_s3_3, fresh_s3_4, fresh_s3_5, fresh_s3_6⟩

theorem flatten_forall {α : Type} {P : α → Prop} {L : List (List α)} (h : L.Forall fun l => l.Forall P) :
    ∀ x ∈ L.flatten, P x := by
  intro x hx
  obtain ⟨l, hl, hxl⟩ := List.mem_flatten.mp hx
  exact List.forall_iff_forall_mem.mp (List.forall_iff_forall_mem.mp h l hl) x hxl

/-- The whole of @main's operations, in order. -/
abbrev ops : List (HloOp τ sig (Elt F)) := (stretches : List (List (HloOp τ sig (Elt F)))).flatten

/-- A chain of stretches is the one line of their concatenation. -/
theorem chain_seqs {Λ : Labels} (L : List (List (HloOp τ sig (Elt F)))) :
    (Pipeline.chain (L.map StableHlo.seq) : Prog (TpuEff nD τ sig (Elt F) Λ .tc) PUnit) = StableHlo.seq L.flatten := by
  induction L with
  | nil => rfl
  | cons l L ih => rw [List.map_cons, Pipeline.chain_cons, ih, List.flatten_cons, StableHlo.seq_append]

theorem main_eq (d : Dev nD) : main (F := F) d = StableHlo.seq ops :=
  (Ops.main_chain d).trans (chain_seqs stretches)

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference terminates, each TensorCore buffer at
    the fold of @main's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr (flatten_forall all_sub)) m ρ (fun _ => flatten_forall all_fresh)

/-- No operation writes an argument: each keeps its launch contents. -/
theorem after_arg (V : Valuation τ sig (Elt F)) {r : Ref sig .tc} (hr : r ∈ args) :
    after ops V (Proc.devRef .tc r) = V (Proc.devRef .tc r) :=
  after_of_forall_not_mem (b := Proc.devRef .tc r) _ _ fun op hop => flatten_forall all_keeps op hop r hr

/-- The frame claim's statement for the reference, at any `F`. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0).trans (after_arg _ (by decide)), (h c main_arg1).trans (after_arg _ (by decide))⟩) (run m ρ)

end Cert.ReferenceIdeal.Run

end
-- ==== Proof.Tails.lean ====
/-
  The shared tail. After the broad phase both idealized programs run the same text: rank the candidate pairs by a running
  count, keep the first 16384, gather their positions and radii, test true penetration, keep the first 4096 of those, and
  scatter the half-penetration pushes into the positions — 238 host operations on each side, over the two programs' own
  buffers. `tails_agree`: unfolded to their operations' composed terms the two folds coincide, so from contents that agree on
  the flattened candidate-pair bits, the positions and the radii the two tails leave the same result.
-/
import proofs.«167490_j40750649704463_1_alg».proof.Proof.KernelIdeal.Host
import proofs.«167490_j40750649704463_1_alg».proof.Proof.ReferenceIdeal.Run
import Idealize.ShloMosaic.Lib.StableHlo.Run

set_option maxRecDepth 16384

noncomputable section

namespace Cert.Tails

open Idealize.ShloMosaic Idealize.ShloMosaic.TcCoe Idealize.ShloMosaic.StableHlo Idealize.SL.Sem

variable {F : FTy → Type} [FloatOps F]

/-- The kernel program's operations from the conversion of the flattened bits to words on: the shared tail. -/
abbrev tK : List (HloOp Cert.KernelIdeal.τ Cert.KernelIdeal.sig (Elt F)) :=
  List.drop 5 Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16 ++ Cert.KernelIdeal.Gen.hostOps1_17 ++ Cert.KernelIdeal.Gen.hostOps1_18 ++ Cert.KernelIdeal.Gen.hostOps1_19 ++ Cert.KernelIdeal.Gen.hostOps1_20
/-- The reference's operations from the same conversion on. -/
abbrev tR : List (HloOp Cert.ReferenceIdeal.τ Cert.ReferenceIdeal.sig (Elt F)) :=
  List.drop 25 Cert.ReferenceIdeal.Ops.s0_0 ++ Cert.ReferenceIdeal.Ops.s0_1 ++ Cert.ReferenceIdeal.Ops.s0_2 ++ Cert.ReferenceIdeal.Ops.s0_3 ++ Cert.ReferenceIdeal.Ops.s0_4 ++ Cert.ReferenceIdeal.Ops.s1_0 ++ Cert.ReferenceIdeal.Ops.s1_1 ++ Cert.ReferenceIdeal.Ops.s1_2 ++ Cert.ReferenceIdeal.Ops.s1_3 ++ Cert.ReferenceIdeal.Ops.s1_4 ++ Cert.ReferenceIdeal.Ops.s2_0 ++ Cert.ReferenceIdeal.Ops.s2_1 ++ Cert.ReferenceIdeal.Ops.s2_2 ++ Cert.ReferenceIdeal.Ops.s2_3 ++ Cert.ReferenceIdeal.Ops.s2_4 ++ Cert.ReferenceIdeal.Ops.s2_5 ++ Cert.ReferenceIdeal.Ops.s2_6 ++ Cert.ReferenceIdeal.Ops.s3_0 ++ Cert.ReferenceIdeal.Ops.s3_1 ++ Cert.ReferenceIdeal.Ops.s3_2 ++ Cert.ReferenceIdeal.Ops.s3_3 ++ Cert.ReferenceIdeal.Ops.s3_4 ++ Cert.ReferenceIdeal.Ops.s3_5 ++ Cert.ReferenceIdeal.Ops.s3_6

set_option maxHeartbeats 4000000 in
/-- The shared tail is one function of the flattened pair bits, the positions and the radii: from contents that agree on
    those three buffers, the two programs' tails leave the same result. -/
theorem tails_agree (WK : Valuation Cert.KernelIdeal.τ Cert.KernelIdeal.sig (Elt F)) (WR : Valuation Cert.ReferenceIdeal.τ Cert.ReferenceIdeal.sig (Elt F))
    (hflat : (WK (Proc.devRef .tc Cert.KernelIdeal.main_v14) : (⟨Cert.KernelIdeal.S16777216, .i1⟩ : BufTy).Contents (Elt F)) = WR (Proc.devRef .tc Cert.ReferenceIdeal.main_v22))
    (hpos : (WK (Proc.devRef .tc Cert.KernelIdeal.main_arg0) : (⟨Cert.KernelIdeal.S4096x2, .f32⟩ : BufTy).Contents (Elt F)) = WR (Proc.devRef .tc Cert.ReferenceIdeal.main_arg0))
    (hrad : (WK (Proc.devRef .tc Cert.KernelIdeal.main_arg1) : (⟨Cert.KernelIdeal.S4096, .f32⟩ : BufTy).Contents (Elt F)) = WR (Proc.devRef .tc Cert.ReferenceIdeal.main_arg1)) :
    (after tK WK (Proc.devRef .tc Cert.KernelIdeal.main_v166) : (⟨Cert.KernelIdeal.S4096x2, .f32⟩ : BufTy).Contents (Elt F))
      = after tR WR (Proc.devRef .tc Cert.ReferenceIdeal.main_v174) := by
  simp only [tK, tR, Cert.KernelIdeal.Gen.hostOps1, Cert.ReferenceIdeal.Ops.s0_0, List.drop_succ_cons, List.drop_zero,
    Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.ReferenceIdeal.Ops.s0_1, Cert.ReferenceIdeal.Ops.s0_2, Cert.ReferenceIdeal.Ops.s0_3, Cert.ReferenceIdeal.Ops.s0_4, Cert.ReferenceIdeal.Ops.s1_0, Cert.ReferenceIdeal.Ops.s1_1, Cert.ReferenceIdeal.Ops.s1_2, Cert.ReferenceIdeal.Ops.s1_3, Cert.ReferenceIdeal.Ops.s1_4, Cert.ReferenceIdeal.Ops.s2_0, Cert.ReferenceIdeal.Ops.s2_1, Cert.ReferenceIdeal.Ops.s2_2, Cert.ReferenceIdeal.Ops.s2_3, Cert.ReferenceIdeal.Ops.s2_4, Cert.ReferenceIdeal.Ops.s2_5, Cert.ReferenceIdeal.Ops.s2_6, Cert.ReferenceIdeal.Ops.s3_0, Cert.ReferenceIdeal.Ops.s3_1, Cert.ReferenceIdeal.Ops.s3_2, Cert.ReferenceIdeal.Ops.s3_3, Cert.ReferenceIdeal.Ops.s3_4, Cert.ReferenceIdeal.Ops.s3_5, Cert.ReferenceIdeal.Ops.s3_6,
    List.cons_append, List.nil_append, List.append_assoc]
  after_results_simp
  rw [hflat, hpos, hrad]
  rfl

/-- The kernel program's lines after the region: the five that flatten the matrix, then the shared tail. -/
theorem tailK_split : ((Cert.KernelIdeal.Host.tail : List (List (HloOp Cert.KernelIdeal.τ Cert.KernelIdeal.sig (Elt F)))).flatten) = List.take 5 Cert.KernelIdeal.Gen.hostOps1 ++ tK := by
  simp only [Cert.KernelIdeal.Host.tail, tK, Cert.KernelIdeal.Gen.hostOps1, List.flatten_cons, List.flatten_nil, List.append_nil, List.take_succ_cons, List.take_zero,
    List.drop_succ_cons, List.drop_zero, List.cons_append, List.nil_append, List.append_assoc]

/-- The reference's operations: its first 25, then the shared tail. -/
theorem opsR_split : (Cert.ReferenceIdeal.Run.ops : List (HloOp Cert.ReferenceIdeal.τ Cert.ReferenceIdeal.sig (Elt F))) = List.take 25 Cert.ReferenceIdeal.Ops.s0_0 ++ tR := by
  simp only [Cert.ReferenceIdeal.Run.ops, Cert.ReferenceIdeal.Ops.stretches, tR, Cert.ReferenceIdeal.Ops.s0_0, List.flatten_cons, List.flatten_nil, List.append_nil, List.take_succ_cons, List.take_zero,
    List.drop_succ_cons, List.drop_zero, List.cons_append, List.nil_append, List.append_assoc]

end Cert.Tails

end
-- ==== Proof.Spec.lean ====
/-
  The broad phase, as one function of the two arguments. Bodies `i` and `j` are a candidate pair when their boxes overlap on
  both axes, |p_i − p_j| ≤ r_i + r_j on the x axis and on the y axis, and they are two different bodies. `ovBit` is that
  truth value as one bit, written with the float operations the programs use (so it is the same term at any reading of the
  floats), and `ovWord` the 4096×4096 matrix of those bits as 32-bit words, which is what the kernel writes.
-/
import Idealize.ShloMosaic.PureOps.Ideal
import Idealize.ShloMosaic.Lib.ValueIdx
import Idealize.ShloMosaic.PureOps.ShapeOps

noncomputable section

namespace Cert.Spec

open Idealize.ShloMosaic Idealize.ShloMosaic.ValueIdx

variable {F : FTy → Type} [FloatOps F]

/-- The shapes of the positions, the radii and the pair matrix. -/
abbrev SP : Shape := ⟨2, ![4096, 2]⟩
abbrev SR : Shape := ⟨1, ![4096]⟩
abbrev SM : Shape := ⟨2, ![4096, 4096]⟩

/-- The boxes of bodies `i` and `j` overlap on axis `k`. -/
def axisBit (pos : FVec F SP .f32) (rad : FVec F SR .f32) (i j : Fin 4096) (k : Fin 2) : BitVec 1 :=
  FloatOps.cmpf .ole (FloatOps.absf (FloatOps.subf (pos (ix2 i k)) (pos (ix2 j k)))) (FloatOps.addf (rad (ix1 i)) (rad (ix1 j)))

/-- Bodies `i` and `j` are a candidate pair: overlap on both axes, and `i ≠ j` (as 32-bit index words). -/
def ovBit (pos : FVec F SP .f32) (rad : FVec F SR .f32) (i j : Fin 4096) : BitVec 1 :=
  IntOp.andi (IntOp.andi (axisBit pos rad i j 0) (axisBit pos rad i j 1))
    (IntOp.cmpi .ne (BitVec.ofNat 32 i.val) (BitVec.ofNat 32 j.val))

/-- The matrix of candidate pairs as 0/1 words. -/
def ovWord (pos : FVec F SP .f32) (rad : FVec F SR .f32) : SM.Idx → BitVec 32 :=
  fun k => (ovBit pos rad (k 0) (k 1)).setWidth 32

/-- The pair matrix flattened row-major to 16777216 truth bits: what both programs compact. -/
abbrev SF : Shape := ⟨1, ![16777216]⟩
theorem casts : SM.ShapeCasts SF := by decide
def flat (pos : FVec F SP .f32) (rad : FVec F SR .f32) : SF.Idx → BitVec 1 :=
  shapeCast SF (fun k : SM.Idx => ovBit pos rad (k 0) (k 1)) casts

theorem ovWord_apply (pos : FVec F SP .f32) (rad : FVec F SR .f32) (i j : Fin 4096) :
    ovWord pos rad (ix2 i j) = (ovBit pos rad i j).setWidth 32 := rfl

end Cert.Spec

end
-- ==== Proof.KernelIdeal.Overlap.lean ====
/-
  What the region's output array holds after the run, as one function of the two arguments: the candidate-pair matrix
  `Spec.ovWord`. The six operand arrays are slices and recasts of the arguments (the x column, the y column and the radii,
  each once as a 4096×1 column and once as a 1×4096 row). Point `t` of the grid stages rows 256·t … 256·t + 255 of the three
  columns and the whole of the three rows, and the body's one store, read at (p, q), compares body 256·t + p with body q. So
  what point `t` writes back is block `t` of the matrix, the 16 blocks tile it, and the array ends at the matrix.
-/
import proofs.«167490_j40750649704463_1_alg».proof.Proof.KernelIdeal.Frame
import proofs.«167490_j40750649704463_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Overlap

open Cert.KernelIdeal Cert.KernelIdeal.Gen Cert.KernelIdeal.Host Cert.KernelIdeal.Body Cert.KernelIdeal.Frame Cert.Spec
open Idealize.ShloMosaic Idealize.ShloMosaic.TcCoe Idealize.ShloMosaic.ValueIdx
open Idealize.SL Idealize.SL.Sem
open Idealize.ShloMosaic.Pipeline (Dat)

variable {F : FTy → Type} [FloatOps F]

/-! ## Layout steps read at an index -/

section Layout
variable {α : Type}

/-- A vector recast as a column reads, at (i, u), the vector at i. -/
theorem cast_a_a1 {a : ℕ} (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column recast as a vector reads, at i, the column at (i, 0). -/
theorem cast_a1_a {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `k` of the positions cut out as a 4096×1 array reads, at (i, u), the positions at (i, k). -/
theorem slice_col (k : Fin 2) (x : S4096x2.Idx → α) (h : S4096x2.Slices ![0, k.val] S4096x1) (i : Fin 4096) (u : Fin 1) :
    extractStridedSlice S4096x1 ![0, k.val] x h (ix2 i u) = x (ix2 i k) :=
  extractStridedSlice_apply _ x h _ _ (fun a => by
    have hu : u.val = 0 := by omega
    match a with
    | ⟨0, _⟩ => show i.val = 0 + i.val; omega
    | ⟨1, _⟩ => show k.val = k.val + u.val; omega)

/-- A 256×1 column repeated along 4096 lanes reads, at (p, q), the column at (p, 0). -/
theorem bcast_col (v : S256x1.Idx → α) (h : S256x1.Broadcasts S256x4096) (p : Fin 256) (q : Fin 4096) :
    broadcastTo S256x4096 v h (ix2 p q) = v (ix2 p (0 : Fin 1)) :=
  broadcastTo_apply v h _ _ (fun a => by match a with | ⟨0, _⟩ => rfl | ⟨1, _⟩ => rfl)

/-- A 1×4096 row repeated along 256 sublanes reads, at (p, q), the row at (0, q). -/
theorem bcast_row (v : S1x4096.Idx → α) (h : S1x4096.Broadcasts S256x4096) (p : Fin 256) (q : Fin 4096) :
    broadcastTo S256x4096 v h (ix2 p q) = v (ix2 (0 : Fin 1) q) :=
  broadcastTo_apply v h _ _ (fun a => by match a with | ⟨0, _⟩ => rfl | ⟨1, _⟩ => rfl)

/-- The row-index and lane-index words of a 256×4096 tile at (p, q). -/
theorem iota_row (h : S256x4096.Iotas .tc 32 [0]) (p : Fin 256) (q : Fin 4096) :
    iota .tc S256x4096 32 [0] h (ix2 p q) = BitVec.ofNat 32 p.val :=
  congrArg (BitVec.ofNat 32) (by show 0 * 256 + p.val = p.val; omega)
theorem iota_lane (h : S256x4096.Iotas .tc 32 [1]) (p : Fin 256) (q : Fin 4096) :
    iota .tc S256x4096 32 [1] h (ix2 p q) = BitVec.ofNat 32 q.val :=
  congrArg (BitVec.ofNat 32) (by show 0 * 4096 + q.val = q.val; omega)

end Layout

/-! ## The body's store at an index -/

/-- The payload at (p, q), for the tile at grid coordinate `i`: the two box tests of the tile's row p against lane q, and
    that the global row index `256·i + p` is not `q`. -/
theorem pay_apply (i : grid0.Coords) (v5 v13 v21 : Vec F S256x1 .f32) (v7 v15 v23 : Vec F S1x4096 .f32) (p : Fin 256) (q : Fin 4096) :
    k0_pay1 i v5 v7 v13 v15 v21 v23 (ix2 p q)
      = (IntOp.andi (IntOp.andi
            (FloatOps.cmpf .ole (FloatOps.absf (FloatOps.subf (v5 (ix2 p (0 : Fin 1))) (v7 (ix2 (0 : Fin 1) q))))
              (FloatOps.addf (v21 (ix2 p (0 : Fin 1))) (v23 (ix2 (0 : Fin 1) q))))
            (FloatOps.cmpf .ole (FloatOps.absf (FloatOps.subf (v13 (ix2 p (0 : Fin 1))) (v15 (ix2 (0 : Fin 1) q))))
              (FloatOps.addf (v21 (ix2 p (0 : Fin 1))) (v23 (ix2 (0 : Fin 1) q)))))
          (IntOp.cmpi .ne (IntOp.addi (IntOp.muli (BitVec.ofNat 32 (i 0).val) 256#32) (BitVec.ofNat 32 p.val)) (BitVec.ofNat 32 q.val))).setWidth 32 := by
  unfold k0_pay1
  simp only [extui, andi, cmpf, cmpi, absf, subf, addf, addi, broadcast, shapeCast_self, bcast_col, bcast_row, Scalar.muli]
  rw [iota_row, iota_lane]

/-! ## The operand arrays as the region finds them -/

variable (m : (ℓ : Loc nD τ sig) → Buf (Elt F) ℓ)

/-- The launch contents of the two arguments on core `c`. -/
abbrev pos (c : Dev nD) : FVec F SP .f32 := m ((c : Thread nD τ).loc main_arg0)
abbrev rad (c : Dev nD) : FVec F SR .f32 := m ((c : Thread nD τ).loc main_arg1)

theorem V_v0 (c : Dev nD) (i : Fin 4096) : (V m c main_v0 : S4096x1.Idx → Elt F .f32) (ix2 i (0 : Fin 1)) = pos m c (ix2 i (0 : Fin 2)) := by
  have e : (V m c main_v0 : S4096x1.Idx → Elt F .f32)
      = extractStridedSlice S4096x1 ![0, 0] (m ((c : Thread nD τ).loc main_arg0)) slices_S4096x2_S4096x1_0_0 := by
    show StableHlo.after hostOps0 (fun b => m (c, b)) (Proc.devRef .tc main_v0) = _
    (after_results) <;> rfl
  rw [e]; exact slice_col (0 : Fin 2) _ _ i 0
theorem V_v1 (c : Dev nD) (i : Fin 4096) : (V m c main_v1 : S4096x1.Idx → Elt F .f32) (ix2 i (0 : Fin 1)) = pos m c (ix2 i (1 : Fin 2)) := by
  have e : (V m c main_v1 : S4096x1.Idx → Elt F .f32)
      = extractStridedSlice S4096x1 ![0, 1] (m ((c : Thread nD τ).loc main_arg0)) slices_S4096x2_S4096x1_0_1 := by
    show StableHlo.after hostOps0 (fun b => m (c, b)) (Proc.devRef .tc main_v1) = _
    (after_results) <;> rfl
  rw [e]; exact slice_col (1 : Fin 2) _ _ i 0
theorem V_v2 (c : Dev nD) (i : Fin 4096) : (V m c main_v2 : S4096x1.Idx → Elt F .f32) (ix2 i (0 : Fin 1)) = rad m c (ix1 i) := by
  have e : (V m c main_v2 : S4096x1.Idx → Elt F .f32)
      = shapeCast S4096x1 (m ((c : Thread nD τ).loc main_arg1) : S4096.Idx → Elt F .f32) shapeCasts_S4096_S4096x1 := by
    show StableHlo.after hostOps0 (fun b => m (c, b)) (Proc.devRef .tc main_v2) = _
    (after_results) <;> rfl
  rw [e]; exact cast_a_a1 _ _ i 0
theorem V_v5 (c : Dev nD) (j : Fin 4096) : (V m c main_v5 : S1x4096.Idx → Elt F .f32) (ix2 (0 : Fin 1) j) = pos m c (ix2 j (0 : Fin 2)) := by
  have e : (V m c main_v5 : S1x4096.Idx → Elt F .f32)
      = shapeCast S1x4096 (shapeCast S4096 (extractStridedSlice S4096x1 ![0, 0] (m ((c : Thread nD τ).loc main_arg0)) slices_S4096x2_S4096x1_0_0 : S4096x1.Idx → Elt F .f32)
          shapeCasts_S4096x1_S4096) shapeCasts_S4096_S1x4096 := by
    show StableHlo.after hostOps0 (fun b => m (c, b)) (Proc.devRef .tc main_v5) = _
    (after_results) <;> rfl
  rw [e, shapeCast_a_1a_apply, cast_a1_a]; exact slice_col (0 : Fin 2) _ _ j 0
theorem V_v8 (c : Dev nD) (j : Fin 4096) : (V m c main_v8 : S1x4096.Idx → Elt F .f32) (ix2 (0 : Fin 1) j) = pos m c (ix2 j (1 : Fin 2)) := by
  have e : (V m c main_v8 : S1x4096.Idx → Elt F .f32)
      = shapeCast S1x4096 (shapeCast S4096 (extractStridedSlice S4096x1 ![0, 1] (m ((c : Thread nD τ).loc main_arg0)) slices_S4096x2_S4096x1_0_1 : S4096x1.Idx → Elt F .f32)
          shapeCasts_S4096x1_S4096) shapeCasts_S4096_S1x4096 := by
    show StableHlo.after hostOps0 (fun b => m (c, b)) (Proc.devRef .tc main_v8) = _
    (after_results) <;> rfl
  rw [e, shapeCast_a_1a_apply, cast_a1_a]; exact slice_col (1 : Fin 2) _ _ j 0
theorem V_v9 (c : Dev nD) (j : Fin 4096) : (V m c main_v9 : S1x4096.Idx → Elt F .f32) (ix2 (0 : Fin 1) j) = rad m c (ix1 j) := by
  have e : (V m c main_v9 : S1x4096.Idx → Elt F .f32)
      = shapeCast S1x4096 (m ((c : Thread nD τ).loc main_arg1) : S4096.Idx → Elt F .f32) shapeCasts_S4096_S1x4096 := by
    show StableHlo.after hostOps0 (fun b => m (c, b)) (Proc.devRef .tc main_v9) = _
    (after_results) <;> rfl
  rw [e]; exact shapeCast_a_1a_apply _ _ 0 j

/-! ## The blocks -/

theorem hz : (![0, 0] : Fin 2 → Nat) = fun _ => 0 := funext fun a => by fin_cases a <;> rfl

/-- The printed index maps over the grid: a column window's and the output's block index is (t, 0), a row window's (0, 0);
    and the one grid coordinate of point `t` is `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

/-- Global row index of row `p` of tile `t`. -/
def row (t : Fin cfg0.N) (p : Fin 256) : Fin 4096 := ⟨256 * t.val + p.val, by have hN : cfg0.N = 16 := N_0; have := t.isLt; omega⟩

/-- Row p of a column window's block at point `t` is row 256·t + p of its array. -/
theorem iblk0_apply (c : Dev nD) (t : Fin cfg0.N) (p : Fin 256) :
    (iblk m c 0 t : Vec F S256x1 .f32) (ix2 p (0 : Fin 1)) = (V m c main_v0 : S4096x1.Idx → Elt F .f32) (ix2 (row t p) (0 : Fin 1)) := by
  obtain ⟨e00, e01, e10, e11, e20, e21, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = 256 * t.val + p.val; rw [e00]; omega
  | ⟨1, _⟩ => show win0_0.index t (1 : Fin 2) * 1 + 1 * 0 = 0; rw [e01]
theorem iblk1_apply (c : Dev nD) (t : Fin cfg0.N) (p : Fin 256) :
    (iblk m c 1 t : Vec F S256x1 .f32) (ix2 p (0 : Fin 1)) = (V m c main_v1 : S4096x1.Idx → Elt F .f32) (ix2 (row t p) (0 : Fin 1)) := by
  obtain ⟨e00, e01, e10, e11, e20, e21, -⟩ := idx_facts t
  unfold iblk
  rw [View.read_apply]
  show V m c main_v1 _ = V m c main_v1 _
  congr 1
  funext a
  apply Fin.ext
  match a with
  | ⟨0, _⟩ => show win0_1.index t (0 : Fin 2) * 256 + 1 * p.val = 256 * t.val + p.val; rw [e10]; omega
  | ⟨1, _⟩ => show win0_1.index t (1 : Fin 2) * 1 + 1 * 0 = 0; rw [e11]
theorem iblk2_apply (c : Dev nD) (t : Fin cfg0.N) (p : Fin 256) :
    (iblk m c 2 t : Vec F S256x1 .f32) (ix2 p (0 : Fin 1)) = (V m c main_v2 : S4096x1.Idx → Elt F .f32) (ix2 (row t p) (0 : Fin 1)) := by
  obtain ⟨e00, e01, e10, e11, e20, e21, -⟩ := idx_facts t
  unfold iblk
  rw [View.read_apply]
  show V m c main_v2 _ = V m c main_v2 _
  congr 1
  funext a
  apply Fin.ext
  match a with
  | ⟨0, _⟩ => show win0_2.index t (0 : Fin 2) * 256 + 1 * p.val = 256 * t.val + p.val; rw [e20]; omega
  | ⟨1, _⟩ => show win0_2.index t (1 : Fin 2) * 1 + 1 * 0 = 0; rw [e21]

/-- A row window's block is, at every point, the whole of its one-row array. -/
theorem iblk3_apply (c : Dev nD) (t : Fin cfg0.N) (q : Fin 4096) :
    (iblk m c 3 t : Vec F S1x4096 .f32) (ix2 (0 : Fin 1) q) = (V m c main_v5 : S1x4096.Idx → Elt F .f32) (ix2 (0 : Fin 1) q) := by
  obtain ⟨-, -, -, -, -, -, e30, e31, e40, e41, e50, e51, -⟩ := idx_facts t
  unfold iblk
  rw [View.read_apply]
  show V m c main_v5 _ = V m c main_v5 _
  congr 1
  funext a
  apply Fin.ext
  match a with
  | ⟨0, _⟩ => show win0_3.index t (0 : Fin 2) * 1 + 1 * 0 = 0; rw [e30]
  | ⟨1, _⟩ => show win0_3.index t (1 : Fin 2) * 4096 + 1 * q.val = q.val; rw [e31]; omega
theorem iblk4_apply (c : Dev nD) (t : Fin cfg0.N) (q : Fin 4096) :
    (iblk m c 4 t : Vec F S1x4096 .f32) (ix2 (0 : Fin 1) q) = (V m c main_v8 : S1x4096.Idx → Elt F .f32) (ix2 (0 : Fin 1) q) := by
  obtain ⟨-, -, -, -, -, -, e30, e31, e40, e41, e50, e51, -⟩ := idx_facts t
  unfold iblk
  rw [View.read_apply]
  show V m c main_v8 _ = V m c main_v8 _
  congr 1
  funext a
  apply Fin.ext
  match a with
  | ⟨0, _⟩ => show win0_4.index t (0 : Fin 2) * 1 + 1 * 0 = 0; rw [e40]
  | ⟨1, _⟩ => show win0_4.index t (1 : Fin 2) * 4096 + 1 * q.val = q.val; rw [e41]; omega
theorem iblk5_apply (c : Dev nD) (t : Fin cfg0.N) (q : Fin 4096) :
    (iblk m c 5 t : Vec F S1x4096 .f32) (ix2 (0 : Fin 1) q) = (V m c main_v9 : S1x4096.Idx → Elt F .f32) (ix2 (0 : Fin 1) q) := by
  obtain ⟨-, -, -, -, -, -, e30, e31, e40, e41, e50, e51, -⟩ := idx_facts t
  unfold iblk
  rw [View.read_apply]
  show V m c main_v9 _ = V m c main_v9 _
  congr 1
  funext a
  apply Fin.ext
  match a with
  | ⟨0, _⟩ => show win0_5.index t (0 : Fin 2) * 1 + 1 * 0 = 0; rw [e50]
  | ⟨1, _⟩ => show win0_5.index t (1 : Fin 2) * 4096 + 1 * q.val = q.val; rw [e51]; omega

/-- The row-index word of row p of tile `t` is the word of the global row 256·t + p. -/
theorem row_word (t : Fin cfg0.N) (p : Fin 256) :
    IntOp.addi (IntOp.muli (BitVec.ofNat 32 ((grid0.coords t) 0).val) 256#32) (BitVec.ofNat 32 p.val) = BitVec.ofNat 32 (row t p).val := by
  obtain ⟨-, -, -, -, -, -, -, -, -, -, -, -, -, -, ec⟩ := idx_facts t
  have ht : t.val < 16 := by have hN : cfg0.N = 16 := N_0; have := t.isLt; omega
  unfold IntOp.addi IntOp.muli row
  rw [ec]
  apply BitVec.eq_of_toNat_eq
  simp only [BitVec.toNat_add, BitVec.toNat_mul, BitVec.toNat_ofNat, Nat.reducePow]
  omega

/-- The body's store at point `t`, read at an index of the tile, is the candidate-pair matrix at the tile's place. -/
theorem block_eq (c : Dev nD) (t : Fin cfg0.N) (y : S256x4096.Idx) :
    k0_pay1 (grid0.coords t) (iblk m c 0 t) (iblk m c 3 t) (iblk m c 1 t) (iblk m c 4 t) (iblk m c 2 t) (iblk m c 5 t) y
      = ovWord (pos m c) (rad m c) (ix2 (row t (y 0)) (y 1)) := by
  obtain ⟨p, q, rfl⟩ : ∃ (p : Fin 256) (q : Fin 4096), y = ix2 p q := ⟨y 0, y 1, eq_ix2 y⟩
  refine (pay_apply ..).trans ?_
  rw [iblk0_apply, iblk1_apply, iblk2_apply, iblk3_apply, iblk4_apply, iblk5_apply, V_v0, V_v1, V_v2, V_v5, V_v8, V_v9, row_word]
  rfl

/-- What point `t` writes back is block `t` of the candidate-pair matrix. -/
theorem flushed_eq (c : Dev nD) (t : Fin cfg0.N) :
    (dats m 0 c).flushed 6 t = ((cfg0.win 6).blk t).view.read (Elt F) (ovWord (pos m c) (rad m c)) := by
  obtain ⟨-, -, -, -, -, -, -, -, -, -, -, -, e60, e61, -⟩ := idx_facts t
  show (cfg0.win 6).cut (grid0.coords t) ((dats m 0 c).after 6 t) = _
  rw [after6]
  unfold out6
  rw [View.canon_unit_zero hz]
  simp only [View.ld_unit_zero (S := S256x1) hz, View.ld_unit_zero (S := S1x4096) hz]
  funext y
  show k0_pay1 (grid0.coords t) (iblk m c 0 t) (iblk m c 3 t) (iblk m c 1 t) (iblk m c 4 t) (iblk m c 2 t) (iblk m c 5 t) y
      = ovWord (pos m c) (rad m c) (((cfg0.win 6).blk t).view.emb y)
  have hk : ((cfg0.win 6).blk t).view.emb y = (ix2 (row t (y 0)) (y 1) : SM.Idx) := by
    funext a; apply Fin.ext
    match a with
    | ⟨0, _⟩ => show win0_6.index t (0 : Fin 2) * 256 + 1 * (y 0).val = 256 * t.val + (y 0).val; rw [e60]; omega
    | ⟨1, _⟩ => show win0_6.index t (1 : Fin 2) * 4096 + 1 * (y 1).val = (y 1).val; rw [e61]; omega
  rw [hk]
  exact block_eq m c t y

/-- An index of the matrix is in point `t`'s block iff each coordinate is in the block's range on its axis. -/
theorem mem_blk (t : Fin cfg0.N) (i : S4096x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v10).slice (win0_6.rect t)).set ↔ _
  rw [View.set_slice_whole, Rect.mem_set_unit]
  exact Iff.rfl

/-- Every index of the matrix is in the block of the point that holds its row: point ⌊row / 256⌋. -/
theorem cover (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, -, -, e60, e61, -⟩ := idx_facts t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    rw [e60, ht]; omega
  | ⟨1, _⟩ =>
    show win0_6.index t (1 : Fin 2) * 4096 ≤ (i 1).val ∧ (i 1).val < win0_6.index t (1 : Fin 2) * 4096 + 4096
    rw [e61]; omega

/-- So the region's output array ends at the candidate-pair matrix of the two arguments. -/
theorem final (c : Dev nD) : (dats m 0 c).arrAt 6 cfg0.N = ovWord (pos m c) (rad m c) :=
  (dats m 0 c).arrAt_eq_of_cover 6 (ovWord (pos m c) (rad m c)) (fun t _ => flushed_eq m c t) cover

end Cert.KernelIdeal.Overlap

end
-- ==== Proof.KernelIdeal.Flat.lean ====
/-
  The first five host operations after the region turn the region's 0/1 word matrix into truth bits (compare with zero,
  a conversion that changes nothing) and flatten it. When the matrix is the candidate-pair matrix of two arrays, the
  flattened bits are `Spec.flat` of them: a bit widened to a word is nonzero exactly when the bit is set.
-/
import proofs.«167490_j40750649704463_1_alg».proof.Proof.Gen.KernelIdeal.Launch
import proofs.«167490_j40750649704463_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Flat

open Cert.KernelIdeal Cert.KernelIdeal.Gen Cert.Spec
open Idealize.ShloMosaic Idealize.ShloMosaic.TcCoe Idealize.ShloMosaic.StableHlo Idealize.ShloMosaic.ValueIdx
open Idealize.SL.Sem

variable {F : FTy → Type} [FloatOps F]

/-- A scalar broadcast to the 4096×4096 matrix reads the scalar at every pair. -/
theorem bc_s {α : Type} (x : S_.Idx → α) (h : S_.BroadcastsInDim S4096x4096 ![]) (i j : Fin 4096) :
    broadcastInDim S4096x4096 ![] h x (ix2 i j) = x ix0 :=
  broadcastInDim_apply _ h x _ _ (fun a => a.elim0)

/-- A bit widened to a 32-bit word differs from zero exactly when it is set. -/
theorem ne_zero_of_widened (b : BitVec 1) : IntOp.cmpi .ne (b.setWidth 32) 0#32 = b := by revert b; decide

/-- The flattened truth bits the later lines compact, when the region left the candidate-pair matrix of `pos` and `rad`. -/
theorem flat_ker (W : Valuation τ sig (Elt F)) (pos : FVec F SP .f32) (rad : FVec F SR .f32)
    (hov : (W (Proc.devRef .tc main_v10) : S4096x4096.Idx → BitVec 32) = ovWord pos rad) :
    (after (List.take 5 hostOps1) W (Proc.devRef .tc main_v14) : S16777216.Idx → BitVec 1) = flat pos rad := by
  have e : (after (List.take 5 hostOps1) W (Proc.devRef .tc main_v14) : S16777216.Idx → BitVec 1)
      = shapeCast S16777216 (id (cmpi .ne (W (Proc.devRef .tc main_v10) : S4096x4096.Idx → BitVec 32)
          (broadcastInDim S4096x4096 ![] bcast_S_S4096x4096 (constantI S_ 32 0#32)))) shapeCasts_S4096x4096_S16777216 := by
    simp only [hostOps1, List.take_succ_cons, List.take_zero]
    (after_results) <;> rfl
  rw [e, hov]
  unfold flat
  congr 1
  funext k
  obtain ⟨i, j, rfl⟩ : ∃ (i j : Fin 4096), k = ix2 i j := ⟨k 0, k 1, eq_ix2 k⟩
  show IntOp.cmpi .ne (ovWord pos rad (ix2 i j)) (broadcastInDim S4096x4096 ![] bcast_S_S4096x4096 (constantI S_ 32 0#32) (ix2 i j)) = ovBit pos rad i j
  rw [ovWord_apply, bc_s]
  exact ne_zero_of_widened _

end Cert.KernelIdeal.Flat

end
-- ==== Proof.ReferenceIdeal.Flat.lean ====
/-
  The reference's broad phase read at a pair. The reference forms |pos[:, None, :] − pos[None, :, :]| ≤ (r[:, None] + r[None, :])[..., None]
  on a 4096×4096×2 array, reduces the last axis (its two entries) by `and` from `true`, and masks the diagonal with `~eye`. Read at
  (i, j): each broadcast reads its operand at the coordinates it keeps, the reduce is the `and` of the two axis tests, and the mask
  is "the index words of i and j differ" — the candidate-pair bit `Spec.ovBit` of the two arguments. Flattened, that is `Spec.flat`.
-/
import proofs.«167490_j40750649704463_1_alg».proof.Proof.ReferenceIdeal.Run
import proofs.«167490_j40750649704463_1_alg».proof.Proof.Spec
import Idealize.ShloMosaic.Lib.Pipeline.Value
import Idealize.ShloMosaic.Lib.ValueIdx
import Idealize.ShloMosaic.PureOps.Reduce

set_option maxRecDepth 16384

noncomputable section

namespace Cert.ReferenceIdeal.Flat

open Cert.ReferenceIdeal Cert.ReferenceIdeal.Gen Cert.ReferenceIdeal.Ops Cert.Spec
open Idealize.ShloMosaic Idealize.ShloMosaic.TcCoe Idealize.ShloMosaic.StableHlo Idealize.ShloMosaic.ValueIdx
open Idealize.SL.Sem

/-! ## The broadcasts read at an index -/

section Layout
variable {α : Type} (i j : Fin 4096) (k : Fin 2)

theorem bc3_a (x : S4096x1x2.Idx → α) (h : S4096x1x2.BroadcastsInDim S4096x4096x2 ![0, 1, 2]) :
    broadcastInDim S4096x4096x2 ![0, 1, 2] h x (ix3 i j k) = x (ix3 i (0 : Fin 1) k) :=
  broadcastInDim_apply _ h x _ _ (fun a => by match a with | ⟨0, _⟩ => rfl | ⟨1, _⟩ => rfl | ⟨2, _⟩ => rfl)
theorem bc3_b (x : S1x4096x2.Idx → α) (h : S1x4096x2.BroadcastsInDim S4096x4096x2 ![0, 1, 2]) :
    broadcastInDim S4096x4096x2 ![0, 1, 2] h x (ix3 i j k) = x (ix3 (0 : Fin 1) j k) :=
  broadcastInDim_apply _ h x _ _ (fun a => by match a with | ⟨0, _⟩ => rfl | ⟨1, _⟩ => rfl | ⟨2, _⟩ => rfl)
theorem bc3_c (x : S4096x4096x1.Idx → α) (h : S4096x4096x1.BroadcastsInDim S4096x4096x2 ![0, 1, 2]) :
    broadcastInDim S4096x4096x2 ![0, 1, 2] h x (ix3 i j k) = x (ix3 i j (0 : Fin 1)) :=
  broadcastInDim_apply _ h x _ _ (fun a => by match a with | ⟨0, _⟩ => rfl | ⟨1, _⟩ => rfl | ⟨2, _⟩ => rfl)
theorem bc_p0 (x : S4096x2.Idx → α) (h : S4096x2.BroadcastsInDim S4096x1x2 ![0, 2]) :
    broadcastInDim S4096x1x2 ![0, 2] h x (ix3 i (0 : Fin 1) k) = x (ix2 i k) :=
  broadcastInDim_apply _ h x _ _ (fun a => by match a with | ⟨0, _⟩ => rfl | ⟨1, _⟩ => rfl)
theorem bc_p1 (x : S4096x2.Idx → α) (h : S4096x2.BroadcastsInDim S1x4096x2 ![1, 2]) :
    broadcastInDim S1x4096x2 ![1, 2] h x (ix3 (0 : Fin 1) j k) = x (ix2 j k) :=
  broadcastInDim_apply _ h x _ _ (fun a => by match a with | ⟨0, _⟩ => rfl | ⟨1, _⟩ => rfl)
theorem bc_m (x : S4096x4096.Idx → α) (h : S4096x4096.BroadcastsInDim S4096x4096x1 ![0, 1]) :
    broadcastInDim S4096x4096x1 ![0, 1] h x (ix3 i j (0 : Fin 1)) = x (ix2 i j) :=
  broadcastInDim_apply _ h x _ _ (fun a => by match a with | ⟨0, _⟩ => rfl | ⟨1, _⟩ => rfl)
theorem bc_c (x : S4096x1.Idx → α) (h : S4096x1.BroadcastsInDim S4096x4096 ![0, 1]) :
    broadcastInDim S4096x4096 ![0, 1] h x (ix2 i j) = x (ix2 i (0 : Fin 1)) :=
  broadcastInDim_apply _ h x _ _ (fun a => by match a with | ⟨0, _⟩ => rfl | ⟨1, _⟩ => rfl)
theorem bc_r (x : S1x4096.Idx → α) (h : S1x4096.BroadcastsInDim S4096x4096 ![0, 1]) :
    broadcastInDim S4096x4096 ![0, 1] h x (ix2 i j) = x (ix2 (0 : Fin 1) j) :=
  broadcastInDim_apply _ h x _ _ (fun a => by match a with | ⟨0, _⟩ => rfl | ⟨1, _⟩ => rfl)
theorem bc_rc (x : S4096.Idx → α) (h : S4096.BroadcastsInDim S4096x1 ![0]) :
    broadcastInDim S4096x1 ![0] h x (ix2 i (0 : Fin 1)) = x (ix1 i) :=
  broadcastInDim_apply _ h x _ _ (fun a => by match a with | ⟨0, _⟩ => rfl)
theorem bc_rr (x : S4096.Idx → α) (h : S4096.BroadcastsInDim S1x4096 ![1]) :
    broadcastInDim S1x4096 ![1] h x (ix2 (0 : Fin 1) j) = x (ix1 j) :=
  broadcastInDim_apply _ h x _ _ (fun a => by match a with | ⟨0, _⟩ => rfl)
theorem bc_s (x : S_.Idx → α) (h : S_.BroadcastsInDim S4096x4096 ![]) :
    broadcastInDim S4096x4096 ![] h x (ix2 i j) = x ix0 :=
  broadcastInDim_apply _ h x _ _ (fun a => a.elim0)

end Layout

/-! ## The reduce over the two axis tests -/

/-- A fold over the two indices of `Fin 2`, for a commutative and associative operation. -/
theorem fold_two {β : Type} (f : β → β → β) [Std.Commutative f] [Std.Associative f] (b : β) (g : Fin 2 → β) :
    (Finset.univ : Finset (Fin 2)).fold f b g = f (g 0) (f (g 1) b) := by
  rw [show (Finset.univ : Finset (Fin 2)) = insert 0 {1} from by decide, Finset.fold_insert (by decide), Finset.fold_singleton]

theorem red : S4096x4096x2.Reduces [(2 : Fin 3)] S4096x4096 := by decide

/-- The index of the 4096×4096×2 array over (i, j) with last coordinate k. -/
theorem lift_eq (i j : Fin 4096) (k : Fin 2) : red.lift (ix2 i j) k = (ix3 i j k : S4096x4096x2.Idx) := by
  funext c; apply Fin.ext
  match c with
  | ⟨0, _⟩ => rfl
  | ⟨1, _⟩ => rfl
  | ⟨2, _⟩ => rfl

/-- The `and`-reduce of the last axis at (i, j): the two entries and the initial bit. -/
theorem reduce_apply (x : S4096x4096x2.Idx → BitVec 1) (init : S_.Idx → BitVec 1) (h' : S4096x4096x2.ReducesTo [(2 : Fin 3)] S4096x4096)
    (hu : 0 < S_.numel) (i j : Fin 4096) :
    Host.reduce IntOp.andi x init h' hu (ix2 i j)
      = IntOp.andi (x (ix3 i j (0 : Fin 2))) (IntOp.andi (x (ix3 i j (1 : Fin 2))) (init (Shape.Idx.first hu))) := by
  rw [Host.reduce_eq_fold_single IntOp.andi x init h' red hu (ix2 i j)]
  refine (fold_two IntOp.andi (init (Shape.Idx.first hu)) (x ∘ red.lift (ix2 i j))).trans ?_
  show IntOp.andi (x (red.lift (ix2 i j) (0 : Fin 2))) (IntOp.andi (x (red.lift (ix2 i j) (1 : Fin 2))) _) = _
  rw [lift_eq, lift_eq]

/-! ## The reference's pair matrix -/

/-- The reference's first 21 values: the pair matrix as whole-array operations of the two arguments. -/
def refMat (pos : FVec Ideal S4096x2 .f32) (rad : FVec Ideal S4096 .f32) : IVec S4096x4096 1 :=
  andi
    (Host.reduce IntOp.andi
      (cmpf .ole
        (Host.absf (subf
          (broadcastInDim S4096x4096x2 ![0, 1, 2] bcast_S4096x1x2_S4096x4096x2_0_1_2 (broadcastInDim S4096x1x2 ![0, 2] bcast_S4096x2_S4096x1x2_0_2 pos))
          (broadcastInDim S4096x4096x2 ![0, 1, 2] bcast_S1x4096x2_S4096x4096x2_0_1_2 (broadcastInDim S1x4096x2 ![1, 2] bcast_S4096x2_S1x4096x2_1_2 pos))))
        (broadcastInDim S4096x4096x2 ![0, 1, 2] bcast_S4096x4096x1_S4096x4096x2_0_1_2
          (broadcastInDim S4096x4096x1 ![0, 1] bcast_S4096x4096_S4096x4096x1_0_1
            (addf (broadcastInDim S4096x4096 ![0, 1] bcast_S4096x1_S4096x4096_0_1 (broadcastInDim S4096x1 ![0] bcast_S4096_S4096x1_0 rad))
              (broadcastInDim S4096x4096 ![0, 1] bcast_S1x4096_S4096x4096_0_1 (broadcastInDim S1x4096 ![1] bcast_S4096_S1x4096_1 rad))))))
      (constantI S_ 1 1#1) reducesTo_S4096x4096x2_S4096x4096_d2 h_S_)
    (noti (cmpi .eq (addi (iotaInDim S4096x4096 32 0) (broadcastInDim S4096x4096 ![] bcast_S_S4096x4096 (constantI S_ 32 0#32)))
      (iotaInDim S4096x4096 32 1)))

/-- Bit algebra: the two tests and the initial `true`, masked by "not equal", in the two programs' spellings. -/
theorem bits (a b : BitVec 1) (x y : BitVec 32) :
    IntOp.andi (IntOp.andi a (IntOp.andi b 1#1)) (~~~(IntOp.cmpi .eq (IntOp.addi x 0#32) y))
      = IntOp.andi (IntOp.andi a b) (IntOp.cmpi .ne x y) := by
  have e : ~~~(IntOp.cmpi .eq (IntOp.addi x 0#32) y) = IntOp.cmpi .ne x y := by
    unfold IntOp.cmpi IntOp.addi
    rw [BitVec.add_zero]
    show ~~~(BitVec.ofBool (x == y)) = BitVec.ofBool (x != y)
    cases h : (x == y) <;> simp [bne, h]
  rw [e]
  generalize IntOp.cmpi .ne x y = n
  revert a b n; decide

/-- The reference's pair matrix at (i, j) is the candidate-pair bit. -/
theorem refMat_apply (pos : FVec Ideal S4096x2 .f32) (rad : FVec Ideal S4096 .f32) (i j : Fin 4096) :
    refMat pos rad (ix2 i j) = ovBit pos rad i j := by
  unfold refMat
  simp only [andi, noti, cmpi, addi, iotaInDim, reduce_apply, cmpf, Host.absf, subf, constantI]
  rw [bc3_a, bc3_b, bc3_c, bc3_a, bc3_b, bc3_c, bc_p0, bc_p1, bc_p0, bc_p1, bc_m, bc_s]
  simp only [addf]
  rw [bc_c, bc_r, bc_rc, bc_rr]
  exact bits _ _ _ _

/-- The reference's value %22 — the flattened pair matrix — after its first 25 operations, from any contents. -/
theorem flat_ref (V : Valuation τ sig (Elt Ideal)) :
    (after (List.take 25 s0_0) V (Proc.devRef .tc main_v22) : S16777216.Idx → BitVec 1)
      = flat (F := Ideal) (V (Proc.devRef .tc main_arg0) : FVec Ideal SP .f32) (V (Proc.devRef .tc main_arg1) : FVec Ideal SR .f32) := by
  have e : (after (List.take 25 s0_0) V (Proc.devRef .tc main_v22) : S16777216.Idx → BitVec 1)
      = shapeCast S16777216 (refMat (V (Proc.devRef .tc main_arg0) : FVec Ideal S4096x2 .f32) (V (Proc.devRef .tc main_arg1) : FVec Ideal S4096 .f32)) shapeCasts_S4096x4096_S16777216 := by
    simp only [s0_0, List.take_succ_cons, List.take_zero]
    (after_results) <;> rfl
  have hm : refMat (V (Proc.devRef .tc main_arg0) : FVec Ideal S4096x2 .f32) (V (Proc.devRef .tc main_arg1) : FVec Ideal S4096 .f32)
      = fun k : SM.Idx => ovBit (F := Ideal) (V (Proc.devRef .tc main_arg0) : FVec Ideal SP .f32) (V (Proc.devRef .tc main_arg1) : FVec Ideal SR .f32) (k 0) (k 1) := by
    funext k
    obtain ⟨i, j, rfl⟩ : ∃ (i j : Fin 4096), k = ix2 i j := ⟨k 0, k 1, eq_ix2 k⟩
    exact refMat_apply _ _ i j
  rw [e, hm]
  rfl

end Cert.ReferenceIdeal.Flat

end
-- ==== Proof.Bridge.lean ====
/-
  The two idealized programs end with equal results. Each program's result is the shared tail (`Tails.tails_agree`) run on
  the flattened candidate-pair bits, the positions and the radii: the kernel program's bits are what its region wrote
  (`Overlap.final`) read through the five lines that flatten it (`Flat.flat_ker`), the reference's are its own first 25
  operations (`Flat.flat_ref`); both are `Spec.flat` of the two arguments, which the two launch memories agree on.
-/
import proofs.«167490_j40750649704463_1_alg».proof.Proof.Tails
import proofs.«167490_j40750649704463_1_alg».proof.Proof.KernelIdeal.Overlap
import proofs.«167490_j40750649704463_1_alg».proof.Proof.KernelIdeal.Flat
import proofs.«167490_j40750649704463_1_alg».proof.Proof.ReferenceIdeal.Flat

set_option maxRecDepth 16384

noncomputable section

namespace Cert.Bridge

open Idealize.ShloMosaic Idealize.ShloMosaic.TcCoe Idealize.ShloMosaic.StableHlo Idealize.SL.Sem Cert.Spec Cert.Tails

/-- An operation of a prefix of a line is an operation of the line. -/
theorem forall_take {α : Type} {P : α → Prop} {l : List α} (h : l.Forall P) (n : Nat) : ∀ x ∈ l.take n, P x :=
  fun x hx => List.forall_iff_forall_mem.mp h x (List.mem_of_mem_take hx)

/-! ## The two results -/

section Ideal

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the kernel program's region leaves on core `c`: its arrays as the run computes them, every other buffer as entered. -/
abbrev W1 (c : Dev Cert.KernelIdeal.nD) : Valuation Cert.KernelIdeal.τ Cert.KernelIdeal.sig (Elt Ideal) :=
  Pipeline.withArrays (Cert.KernelIdeal.cfgs 0).spec c (Cert.KernelIdeal.Host.V0 m c) fun w => (Cert.KernelIdeal.Frame.dats m 0 c).arrAt w (Cert.KernelIdeal.cfgs 0).N

/-- The kernel program's result is the shared tail run from the region's exit contents after the five flattening lines. -/
theorem resultK (c : Dev Cert.KernelIdeal.nD) :
    Pipeline.afterTail₀ Cert.KernelIdeal.cfgs (Cert.KernelIdeal.Frame.dats m) 0 (Cert.KernelIdeal.Host.V0 m) Cert.KernelIdeal.Host.tail c Cert.KernelIdeal.main_v166
      = after tK (after (List.take 5 Cert.KernelIdeal.Gen.hostOps1) (W1 m c)) (Proc.devRef .tc Cert.KernelIdeal.main_v166) := by
  unfold Pipeline.afterTail₀
  rw [tailK_split, StableHlo.after_append]

/-- The region's output array among those contents is the candidate-pair matrix. -/
theorem W1_ov (c : Dev Cert.KernelIdeal.nD) :
    (W1 m c (Proc.devRef .tc Cert.KernelIdeal.main_v10) : Cert.KernelIdeal.S4096x4096.Idx → BitVec 32) = ovWord (Cert.KernelIdeal.Overlap.pos m c) (Cert.KernelIdeal.Overlap.rad m c) :=
  (Pipeline.withArrays_arr Cert.KernelIdeal.spec0 Cert.KernelIdeal.Gen.launch0.win.arr_inj c _ _ 6).trans (Cert.KernelIdeal.Overlap.final m c)

/-- An argument among those contents, and after the five flattening lines, is as launched. -/
theorem WK_arg (c : Dev Cert.KernelIdeal.nD) {r : Ref Cert.KernelIdeal.sig .tc} (hr : r ∈ Cert.KernelIdeal.Host.args) (hg : r ∈ Cert.KernelIdeal.Host.guarded)
    (hne : ∀ w, Pipeline.arrRef Cert.KernelIdeal.spec0 w ≠ r) :
    after (List.take 5 Cert.KernelIdeal.Gen.hostOps1) (W1 m c) (Proc.devRef .tc r) = m ((c : Thread Cert.KernelIdeal.nD Cert.KernelIdeal.τ).loc r) := by
  rw [after_of_forall_not_mem (b := Proc.devRef .tc r) _ _ (fun op hop => forall_take Cert.KernelIdeal.Host.keeps_0 5 op hop r hg)]
  exact (Pipeline.withArrays_of_ne _ c (Cert.KernelIdeal.Host.V0 m c) _ r hne).trans (Cert.KernelIdeal.Host.V_arg m c hr)

/-- An argument after the reference's first 25 operations is as launched. -/
theorem WR_arg (V : Valuation Cert.ReferenceIdeal.τ Cert.ReferenceIdeal.sig (Elt Ideal)) {r : Ref Cert.ReferenceIdeal.sig .tc} (hr : r ∈ Cert.ReferenceIdeal.Run.args) :
    after (List.take 25 Cert.ReferenceIdeal.Ops.s0_0) V (Proc.devRef .tc r) = V (Proc.devRef .tc r) :=
  after_of_forall_not_mem (b := Proc.devRef .tc r) _ _ (fun op hop => forall_take Cert.ReferenceIdeal.Run.keeps_s0_0 25 op hop r hr)

set_option maxHeartbeats 1600000 in
/-- THE BRIDGE: from launch memories that agree on the two arguments, the kernel program's result is the reference's. -/
theorem results_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    after Cert.ReferenceIdeal.Run.ops (launchContents m' c) (Proc.devRef .tc Cert.ReferenceIdeal.main_v174)
      = Pipeline.afterTail₀ Cert.KernelIdeal.cfgs (Cert.KernelIdeal.Frame.dats m) 0 (Cert.KernelIdeal.Host.V0 m) Cert.KernelIdeal.Host.tail c Cert.KernelIdeal.main_v166 := by
  rw [resultK, opsR_split, StableHlo.after_append]
  refine (tails_agree _ _ ?_ ?_ ?_).symm
  · exact ((Cert.KernelIdeal.Flat.flat_ker _ _ _ (W1_ov m c)).trans (congrArg₂ (flat (F := Ideal)) h0.symm h1.symm)).trans
      (Cert.ReferenceIdeal.Flat.flat_ref (launchContents m' c)).symm
  · exact ((WK_arg m c (r := Cert.KernelIdeal.main_arg0) (by decide) (by decide) (by decide)).trans h0.symm).trans
      (WR_arg (launchContents m' c) (r := Cert.ReferenceIdeal.main_arg0) (by decide)).symm
  · exact ((WK_arg m c (r := Cert.KernelIdeal.main_arg1) (by decide) (by decide) (by decide)).trans h1.symm).trans
      (WR_arg (launchContents m' c) (r := Cert.ReferenceIdeal.main_arg1) (by decide)).symm

end Ideal

end Cert.Bridge

end
-- ==== Proof.lean ====
/-
  The five claims of this certificate. The kernel program is one Pallas region — the broad-phase scan that marks, for every
  pair of the 4096 bodies, whether their boxes overlap on both axes and the two are different bodies — between ten host
  operations that cut the arguments into its operands and 244 that compact the marked pairs, test true penetration and push
  the bodies apart; the reference does the broad phase with whole-array operations and then runs the same 244-operation text.

  Frames (the word-level program, its idealization, the reference): each program terminates without a fault and leaves its
  two arguments as launched. For the two kernel programs this is the library's launch theorem for "host lines, one region,
  host lines" over a proof datum that says each input staging buffer holds its block and the output's holds the body's one
  store; for the reference it is the straight-line run of its operations. No operation of any of them writes an argument.

  preserves: the ideal pass rewrote nothing, so there is nothing to restate.

  algebraic: read at the extended reals, the kernel's region leaves the candidate-pair matrix (box overlap on both axes, and
  i ≠ j) of the arguments, and so does the reference's broad phase: the same comparisons of the same differences and sums, a
  size-two `and`-reduce against two `and`s, `~eye` against "row index ≠ lane index". Everything after that is one function
  of the flattened matrix, the positions and the radii in both programs, so the results are equal. No law of arithmetic is
  used, and finiteness of the inputs is never needed.
-/
import proofs.«167490_j40750649704463_1_alg».proof.Defs
import proofs.«167490_j40750649704463_1_alg».proof.Proof.Gen.Kernel
import proofs.«167490_j40750649704463_1_alg».proof.Proof.Gen.KernelIdeal
import proofs.«167490_j40750649704463_1_alg».proof.Proof.Gen.ReferenceIdeal
import proofs.«167490_j40750649704463_1_alg».proof.Proof.Gen.Pre_finite_inputs
import proofs.«167490_j40750649704463_1_alg».proof.Proof.Kernel.Frame
import proofs.«167490_j40750649704463_1_alg».proof.Proof.KernelIdeal.Frame
import proofs.«167490_j40750649704463_1_alg».proof.Proof.ReferenceIdeal.Run
import proofs.«167490_j40750649704463_1_alg».proof.Proof.Bridge

noncomputable section

namespace Cert.Proof

open Idealize.ShloMosaic Idealize.ShloMosaic.TcCoe Idealize.SL.Sem

theorem frame_kernel : Cert.frame_Kernel := fun m ρ _ => Cert.Kernel.Frame.frame m ρ
theorem frame_kernelIdeal : Cert.frame_KernelIdeal := fun m ρ _ => Cert.KernelIdeal.Frame.frame m ρ
theorem frame_referenceIdeal : Cert.frame_ReferenceIdeal := fun m ρ _ => Cert.ReferenceIdeal.Run.frame m ρ

/-- The ideal pass rewrote no operation. -/
theorem preserves : Cert.preserves_Kernel_KernelIdeal := trivial

/-- Both idealized programs run, the arguments unchanged, and end with the same result: the kernel program's, which the
    reference's equals by `Bridge.results_agree`. -/
theorem algebraic : Cert.algebraic_KernelIdeal_ReferenceIdeal := by
  intro m ρ m' ρ' _ hagree
  refine ⟨fun c => Pipeline.afterTail₀ Cert.KernelIdeal.cfgs (Cert.KernelIdeal.Frame.dats m) 0 (Cert.KernelIdeal.Host.V0 m)
    Cert.KernelIdeal.Host.tail c Cert.KernelIdeal.main_v166, ?_, ?_⟩
  · refine (θ_run Cert.KernelIdeal.defs _ _).mono (fun r h c => ⟨?_, ?_, ?_⟩) (Cert.KernelIdeal.Frame.run_main m ρ)
    · exact (h c).2 Cert.KernelIdeal.main_v166 (Pipeline.mem_restRefs_of Cert.KernelIdeal.main_v166 (by decide) (by decide))
    · exact ((h c).2 Cert.KernelIdeal.main_arg0 (Pipeline.mem_restRefs_of Cert.KernelIdeal.main_arg0 (by decide) (by decide))).trans
        (Cert.KernelIdeal.Host.W_arg m (Cert.KernelIdeal.Frame.dats m) c (by decide))
    · exact ((h c).2 Cert.KernelIdeal.main_arg1 (Pipeline.mem_restRefs_of Cert.KernelIdeal.main_arg1 (by decide) (by decide))).trans
        (Cert.KernelIdeal.Host.W_arg m (Cert.KernelIdeal.Frame.dats m) c (by decide))
  · refine (θ_run Cert.ReferenceIdeal.defs _ _).mono (fun r h c => ⟨?_, ?_, ?_⟩) (Cert.ReferenceIdeal.Run.run m' ρ')
    · exact (h c Cert.ReferenceIdeal.main_v174).trans (Cert.Bridge.results_agree m m' c (hagree c).1 (hagree c).2)
    · exact (h c Cert.ReferenceIdeal.main_arg0).trans (Cert.ReferenceIdeal.Run.after_arg _ (by decide))
    · exact (h c Cert.ReferenceIdeal.main_arg1).trans (Cert.ReferenceIdeal.Run.after_arg _ (by decide))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
